-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S1024x32 .f32 .bf16
  ∧ IdealRules.truncf_extf.Statement Cert.KernelIdeal.S32x64 .f32 .bf16
  ∧ IdealRules.truncf_extf.Statement Cert.KernelIdeal.S2048x1024 .f32 .bf16
  ∧ IdealRules.truncf_extf.Statement Cert.KernelIdeal.S1024x64 .f32 .bf16
  ∧ IdealRules.truncf_extf.Statement Cert.KernelIdeal.S1024x64 .f32 .bf16
  ∧ IdealRules.truncf_extf.Statement Cert.KernelIdeal.S64x64 .f32 .bf16
  ∧ IdealRules.truncf_extf.Statement Cert.KernelIdeal.S2048x1024 .f32 .bf16
  ∧ IdealRules.truncf_extf.Statement Cert.KernelIdeal.S1024x64 .f32 .bf16
  ∧ IdealRules.truncf_extf.Statement Cert.KernelIdeal.S2048x64 .f32 .bf16
  ∧ IdealRules.truncf_extf.Statement Cert.KernelIdeal.S64x32 .f32 .bf16
  ∧ IdealRules.truncf_extf.Statement Cert.KernelIdeal.S2048x32 .f32 .bf16
  ∧ IdealRules.truncf_extf.Statement Cert.KernelIdeal.S32x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S32x1 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x16384 .f32) (main_arg2 : FVec F S32x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S16384x64 : Shape := ⟨2, ![16384, 64]⟩
abbrev S2048x1024 : Shape := ⟨2, ![2048, 1024]⟩
abbrev S2048x64 : Shape := ⟨2, ![2048, 64]⟩
abbrev S1024x32 : Shape := ⟨2, ![1024, 32]⟩
abbrev S1024x64 : Shape := ⟨2, ![1024, 64]⟩
abbrev S1x32 : Shape := ⟨2, ![1, 32]⟩
abbrev S1x1 : Shape := ⟨2, ![1, 1]⟩
abbrev S16384x1 : Shape := ⟨2, ![16384, 1]⟩
abbrev S2048x1 : Shape := ⟨2, ![2048, 1]⟩
abbrev S2048x32 : Shape := ⟨2, ![2048, 32]⟩

abbrev nBuf : Space → Nat
  | .hbm => 16
  | .vmem => 20
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x64, .f32⟩
  | .hbm, ⟨11, _⟩ => ⟨S16384x64, .f32⟩
  | .hbm, ⟨12, _⟩ => ⟨S1x64, .f32⟩
  | .hbm, ⟨13, _⟩ => ⟨S1x32, .f32⟩
  | .hbm, ⟨14, _⟩ => ⟨S1x1, .f32⟩
  | .hbm, ⟨15, _⟩ => ⟨S16384x1, .f32⟩
  | .local _ .vmem, ⟨0, _⟩ => ⟨S2048x1024, .f32⟩
  | .local _ .vmem, ⟨1, _⟩ => ⟨S2048x1024, .f32⟩
  | .local _ .vmem, ⟨2, _⟩ => ⟨S16384x32, .f32⟩
  | .local _ .vmem, ⟨3, _⟩ => ⟨S32x64, .f32⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x1024, .f32⟩
  | .local _ .vmem, ⟨9, _⟩ => ⟨S2048x1024, .f32⟩
  | .local _ .vmem, ⟨10, _⟩ => ⟨S16384x64, .f32⟩
  | .local _ .vmem, ⟨11, _⟩ => ⟨S64x64, .f32⟩
  | .local _ .vmem, ⟨12, _⟩ => ⟨S1x64, .f32⟩
  | .local _ .vmem, ⟨13, _⟩ => ⟨S64x32, .f32⟩
  | .local _ .vmem, ⟨14, _⟩ => ⟨S1x32, .f32⟩
  | .local _ .vmem, ⟨15, _⟩ => ⟨S32x1, .f32⟩
  | .local _ .vmem, ⟨16, _⟩ => ⟨S1x1, .f32⟩
  | .local _ .vmem, ⟨17, _⟩ => ⟨S2048x1, .f32⟩
  | .local _ .vmem, ⟨18, _⟩ => ⟨S2048x1, .f32⟩
  | .local _ .vmem, ⟨19, _⟩ => ⟨S2048x64, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_14 : BitVec 32 := 0#32
  let v43 : BitVec 1 := Scalar.cmpi .ne v42 c0_i32_14
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1024x32 : 0 < S1024x32.numel
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S32_S1x32 : S32.ShapeCasts S1x32
  shapeCasts_S1_S1x1 : S1.ShapeCasts S1x1
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S1024x32_S32x64_S1024x64_1_0_0_1_n_n_wf : DotDims.WF S1024x32 S32x64 S1024x64 [1] [0] [0] [1] [] []
  dot_S2048x1024_S1024x64_S2048x64_1_0_0_1_n_n_wf : DotDims.WF S2048x1024 S1024x64 S2048x64 [1] [0] [0] [1] [] []
  dot_S1024x64_S64x64_S1024x64_1_0_0_1_n_n_wf : DotDims.WF S1024x64 S64x64 S1024x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x32.size a ≤ S16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x1.size a ≤ S16384x1.size a
  hwx1_8 : ∀ i : grid1.Coords, EltTy.bits .f32 = 32 ∨ (Rect.block (s := S16384x1) S2048x1.size (cc1_transform_8 i) (hinb1_8 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v1) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call1_v2) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S2048x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x64 : Shape := ⟨2, ![16384, 64]⟩
abbrev S1x64 : Shape := ⟨2, ![1, 64]⟩
abbrev S_ : Shape := ⟨0, ![]⟩
abbrev S1x32 : Shape := ⟨2, ![1, 32]⟩
abbrev S16384x1 : Shape := ⟨2, ![16384, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S16384x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x32, .f32⟩
  | .hbm, ⟨27, _⟩ => ⟨S1x32, .f32⟩
  | .hbm, ⟨28, _⟩ => ⟨S16384x32, .f32⟩
  | .hbm, ⟨29, _⟩ => ⟨S16384x32, .f32⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S16384x1, .f32⟩
  | .hbm, ⟨34, _⟩ => ⟨S1x1, .f32⟩
  | .hbm, ⟨35, _⟩ => ⟨S16384x1, .f32⟩
  | .hbm, ⟨36, _⟩ => ⟨S16384x1, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_cst : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x32_S32x64_S16384x64_1_0_0_1_n_n_wf : DotDims.WF S16384x32 S32x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The mathematics both programs compute, on the extended reals, as whole-array functions of the ten argument arrays:
  a two-layer graph convolution followed by a two-layer head,

      G1  = relu (A · (X · W1) + b1)          [16384, 64]
      G2  = relu (A · (G1 · W2) + b2)         [16384, 64]
      D3  = relu (G2 · Wd1 + bd1)             [16384, 32]
      OUT = D3 · Wd2 + bd2                    [16384, 1]

  with `·` the matrix product (a finite sum of products), a bias added to every row, and relu the maximum with 0.
  `IsReal v` says every entry of `v` is a real number (neither infinity): the hypothesis under which `x - x = 0`.
-/
import Idealize.ShloMosaic.Lib.ValueIdx
import Idealize.ShloMosaic.PureOps.Ideal

noncomputable section

namespace Cert.Spec

open Idealize.ShloMosaic Idealize.ShloMosaic.ValueIdx

/-- An `a × b` matrix of extended reals, indexed as the printed programs index a rank-2 array. -/
abbrev Mat (a b : Nat) : Type := (⟨2, ![a, b]⟩ : Shape).Idx → EReal
/-- A vector of `a` extended reals. -/
abbrev Vec1 (a : Nat) : Type := (⟨1, ![a]⟩ : Shape).Idx → EReal

/-- Every entry is a real number. -/
def IsReal {ι : Type} (v : ι → EReal) : Prop := ∀ j, ∃ r : ℝ, v j = (r : EReal)

/-- The matrix product: entry `(i, j)` is `∑ n, l (i, n) * r (n, j)`. -/
def mm {a k b : Nat} (l : Mat a k) (r : Mat k b) : Mat a b :=
  fun j => ∑ n : Fin k, l (ix2 (j 0 : Fin a) n) * r (ix2 n (j 1 : Fin b))

/-- A bias added to every row, then the positive part. -/
def biasRelu {a b : Nat} (v : Mat a b) (bias : Vec1 b) : Mat a b :=
  fun j => max (v j + bias (ix1 (j 1 : Fin b))) 0

/-- A bias added to every row. -/
def addBias {a b : Nat} (v : Mat a b) (bias : Vec1 b) : Mat a b :=
  fun j => v j + bias (ix1 (j 1 : Fin b))

variable (X : Mat 16384 32) (A : Mat 16384 16384) (W1 : Mat 32 64) (b1 : Vec1 64) (W2 : Mat 64 64) (b2 : Vec1 64)
  (Wd1 : Mat 64 32) (bd1 : Vec1 32) (Wd2 : Mat 32 1) (bd2 : Vec1 1)

/-- The first layer's projected features, `X · W1`. -/
def H1 : Mat 16384 64 := mm X W1
/-- The first layer. -/
def G1 : Mat 16384 64 := biasRelu (mm A (H1 X W1)) b1
/-- The second layer's projected features, `G1 · W2`. -/
def H2 : Mat 16384 64 := mm (G1 X A W1 b1) W2
/-- The second layer. -/
def G2 : Mat 16384 64 := biasRelu (mm A (H2 X A W1 b1 W2)) b2
/-- The head's hidden layer. -/
def D3 : Mat 16384 32 := biasRelu (mm (G2 X A W1 b1 W2 b2) Wd1) bd1
/-- The result. -/
def OUT : Mat 16384 1 := addBias (mm (D3 X A W1 b1 W2 b2 Wd1 bd1) Wd2) bd2

end Cert.Spec

end
-- ==== Proof.RefSide.lean ====
/-
  The reference program computes the two-layer graph convolution with its two-layer head: its result array is
  Cert.Spec.OUT of its ten arguments. Stage by stage: each dot_general is the matrix product, each broadcast
  of a bias followed by an addition and a maximum with the zero constant is the biased positive part.
-/
import proofs.«100211_j10565619548474_2_alg».proof.Proof.Gen.ReferenceIdeal.Read
import proofs.«100211_j10565619548474_2_alg».proof.Proof.Spec
import proofs.«100211_j10565619548474_2_alg».proof.Proof.Gen.Pre_finite_inputs
import proofs.«100211_j10565619548474_2_alg».proof.Defs
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx Idealize.SL.Sem Cert.Spec

/-! ## The three shapes of a stage, read at an index -/

/-- A sum of products over the contracted axis, the left operand read along row i 0 and the right along
    column i 1, is the matrix product's entry. -/
theorem mm_of_sum {a k b : Nat} (l : Mat a k) (r : Mat k b) (i : (⟨2, ![a, b]⟩ : Shape).Idx)
    (li : Fin k → (⟨2, ![a, k]⟩ : Shape).Idx) (ri : Fin k → (⟨2, ![k, b]⟩ : Shape).Idx)
    (hl : ∀ n, li n = ix2 (i 0 : Fin a) n) (hr : ∀ n, ri n = ix2 n (i 1 : Fin b)) :
    ∑ n : Fin k, l (li n) * r (ri n) = mm l r i := by
  unfold mm
  exact Finset.sum_congr rfl fun n _ => by rw [hl n, hr n]; rfl

/-- An entry plus the bias of its column, then the maximum with zero. -/
theorem biasRelu_of {a b : Nat} (v : Mat a b) (bias : Vec1 b) (i : (⟨2, ![a, b]⟩ : Shape).Idx)
    (bi : (⟨1, ![b]⟩ : Shape).Idx) (hb : bi = ix1 (i 1 : Fin b)) :
    max (v i + bias bi) 0 = biasRelu v bias i := by
  subst hb; rfl

/-- An entry plus the bias of its column. -/
theorem addBias_of {a b : Nat} (v : Mat a b) (bias : Vec1 b) (i : (⟨2, ![a, b]⟩ : Shape).Idx)
    (bi : (⟨1, ![b]⟩ : Shape).Idx) (hb : bi = ix1 (i 1 : Fin b)) :
    v i + bias bi = addBias v bias i := by
  subst hb; rfl

/-! ## The stages -/

variable (x0 : (⟨S16384x32, .f32⟩ : BufTy).Contents (Elt Ideal)) (x1 : (⟨S16384x16384, .f32⟩ : BufTy).Contents (Elt Ideal))
  (x2 : (⟨S32x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))
  (x8 : (⟨S32x1, .f32⟩ : BufTy).Contents (Elt Ideal)) (x9 : (⟨S1, .f32⟩ : BufTy).Contents (Elt Ideal))

/-- X · W1. -/
theorem v0_eq : val_main_v0 (F := Ideal) x0 x2 = H1 x0 x2 := by
  funext i
  rw [val_main_v0_apply]
  exact mm_of_sum x0 x2 i _ _
    (fun n => funext fun a => by match a with | ⟨0, _⟩ => rfl | ⟨1, _⟩ => rfl)
    (fun n => funext fun a => by match a with | ⟨0, _⟩ => rfl | ⟨1, _⟩ => rfl)

/-- The first layer: relu (A · (X · W1) + b1). -/
theorem v5_eq : val_main_v5 (F := Ideal) x0 x1 x2 x3 = G1 x0 x1 x2 x3 := by
  funext i
  rw [val_main_v5_apply, val_main_v4_apply, val_main_call0_v0_apply, val_main_call0_cst_apply, val_main_v3_apply,
    val_main_v2_apply, val_main_v1_apply, v0_eq, Ideal.maximumf_def, Ideal.addf_def, Ideal.ofBits_def, Ideal.ofBits_zero_f32]
  rw [mm_of_sum x1 (H1 x0 x2) i _ _
    (fun n => funext fun a => by match a with | ⟨0, _⟩ => rfl | ⟨1, _⟩ => rfl)
    (fun n => funext fun a => by match a with | ⟨0, _⟩ => rfl | ⟨1, _⟩ => rfl)]
  exact biasRelu_of (mm x1 (H1 x0 x2)) x3 i _ (funext fun a => by match a with | ⟨0, _⟩ => rfl)

/-- The second layer: relu (A · (G1 · W2) + b2). -/
theorem v11_eq : val_main_v11 (F := Ideal) x0 x1 x2 x3 x4 x5 = G2 x0 x1 x2 x3 x4 x5 := by
  funext i
  rw [val_main_v11_apply, val_main_v10_apply, val_main_call1_v0_apply, val_main_call1_cst_apply, val_main_v9_apply,
    val_main_v8_apply, val_main_v7_apply, Ideal.maximumf_def, Ideal.addf_def, Ideal.ofBits_def, Ideal.ofBits_zero_f32]
  have e6 : val_main_v6 (F := Ideal) x0 x1 x2 x3 x4 = H2 x0 x1 x2 x3 x4 := by
    funext j
    rw [val_main_v6_apply, v5_eq]
    exact mm_of_sum (G1 x0 x1 x2 x3) x4 j _ _
      (fun n => funext fun a => by match a with | ⟨0, _⟩ => rfl | ⟨1, _⟩ => rfl)
      (fun n => funext fun a => by match a with | ⟨0, _⟩ => rfl | ⟨1, _⟩ => rfl)
  rw [e6, mm_of_sum x1 (H2 x0 x1 x2 x3 x4) i _ _
    (fun n => funext fun a => by match a with | ⟨0, _⟩ => rfl | ⟨1, _⟩ => rfl)
    (fun n => funext fun a => by match a with | ⟨0, _⟩ => rfl | ⟨1, _⟩ => rfl)]
  exact biasRelu_of (mm x1 (H2 x0 x1 x2 x3 x4)) x5 i _ (funext fun a => by match a with | ⟨0, _⟩ => rfl)

/-- The head's hidden layer: relu (G2 · Wd1 + bd1). -/
theorem v16_eq : val_main_v16 (F := Ideal) x0 x1 x2 x3 x4 x5 x6 x7 = D3 x0 x1 x2 x3 x4 x5 x6 x7 := by
  funext i
  rw [val_main_v16_apply, val_main_v15_apply, val_main_call2_v0_apply, val_main_call2_cst_apply, val_main_v14_apply,
    val_main_v13_apply, val_main_v12_apply, v11_eq, Ideal.maximumf_def, Ideal.addf_def, Ideal.ofBits_def, Ideal.ofBits_zero_f32]
  rw [mm_of_sum (G2 x0 x1 x2 x3 x4 x5) x6 i _ _
    (fun n => funext fun a => by match a with | ⟨0, _⟩ => rfl | ⟨1, _⟩ => rfl)
    (fun n => funext fun a => by match a with | ⟨0, _⟩ => rfl | ⟨1, _⟩ => rfl)]
  exact biasRelu_of (mm (G2 x0 x1 x2 x3 x4 x5) x6) x7 i _ (funext fun a => by match a with | ⟨0, _⟩ => rfl)

/-- The reference's result is the specification's: D3 · Wd2 + bd2. -/
theorem ref_eq : val_main_v20 (F := Ideal) x0 x1 x2 x3 x4 x5 x6 x7 x8 x9 = OUT x0 x1 x2 x3 x4 x5 x6 x7 x8 x9 := by
  funext i
  rw [val_main_v20_apply, val_main_v19_apply, val_main_v18_apply, val_main_v17_apply, v16_eq, Ideal.addf_def]
  rw [mm_of_sum (D3 x0 x1 x2 x3 x4 x5 x6 x7) x8 i _ _
    (fun n => funext fun a => by match a with | ⟨0, _⟩ => rfl | ⟨1, _⟩ => rfl)
    (fun n => funext fun a => by match a with | ⟨0, _⟩ => rfl | ⟨1, _⟩ => rfl)]
  exact addBias_of (mm (D3 x0 x1 x2 x3 x4 x5 x6 x7) x8) x9 i _
    (funext fun a => by match a with | ⟨0, _⟩ => exact Fin.ext (by have h : (i 1).val < 1 := (i 1).isLt; show 0 = (i 1).val; omega))

/-! ## The reference's run -/

/-- Every weakly fair execution of the reference terminates with its result array at the specification's OUT of
    the arguments' launch contents, and the arguments unchanged. -/
theorem ref_run [hReferenceIdeal : Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v20) = Cert.Spec.OUT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run Cert.ReferenceIdeal.defs _ _).mono
    (fun _ h c => ⟨(h c).1.trans ((val_main_v20_eq _ _ _ _ _ _ _ _ _ _).trans (ref_eq _ _ _ _ _ _ _ _ _ _)), (h c).2⟩)
    (Cert.ReferenceIdeal.Value.run (F := Ideal) m' ρ')

/-- The reference runs and leaves its arguments unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.RefSide

end
-- ==== Proof.FrameB.Shared0.lean ====
/-
  Region 0 of @main (the pallas_call of layer 1), the part of its frame that every control case shares, stated at a
  parameter `V`: the contents of core `c`'s buffers when the region is entered.

  The grid is 8 row tiles by 16 contraction tiles, the contraction index the fast one, so point `t` has contraction
  index `t % 16`. The body clears its accumulator when that index is 0, adds one tile's product at every point, and
  stores the output block only when the index is 15. So there are three control cases: A (index 0), B (1 to 14),
  C (15). The output window is idle (neither stored nor written back) at the points of A and B.
-/
import proofs.«100211_j10565619548474_2_alg».proof.Proof.Gen.Kernel.Launch
import proofs.«100211_j10565619548474_2_alg».proof.Proof.Gen.Kernel.Skeleton
import proofs.«100211_j10565619548474_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or the
    block index did not move since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or the
    block index did not move since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or the
    block index did not move since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "The contraction index is 0": the condition under which the body clears its accumulator. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "The contraction index is 15": the condition under which the body stores the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0 : View sig .tc .vmem S2048x64 .f32 := (Memref.whole cc0_stg4_0 : Memref sig .tc .vmem S2048x64 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0 : Memref sig .tc .vmem S2048x64 .f32 := Memref.whole cc0_scratch0
abbrev VS0 : View sig .tc .vmem S2048x64 .f32 := scM0.view

/-! ## The scoped buffers that are no staging buffer of this region: the accumulator and the others -/

/-- The scoped buffers other than the accumulator, each whole at some contents: the region never touches them. -/
def srest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- The accumulator taken out of those scoped buffers, -/
theorem scopedRest0_split (c : Dev nD) :
    (Pipeline.scopedRest (Ix := Unit) (Name := ℕ) (U := UR sig nD τ) (Lvl := ℕ) (Val := Elt F) spec0 c : sProp 𝕄)
      ⊢ iprop((∃ d, owns (c : Thread nD τ) scM0 fullShare d) ∗ srest0 c) := by
  rw [scopedRest0_eq]; unfold srest0; simp only [scM0, owns_whole]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- and put back. -/
theorem scopedRest0_join (c : Dev nD) :
    iprop((∃ d, owns (c : Thread nD τ) scM0 fullShare d) ∗ srest0 c)
      ⊢ (Pipeline.scopedRest (Ix := Unit) (Name := ℕ) (U := UR sig nD τ) (Lvl := ℕ) (Val := Elt F) spec0 c : sProp 𝕄) := by
  rw [scopedRest0_eq]; unfold srest0; simp only [scM0, owns_whole]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Hand

end
-- ==== Proof.FrameB.Run0A.lean ====
/-
  Region 0, control case A (contraction index 0: the accumulator is cleared, then one tile's product added; no output store):
  the body run once on whole staging memrefs. The inputs are handed in at their contents and given back unchanged; the idle
  output buffer is given back as found; the accumulator is taken at any contents (it is stored whole before it is used) and
  given back with the stores of this point written, as a list of pieces the run itself finds.
-/
import proofs.«100211_j10565619548474_2_alg».proof.Proof.FrameB.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) :
    Σ' (LO : List (View.Piece (Elt F) S2048x64 .f32)), { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%dS, %fs, -, HS⟩, Hk⟩
    obtain rfl := harg2.eq_unread hf0; obtain rfl := harg3.eq_unread hf1; obtain rfl := harg4.eq_unread hf2; obtain rfl := harg5.eq_unread hf3; obtain rfl := harg6.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.FrameB.Run0B.lean ====
/-
  Region 0, control case B (contraction index 1 to 14: one tile's product added to the accumulator; no output store):
  the body run once on whole staging memrefs. The inputs are handed in at their contents and given back unchanged; the idle
  output buffer is given back as found; the accumulator is taken at the contents `xs` the point before left and
  given back with the stores of this point written, as a list of pieces the run itself finds.
-/
import proofs.«100211_j10565619548474_2_alg».proof.Proof.FrameB.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) :
    Σ' (LO : List (View.Piece (Elt F) S2048x64 .f32)), { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfo; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Hand

end
-- ==== Proof.FrameB.Run0C.lean ====
/-
  Region 0, control case C (contraction index 15: one tile's product added, then the output block stored from the accumulator):
  the body run once on whole staging memrefs. The inputs are handed in at their contents and given back unchanged; the accumulator is taken at the contents `xs` the point before left and
  given back with the stores of this point written, as a list of pieces the run itself finds.
-/
import proofs.«100211_j10565619548474_2_alg».proof.Proof.FrameB.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Hand

end
-- ==== Proof.FrameB.Region0.lean ====
/-
  Region 0: what the accumulator and the output block hold after every grid point, the proof data of the pipeline,
  and the body's obligation at every point — at a parameter `V`, the buffers' contents when the region is entered.

  After point `t` the accumulator holds what the point's control case leaves in it: in case A (contraction index 0)
  a function of the point's input blocks alone; in cases B and C a function of the input blocks and of what the point
  before left (`outsAt0`, by recursion on the point). The output block is stored only in case C. Between two
  points the invariant keeps the accumulator at exactly that value, beside the scoped buffers the region never touches
  and the generator register.
-/
import proofs.«100211_j10565619548474_2_alg».proof.Proof.FrameB.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves -/

/-- Case A's stores into the accumulator cover it. -/
theorem scover0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) (y : S2048x64.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x64.size (by sl_kernel_rfl) y

/-- What case A leaves in the accumulator: its stores read back. -/
def sout0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) : Vec F S2048x64 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- Case B's stores into the accumulator cover it. -/
theorem scover0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_B c i arg2 harg2 arg3 harg3 arg4 harg4 arg5 harg5 arg6 harg6 arg7 harg7 hc0 hc1 x0 x1 x2 x3 xs).2.1, y ∈ pc.1.set :=
  View.cover_of_tiledL (kernelRun0_B c i arg2 harg2 arg3 harg3 arg4 harg4 arg5 harg5 arg6 harg6 arg7 harg7 hc0 hc1 x0 x1 x2 x3 xs).2.1 S2048x64.size (by sl_kernel_rfl) y

/-- What case B leaves in the accumulator: its stores read back. -/
def sout0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) : Vec F S2048x64 .f32 :=
  VS0.read (Elt F) (VS0.writes (Elt F) VS0.junk (kernelRun0_B c i arg2 harg2 arg3 harg3 arg4 harg4 arg5 harg5 arg6 harg6 arg7 harg7 hc0 hc1 x0 x1 x2 x3 xs).2.1)

/-- Case C's stores into the accumulator cover it. -/
theorem scover0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S2048x64.size (by sl_kernel_rfl) y

/-- What case C leaves in the accumulator: its stores read back. -/
def sout0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) : Vec F S2048x64 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

/-- Case C's store into the output block covers it. -/
theorem cover0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S2048x64.size (by sl_kernel_rfl) y

/-- What case C leaves in the output block. -/
def out0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) : Vec F S2048x64 .f32 :=
  VO0.read (Elt F) (VO0.writes (Elt F) VO0.junk (kernelRun0_C c i arg2 harg2 arg3 harg3 arg4 harg4 arg5 harg5 arg6 harg6 arg7 harg7 hc0 hc1 x0 x1 x2 x3 xs).1)

/-- At a point where the output window is idle nothing consults its buffer: a placeholder. -/
def idleOut0 : Vec F S2048x64 .f32 := VO0.read (Elt F) VO0.junk

/-! ## What the output block and the accumulator hold after each point -/

/-- After the body at position `n`: (the output block, the accumulator). -/
def outsAt0 (c : Dev nD) : (n : ℕ) → n < cfg0.N → Vec F S2048x64 .f32 × Vec F S2048x64 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards at what the point before left.
    Beside it the scoped buffers the region never touches and the generator register. -/
def PhiS0 (c : Dev nD) : (n : ℕ) → n ≤ cfg0.N → sProp 𝕄
  | 0, _ => iprop(((∃ d, owns (c : Thread nD τ) scM0 fullShare d) ∗ srest0 (F := F) c) ∗ (∃ r, prngReg c r))
  | n + 1, hn => iprop((owns (c : Thread nD τ) scM0 fullShare ((outsAt0 V c n hn).2) ∗ srest0 (F := F) c) ∗ (∃ r, prngReg c r))

theorem PhiS0_succ (c : Dev nD) (n : ℕ) (hn : n < cfg0.N) :
    PhiS0 V c (n + 1) hn = iprop((owns (c : Thread nD τ) scM0 fullShare ((outsAt0 V c n hn).2) ∗ srest0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare ((outsAt0 V c (n - 1) (by omega)).2) ∗ srest0 (F := F) c) ∗ (∃ r, prngReg c r)) := by
  cases n with
  | zero => exact absurd rfl hz
  | succ n => rfl

/-- At any position the invariant yields the accumulator at SOME contents. -/
theorem PhiS0_weak (c : Dev nD) (n : ℕ) (h : n ≤ cfg0.N) :
    PhiS0 V c n h ⊢ iprop(((∃ d, owns (c : Thread nD τ) scM0 fullShare d) ∗ srest0 (F := F) c) ∗ (∃ r, prngReg c r)) := by
  cases n with
  | zero => exact Idealize.SL.BI.Entails.refl _
  | succ n =>
    rw [PhiS0_succ]
    iintro ⟨⟨HS, Hr⟩, Hg⟩
    isplitl [HS Hr]
    · isplitl [HS]; · iexists _; iexact HS
      iexact Hr
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator (at anything in case A, which stores it whole first; at what the point before
    left in cases B and C) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS0_castSucc V c t]
  by_cases h0 : t.val % 16 = 0
  · by_cases h1 : t.val % 16 = 15
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      iintro ⟨HΦ, Ho, ⟨%d0, H0⟩, ⟨%d1, H1⟩, ⟨%d2, H2⟩, ⟨%d3, H3⟩, ⟨%dO, HO⟩⟩
      ihave HΦ' := (PhiS0_weak V c _ _) $$ HΦ
      icases HΦ' with ⟨⟨HS, Hr⟩, Hg⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact HO
  · have hz : t.val ≠ 0 := fun h => h0 (by rw [h])
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_pos V c _ _ hz]
      iintro ⟨⟨⟨HS, Hr⟩, Hg⟩, Ho, ⟨%d0, H0⟩, ⟨%d1, H1⟩, ⟨%d2, H2⟩, ⟨%d3, H3⟩, ⟨%dO, HO⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [HO]; · iexists _; iexact HO
      isplitl [HS]; · iexact HS
      iintro ⟨H0, H1, H2, H3, ⟨%eo, HO⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_pos V c _ _ hz]
      iintro ⟨⟨⟨HS, Hr⟩, Hg⟩, Ho, ⟨%d0, H0⟩, ⟨%d1, H1⟩, ⟨%d2, H2⟩, ⟨%d3, H3⟩, ⟨%dO, HO⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hr Hg]
      · isplitl [HS Hr]
        · isplitl [HS]
          · unfold owns; iexists _; isplitr
            swap; · iexact HS
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region makes the invariant before the first point, -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiS0 V c 0 (Nat.zero_le _) from rfl]
  unfold PhiS0
  iintro ⟨Hp, Hr⟩
  ihave H := (scopedRest0_split (F := F) c) $$ Hr
  isplitl [H]; · iexact H
  iexact Hp

/-- and the invariant after the last point gives it back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl]
  iintro H
  ihave H' := (PhiS0_weak V c _ _) $$ H
  icases H' with ⟨Hs, Hg⟩
  isplitl [Hg]; · iexact Hg
  iapply (scopedRest0_join (F := F) c)
  iexact Hs

end Cert.Kernel.Hand

end
-- ==== Proof.FrameB.Shared1.lean ====
/-
  Region 1 of @main (the pallas_call of layer 2), the part of its frame that every control case shares, stated at a
  parameter `V`: the contents of core `c`'s buffers when the region is entered.

  The grid is 8 row tiles by 16 contraction tiles, the contraction index the fast one, so point `t` has contraction
  index `t % 16`. The body clears its accumulator when that index is 0, adds one tile's product at every point, and
  stores the output block only when the index is 15. So there are three control cases: A (index 0), B (1 to 14),
  C (15). The output window is idle (neither stored nor written back) at the points of A and B.
-/
import proofs.«100211_j10565619548474_2_alg».proof.Proof.Gen.Kernel.Launch
import proofs.«100211_j10565619548474_2_alg».proof.Proof.Gen.Kernel.Skeleton
import proofs.«100211_j10565619548474_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or the
    block index did not move since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or the
    block index did not move since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or the
    block index did not move since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or the
    block index did not move since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or the
    block index did not move since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or the
    block index did not move since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the pipeline fetched it there or the
    block index did not move since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "The contraction index is 0": the condition under which the body clears its accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "The contraction index is 15": the condition under which the body stores the output block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

/-- One staging buffer of the output window, through which its contents are stated. -/
abbrev VO1 : View sig .tc .vmem S2048x1 .f32 := (Memref.whole cc1_stg8_0 : Memref sig .tc .vmem S2048x1 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator: a whole scoped buffer of the kernel's own, carried from point to point. -/
abbrev scM1 : Memref sig .tc .vmem S2048x64 .f32 := Memref.whole cc1_scratch0
abbrev VS1 : View sig .tc .vmem S2048x64 .f32 := scM1.view

/-! ## The scoped buffers that are no staging buffer of this region: the accumulator and the others -/

/-- The scoped buffers other than the accumulator, each whole at some contents: the region never touches them. -/
def srest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The accumulator taken out of those scoped buffers, -/
theorem scopedRest1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ srest1 c) := by
  rw [scopedRest1_eq]; unfold srest1; simp only [scM1, owns_whole]
  iintro ⟨H0, H1, H2, H3, H4, H5, H6, H7, H8⟩
  isplitl [H8]; · iexact H8
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- and put back. -/
theorem scopedRest1_join (c : Dev nD) :
    iprop((∃ d, owns (c : Thread nD τ) scM1 fullShare d) ∗ srest1 c)
      ⊢ (Pipeline.scopedRest (Ix := Unit) (Name := ℕ) (U := UR sig nD τ) (Lvl := ℕ) (Val := Elt F) spec1 c : sProp 𝕄) := by
  rw [scopedRest1_eq]; unfold srest1; simp only [scM1, owns_whole]
  iintro ⟨H8, H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.FrameB.Run1A.lean ====
/-
  Region 1, control case A (contraction index 0: the accumulator is cleared, then one tile's product added; no output store):
  the body run once on whole staging memrefs. The inputs are handed in at their contents and given back unchanged; the idle
  output buffer is given back as found; the accumulator is taken at any contents (it is stored whole before it is used) and
  given back with the stores of this point written, as a list of pieces the run itself finds.
-/
import proofs.«100211_j10565619548474_2_alg».proof.Proof.FrameB.Shared1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) :
    Σ' (LO : List (View.Piece (Elt F) S2048x1 .f32)), { LS : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨[], ?_, fun xi E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%dS, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.FrameB.Run1B.lean ====
/-
  Region 1, control case B (contraction index 1 to 14: one tile's product added to the accumulator; no output store):
  the body run once on whole staging memrefs. The inputs are handed in at their contents and given back unchanged; the idle
  output buffer is given back as found; the accumulator is taken at the contents `xs` the point before left and
  given back with the stores of this point written, as a list of pieces the run itself finds.
-/
import proofs.«100211_j10565619548474_2_alg».proof.Proof.FrameB.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    Σ' (LO : List (View.Piece (Elt F) S2048x1 .f32)), { LS : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨[], ?_, fun xi E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.Kernel.Hand

end
-- ==== Proof.FrameB.Run1C.lean ====
/-
  Region 1, control case C (contraction index 15: one tile's product added, then the output block stored from the accumulator):
  the body run once on whole staging memrefs. The inputs are handed in at their contents and given back unchanged; the accumulator is taken at the contents `xs` the point before left and
  given back with the stores of this point written, as a list of pieces the run itself finds.
-/
import proofs.«100211_j10565619548474_2_alg».proof.Proof.FrameB.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
set_option maxHeartbeats 4000000 in
noncomputable def kernelRun1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    Σ' (LO : List (View.Piece (Elt F) S2048x1 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.Kernel.Hand

end
-- ==== Proof.FrameB.Region1.lean ====
/-
  Region 1: what the accumulator and the output block hold after every grid point, the proof data of the pipeline,
  and the body's obligation at every point — at a parameter `V`, the buffers' contents when the region is entered.

  After point `t` the accumulator holds what the point's control case leaves in it: in case A (contraction index 0)
  a function of the point's input blocks alone; in cases B and C a function of the input blocks and of what the point
  before left (`outsAt1`, by recursion on the point). The output block is stored only in case C. Between two
  points the invariant keeps the accumulator at exactly that value, beside the scoped buffers the region never touches
  and the generator register.
-/
import proofs.«100211_j10565619548474_2_alg».proof.Proof.FrameB.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves -/

/-- Case A's stores into the accumulator cover it. -/
theorem scover1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (y : S2048x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x64.size (by sl_kernel_rfl) y

/-- What case A leaves in the accumulator: its stores read back. -/
def sout1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) : Vec F S2048x64 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Case B's stores into the accumulator cover it. -/
theorem scover1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 S2048x64.size (by sl_kernel_rfl) y

/-- What case B leaves in the accumulator: its stores read back. -/
def sout1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x64 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- Case C's stores into the accumulator cover it. -/
theorem scover1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S2048x64.size (by sl_kernel_rfl) y

/-- What case C leaves in the accumulator: its stores read back. -/
def sout1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x64 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- Case C's store into the output block covers it. -/
theorem cover1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 S2048x1.size (by sl_kernel_rfl) y

/-- What case C leaves in the output block. -/
def out1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x1 .f32 :=
  VO1.read (Elt F) (VO1.writes (Elt F) VO1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a point where the output window is idle nothing consults its buffer: a placeholder. -/
def idleOut1 : Vec F S2048x1 .f32 := VO1.read (Elt F) VO1.junk

/-! ## What the output block and the accumulator hold after each point -/

/-- After the body at position `n`: (the output block, the accumulator). -/
def outsAt1 (c : Dev nD) : (n : ℕ) → n < cfg1.N → Vec F S2048x1 .f32 × Vec F S2048x64 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 16 = 0 then
      if h1 : (n + 1) % 16 = 15 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards at what the point before left.
    Beside it the scoped buffers the region never touches and the generator register. -/
def PhiS1 (c : Dev nD) : (n : ℕ) → n ≤ cfg1.N → sProp 𝕄
  | 0, _ => iprop(((∃ d, owns (c : Thread nD τ) scM1 fullShare d) ∗ srest1 (F := F) c) ∗ (∃ r, prngReg c r))
  | n + 1, hn => iprop((owns (c : Thread nD τ) scM1 fullShare ((outsAt1 V c n hn).2) ∗ srest1 (F := F) c) ∗ (∃ r, prngReg c r))

theorem PhiS1_succ (c : Dev nD) (n : ℕ) (hn : n < cfg1.N) :
    PhiS1 V c (n + 1) hn = iprop((owns (c : Thread nD τ) scM1 fullShare ((outsAt1 V c n hn).2) ∗ srest1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare ((outsAt1 V c (n - 1) (by omega)).2) ∗ srest1 (F := F) c) ∗ (∃ r, prngReg c r)) := by
  cases n with
  | zero => exact absurd rfl hz
  | succ n => rfl

/-- At any position the invariant yields the accumulator at SOME contents. -/
theorem PhiS1_weak (c : Dev nD) (n : ℕ) (h : n ≤ cfg1.N) :
    PhiS1 V c n h ⊢ iprop(((∃ d, owns (c : Thread nD τ) scM1 fullShare d) ∗ srest1 (F := F) c) ∗ (∃ r, prngReg c r)) := by
  cases n with
  | zero => exact Idealize.SL.BI.Entails.refl _
  | succ n =>
    rw [PhiS1_succ]
    iintro ⟨⟨HS, Hr⟩, Hg⟩
    isplitl [HS Hr]
    · isplitl [HS]; · iexists _; iexact HS
      iexact Hr
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in; the
    invariant hands the body the accumulator (at anything in case A, which stores it whole first; at what the point before
    left in cases B and C) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [PhiS1_castSucc V c t]
  by_cases h0 : t.val % 16 = 0
  · by_cases h1 : t.val % 16 = 15
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      ihave HΦ' := (PhiS1_weak V c _ _) $$ HΦ
      icases HΦ' with ⟨⟨HS, Hr⟩, Hg⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexact HO
      isplitl [HS]; · iexact HS
      iintro ⟨H0, H1, H2, H3, H4, H5, H6, H7, HO, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact HO
  · have hz : t.val ≠ 0 := fun h => h0 (by rw [h])
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      rw [PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexists _; iexact HO
      isplitl [HS]; · iexact HS
      iintro ⟨H0, H1, H2, H3, H4, H5, H6, H7, ⟨%eo, HO⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact HO
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      rw [PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexact HO
      isplitl [HS]; · iexact HS
      iintro ⟨H0, H1, H2, H3, H4, H5, H6, H7, HO, ⟨%es, HS⟩⟩
      isplitl [HS Hr Hg]
      · isplitl [HS Hr]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region makes the invariant before the first point, -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiS1 V c 0 (Nat.zero_le _) from rfl]
  unfold PhiS1
  iintro ⟨Hp, Hr⟩
  ihave H := (scopedRest1_split (F := F) c) $$ Hr
  isplitl [H]; · iexact H
  iexact Hp

/-- and the invariant after the last point gives it back. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl]
  iintro H
  ihave H' := (PhiS1_weak V c _ _) $$ H
  icases H' with ⟨Hs, Hg⟩
  isplitl [Hg]; · iexact Hg
  iapply (scopedRest1_join (F := F) c)
  iexact Hs

end Cert.Kernel.Hand

end
-- ==== Proof.FrameB.Run.lean ====
/-
  The whole run of @main: a host stretch (one reshape), region 0, a host stretch (three reshapes), region 1.

  The contents of core `c`'s unscoped buffers at the five boundaries are a fold from the launch memory: a host stretch
  applies its operations; a region leaves each of its windows' arrays at what the pipeline's write-backs make of it
  (an input's array as entered, the output's at its flushed blocks) and every other buffer as entered. Every weakly fair
  execution terminates with every unscoped buffer at the last boundary's contents; the ten argument arrays read back
  through the fold are the launch contents.
-/
import proofs.«100211_j10565619548474_2_alg».proof.Proof.FrameB.Region0
import proofs.«100211_j10565619548474_2_alg».proof.Proof.FrameB.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans ((((dat1 (V3 m ρ) c).arrAt_in 0 rfl _).trans (A_eq1 (V3 m ρ) c 0)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 2).trans ((((dat1 (V3 m ρ) c).arrAt_in 2 rfl _).trans (A_eq1 (V3 m ρ) c 2)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans ((((dat1 (V3 m ρ) c).arrAt_in 4 rfl _).trans (A_eq1 (V3 m ρ) c 4)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 6).trans ((((dat1 (V3 m ρ) c).arrAt_in 6 rfl _).trans (A_eq1 (V3 m ρ) c 6)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state "every unscoped buffer at the boundary's contents, the generator register at some
    state, nothing owed": its arrays split out of the unscoped buffers on entry and put back at their final contents on
    exit; the generator register and the scoped buffers into the region's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": its arrays split out of the unscoped buffers on entry and put back at their final contents on
    exit; the generator register and the scoped buffers into the region's invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_all m ρ)

end Cert.Kernel.Hand

end
-- ==== Proof.FrameI.Shared0.lean ====
/-
  Region 0 of @main (the pallas_call of layer 1), the part of its frame that every control case shares, stated at a
  parameter `V`: the contents of core `c`'s buffers when the region is entered.

  The grid is 8 row tiles by 16 contraction tiles, the contraction index the fast one, so point `t` has contraction
  index `t % 16`. The body clears its accumulator when that index is 0, adds one tile's product at every point, and
  stores the output block only when the index is 15. So there are three control cases: A (index 0), B (1 to 14),
  C (15). The output window is idle (neither stored nor written back) at the points of A and B.
-/
import proofs.«100211_j10565619548474_2_alg».proof.Proof.Gen.KernelIdeal.Launch
import proofs.«100211_j10565619548474_2_alg».proof.Proof.Gen.KernelIdeal.Skeleton
import proofs.«100211_j10565619548474_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or the
    block index did not move since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or the
    block index did not move since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or the
    block index did not move since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "The contraction index is 0": the condition under which the body clears its accumulator. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "The contraction index is 15": the condition under which the body stores the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0 : View sig .tc .vmem S2048x64 .f32 := (Memref.whole cc0_stg4_0 : Memref sig .tc .vmem S2048x64 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0 : Memref sig .tc .vmem S2048x64 .f32 := Memref.whole cc0_scratch0
abbrev VS0 : View sig .tc .vmem S2048x64 .f32 := scM0.view

/-! ## The scoped buffers that are no staging buffer of this region: the accumulator and the others -/

/-- The scoped buffers other than the accumulator, each whole at some contents: the region never touches them. -/
def srest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- The accumulator taken out of those scoped buffers, -/
theorem scopedRest0_split (c : Dev nD) :
    (Pipeline.scopedRest (Ix := Unit) (Name := ℕ) (U := UR sig nD τ) (Lvl := ℕ) (Val := Elt F) spec0 c : sProp 𝕄)
      ⊢ iprop((∃ d, owns (c : Thread nD τ) scM0 fullShare d) ∗ srest0 c) := by
  rw [scopedRest0_eq]; unfold srest0; simp only [scM0, owns_whole]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- and put back. -/
theorem scopedRest0_join (c : Dev nD) :
    iprop((∃ d, owns (c : Thread nD τ) scM0 fullShare d) ∗ srest0 c)
      ⊢ (Pipeline.scopedRest (Ix := Unit) (Name := ℕ) (U := UR sig nD τ) (Lvl := ℕ) (Val := Elt F) spec0 c : sProp 𝕄) := by
  rw [scopedRest0_eq]; unfold srest0; simp only [scM0, owns_whole]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Hand

end
-- ==== Proof.FrameI.Run0A.lean ====
/-
  Region 0, control case A (contraction index 0: the accumulator is cleared, then one tile's product added; no output store):
  the body run once on whole staging memrefs. The inputs are handed in at their contents and given back unchanged; the idle
  output buffer is given back as found; the accumulator is taken at any contents (it is stored whole before it is used) and
  given back with the stores of this point written, as a list of pieces the run itself finds.
-/
import proofs.«100211_j10565619548474_2_alg».proof.Proof.FrameI.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) :
    Σ' (LO : List (View.Piece (Elt F) S2048x64 .f32)), { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%dS, %fs, -, HS⟩, Hk⟩
    obtain rfl := harg2.eq_unread hf0; obtain rfl := harg3.eq_unread hf1; obtain rfl := harg4.eq_unread hf2; obtain rfl := harg5.eq_unread hf3; obtain rfl := harg6.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.FrameI.Run0B.lean ====
/-
  Region 0, control case B (contraction index 1 to 14: one tile's product added to the accumulator; no output store):
  the body run once on whole staging memrefs. The inputs are handed in at their contents and given back unchanged; the idle
  output buffer is given back as found; the accumulator is taken at the contents `xs` the point before left and
  given back with the stores of this point written, as a list of pieces the run itself finds.
-/
import proofs.«100211_j10565619548474_2_alg».proof.Proof.FrameI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) :
    Σ' (LO : List (View.Piece (Elt F) S2048x64 .f32)), { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfo; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Hand

end
-- ==== Proof.FrameI.Run0C.lean ====
/-
  Region 0, control case C (contraction index 15: one tile's product added, then the output block stored from the accumulator):
  the body run once on whole staging memrefs. The inputs are handed in at their contents and given back unchanged; the accumulator is taken at the contents `xs` the point before left and
  given back with the stores of this point written, as a list of pieces the run itself finds.
-/
import proofs.«100211_j10565619548474_2_alg».proof.Proof.FrameI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Hand

end
-- ==== Proof.FrameI.Region0.lean ====
/-
  Region 0: what the accumulator and the output block hold after every grid point, the proof data of the pipeline,
  and the body's obligation at every point — at a parameter `V`, the buffers' contents when the region is entered.

  After point `t` the accumulator holds what the point's control case leaves in it: in case A (contraction index 0)
  a function of the point's input blocks alone; in cases B and C a function of the input blocks and of what the point
  before left (`outsAt0`, by recursion on the point). The output block is stored only in case C. Between two
  points the invariant keeps the accumulator at exactly that value, beside the scoped buffers the region never touches
  and the generator register.
-/
import proofs.«100211_j10565619548474_2_alg».proof.Proof.FrameI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves -/

/-- Case A's stores into the accumulator cover it. -/
theorem scover0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) (y : S2048x64.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x64.size (by sl_kernel_rfl) y

/-- What case A leaves in the accumulator: its stores read back. -/
def sout0_A (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) : Vec F S2048x64 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- Case B's stores into the accumulator cover it. -/
theorem scover0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_B c i arg2 harg2 arg3 harg3 arg4 harg4 arg5 harg5 arg6 harg6 arg7 harg7 hc0 hc1 x0 x1 x2 x3 xs).2.1, y ∈ pc.1.set :=
  View.cover_of_tiledL (kernelRun0_B c i arg2 harg2 arg3 harg3 arg4 harg4 arg5 harg5 arg6 harg6 arg7 harg7 hc0 hc1 x0 x1 x2 x3 xs).2.1 S2048x64.size (by sl_kernel_rfl) y

/-- What case B leaves in the accumulator: its stores read back. -/
def sout0_B (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) : Vec F S2048x64 .f32 :=
  VS0.read (Elt F) (VS0.writes (Elt F) VS0.junk (kernelRun0_B c i arg2 harg2 arg3 harg3 arg4 harg4 arg5 harg5 arg6 harg6 arg7 harg7 hc0 hc1 x0 x1 x2 x3 xs).2.1)

/-- Case C's stores into the accumulator cover it. -/
theorem scover0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S2048x64.size (by sl_kernel_rfl) y

/-- What case C leaves in the accumulator: its stores read back. -/
def sout0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) : Vec F S2048x64 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

/-- Case C's store into the output block covers it. -/
theorem cover0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) (y : S2048x64.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S2048x64.size (by sl_kernel_rfl) y

/-- What case C leaves in the output block. -/
def out0_C (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) : Vec F S2048x64 .f32 :=
  VO0.read (Elt F) (VO0.writes (Elt F) VO0.junk (kernelRun0_C c i arg2 harg2 arg3 harg3 arg4 harg4 arg5 harg5 arg6 harg6 arg7 harg7 hc0 hc1 x0 x1 x2 x3 xs).1)

/-- At a point where the output window is idle nothing consults its buffer: a placeholder. -/
def idleOut0 : Vec F S2048x64 .f32 := VO0.read (Elt F) VO0.junk

/-! ## What the output block and the accumulator hold after each point -/

/-- After the body at position `n`: (the output block, the accumulator). -/
def outsAt0 (c : Dev nD) : (n : ℕ) → n < cfg0.N → Vec F S2048x64 .f32 × Vec F S2048x64 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards at what the point before left.
    Beside it the scoped buffers the region never touches and the generator register. -/
def PhiS0 (c : Dev nD) : (n : ℕ) → n ≤ cfg0.N → sProp 𝕄
  | 0, _ => iprop(((∃ d, owns (c : Thread nD τ) scM0 fullShare d) ∗ srest0 (F := F) c) ∗ (∃ r, prngReg c r))
  | n + 1, hn => iprop((owns (c : Thread nD τ) scM0 fullShare ((outsAt0 V c n hn).2) ∗ srest0 (F := F) c) ∗ (∃ r, prngReg c r))

theorem PhiS0_succ (c : Dev nD) (n : ℕ) (hn : n < cfg0.N) :
    PhiS0 V c (n + 1) hn = iprop((owns (c : Thread nD τ) scM0 fullShare ((outsAt0 V c n hn).2) ∗ srest0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare ((outsAt0 V c (n - 1) (by omega)).2) ∗ srest0 (F := F) c) ∗ (∃ r, prngReg c r)) := by
  cases n with
  | zero => exact absurd rfl hz
  | succ n => rfl

/-- At any position the invariant yields the accumulator at SOME contents. -/
theorem PhiS0_weak (c : Dev nD) (n : ℕ) (h : n ≤ cfg0.N) :
    PhiS0 V c n h ⊢ iprop(((∃ d, owns (c : Thread nD τ) scM0 fullShare d) ∗ srest0 (F := F) c) ∗ (∃ r, prngReg c r)) := by
  cases n with
  | zero => exact Idealize.SL.BI.Entails.refl _
  | succ n =>
    rw [PhiS0_succ]
    iintro ⟨⟨HS, Hr⟩, Hg⟩
    isplitl [HS Hr]
    · isplitl [HS]; · iexists _; iexact HS
      iexact Hr
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator (at anything in case A, which stores it whole first; at what the point before
    left in cases B and C) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS0_castSucc V c t]
  by_cases h0 : t.val % 16 = 0
  · by_cases h1 : t.val % 16 = 15
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      iintro ⟨HΦ, Ho, ⟨%d0, H0⟩, ⟨%d1, H1⟩, ⟨%d2, H2⟩, ⟨%d3, H3⟩, ⟨%dO, HO⟩⟩
      ihave HΦ' := (PhiS0_weak V c _ _) $$ HΦ
      icases HΦ' with ⟨⟨HS, Hr⟩, Hg⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact HO
  · have hz : t.val ≠ 0 := fun h => h0 (by rw [h])
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_pos V c _ _ hz]
      iintro ⟨⟨⟨HS, Hr⟩, Hg⟩, Ho, ⟨%d0, H0⟩, ⟨%d1, H1⟩, ⟨%d2, H2⟩, ⟨%d3, H3⟩, ⟨%dO, HO⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [HO]; · iexists _; iexact HO
      isplitl [HS]; · iexact HS
      iintro ⟨H0, H1, H2, H3, ⟨%eo, HO⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_pos V c _ _ hz]
      iintro ⟨⟨⟨HS, Hr⟩, Hg⟩, Ho, ⟨%d0, H0⟩, ⟨%d1, H1⟩, ⟨%d2, H2⟩, ⟨%d3, H3⟩, ⟨%dO, HO⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hr Hg]
      · isplitl [HS Hr]
        · isplitl [HS]
          · unfold owns; iexists _; isplitr
            swap; · iexact HS
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region makes the invariant before the first point, -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiS0 V c 0 (Nat.zero_le _) from rfl]
  unfold PhiS0
  iintro ⟨Hp, Hr⟩
  ihave H := (scopedRest0_split (F := F) c) $$ Hr
  isplitl [H]; · iexact H
  iexact Hp

/-- and the invariant after the last point gives it back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl]
  iintro H
  ihave H' := (PhiS0_weak V c _ _) $$ H
  icases H' with ⟨Hs, Hg⟩
  isplitl [Hg]; · iexact Hg
  iapply (scopedRest0_join (F := F) c)
  iexact Hs

end Cert.KernelIdeal.Hand

end
-- ==== Proof.FrameI.Shared1.lean ====
/-
  Region 1 of @main (the pallas_call of layer 2), the part of its frame that every control case shares, stated at a
  parameter `V`: the contents of core `c`'s buffers when the region is entered.

  The grid is 8 row tiles by 16 contraction tiles, the contraction index the fast one, so point `t` has contraction
  index `t % 16`. The body clears its accumulator when that index is 0, adds one tile's product at every point, and
  stores the output block only when the index is 15. So there are three control cases: A (index 0), B (1 to 14),
  C (15). The output window is idle (neither stored nor written back) at the points of A and B.
-/
import proofs.«100211_j10565619548474_2_alg».proof.Proof.Gen.KernelIdeal.Launch
import proofs.«100211_j10565619548474_2_alg».proof.Proof.Gen.KernelIdeal.Skeleton
import proofs.«100211_j10565619548474_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or the
    block index did not move since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or the
    block index did not move since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or the
    block index did not move since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or the
    block index did not move since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or the
    block index did not move since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or the
    block index did not move since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the pipeline fetched it there or the
    block index did not move since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "The contraction index is 0": the condition under which the body clears its accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "The contraction index is 15": the condition under which the body stores the output block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

/-- One staging buffer of the output window, through which its contents are stated. -/
abbrev VO1 : View sig .tc .vmem S2048x1 .f32 := (Memref.whole cc1_stg8_0 : Memref sig .tc .vmem S2048x1 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator: a whole scoped buffer of the kernel's own, carried from point to point. -/
abbrev scM1 : Memref sig .tc .vmem S2048x64 .f32 := Memref.whole cc1_scratch0
abbrev VS1 : View sig .tc .vmem S2048x64 .f32 := scM1.view

/-! ## The scoped buffers that are no staging buffer of this region: the accumulator and the others -/

/-- The scoped buffers other than the accumulator, each whole at some contents: the region never touches them. -/
def srest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The accumulator taken out of those scoped buffers, -/
theorem scopedRest1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ srest1 c) := by
  rw [scopedRest1_eq]; unfold srest1; simp only [scM1, owns_whole]
  iintro ⟨H0, H1, H2, H3, H4, H5, H6, H7, H8⟩
  isplitl [H8]; · iexact H8
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- and put back. -/
theorem scopedRest1_join (c : Dev nD) :
    iprop((∃ d, owns (c : Thread nD τ) scM1 fullShare d) ∗ srest1 c)
      ⊢ (Pipeline.scopedRest (Ix := Unit) (Name := ℕ) (U := UR sig nD τ) (Lvl := ℕ) (Val := Elt F) spec1 c : sProp 𝕄) := by
  rw [scopedRest1_eq]; unfold srest1; simp only [scM1, owns_whole]
  iintro ⟨H8, H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.FrameI.Run1A.lean ====
/-
  Region 1, control case A (contraction index 0: the accumulator is cleared, then one tile's product added; no output store):
  the body run once on whole staging memrefs. The inputs are handed in at their contents and given back unchanged; the idle
  output buffer is given back as found; the accumulator is taken at any contents (it is stored whole before it is used) and
  given back with the stores of this point written, as a list of pieces the run itself finds.
-/
import proofs.«100211_j10565619548474_2_alg».proof.Proof.FrameI.Shared1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) :
    Σ' (LO : List (View.Piece (Elt F) S2048x1 .f32)), { LS : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨[], ?_, fun xi E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%dS, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.FrameI.Run1B.lean ====
/-
  Region 1, control case B (contraction index 1 to 14: one tile's product added to the accumulator; no output store):
  the body run once on whole staging memrefs. The inputs are handed in at their contents and given back unchanged; the idle
  output buffer is given back as found; the accumulator is taken at the contents `xs` the point before left and
  given back with the stores of this point written, as a list of pieces the run itself finds.
-/
import proofs.«100211_j10565619548474_2_alg».proof.Proof.FrameI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    Σ' (LO : List (View.Piece (Elt F) S2048x1 .f32)), { LS : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨[], ?_, fun xi E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]
    · iexists _; isplitr; · ipureintro; exact harg10.read_unread _
      iexact HO
    iexists _; iexact HS

end Cert.KernelIdeal.Hand

end
-- ==== Proof.FrameI.Run1C.lean ====
/-
  Region 1, control case C (contraction index 15: one tile's product added, then the output block stored from the accumulator):
  the body run once on whole staging memrefs. The inputs are handed in at their contents and given back unchanged; the accumulator is taken at the contents `xs` the point before left and
  given back with the stores of this point written, as a list of pieces the run itself finds.
-/
import proofs.«100211_j10565619548474_2_alg».proof.Proof.FrameI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
set_option maxHeartbeats 4000000 in
noncomputable def kernelRun1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    Σ' (LO : List (View.Piece (Elt F) S2048x1 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__layer2_kernel_eq_skeleton]; unfold cc1__layer2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HO]; · iexists _; iexact HO
    iexists _; iexact HS

end Cert.KernelIdeal.Hand

end
-- ==== Proof.FrameI.Region1.lean ====
/-
  Region 1: what the accumulator and the output block hold after every grid point, the proof data of the pipeline,
  and the body's obligation at every point — at a parameter `V`, the buffers' contents when the region is entered.

  After point `t` the accumulator holds what the point's control case leaves in it: in case A (contraction index 0)
  a function of the point's input blocks alone; in cases B and C a function of the input blocks and of what the point
  before left (`outsAt1`, by recursion on the point). The output block is stored only in case C. Between two
  points the invariant keeps the accumulator at exactly that value, beside the scoped buffers the region never touches
  and the generator register.
-/
import proofs.«100211_j10565619548474_2_alg».proof.Proof.FrameI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves -/

/-- Case A's stores into the accumulator cover it. -/
theorem scover1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (y : S2048x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x64.size (by sl_kernel_rfl) y

/-- What case A leaves in the accumulator: its stores read back. -/
def sout1_A (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) : Vec F S2048x64 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Case B's stores into the accumulator cover it. -/
theorem scover1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 S2048x64.size (by sl_kernel_rfl) y

/-- What case B leaves in the accumulator: its stores read back. -/
def sout1_B (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x64 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- Case C's stores into the accumulator cover it. -/
theorem scover1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S2048x64.size (by sl_kernel_rfl) y

/-- What case C leaves in the accumulator: its stores read back. -/
def sout1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x64 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- Case C's store into the output block covers it. -/
theorem cover1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 S2048x1.size (by sl_kernel_rfl) y

/-- What case C leaves in the output block. -/
def out1_C (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) : Vec F S2048x1 .f32 :=
  VO1.read (Elt F) (VO1.writes (Elt F) VO1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a point where the output window is idle nothing consults its buffer: a placeholder. -/
def idleOut1 : Vec F S2048x1 .f32 := VO1.read (Elt F) VO1.junk

/-! ## What the output block and the accumulator hold after each point -/

/-- After the body at position `n`: (the output block, the accumulator). -/
def outsAt1 (c : Dev nD) : (n : ℕ) → n < cfg1.N → Vec F S2048x1 .f32 × Vec F S2048x64 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 16 = 0 then
      if h1 : (n + 1) % 16 = 15 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards at what the point before left.
    Beside it the scoped buffers the region never touches and the generator register. -/
def PhiS1 (c : Dev nD) : (n : ℕ) → n ≤ cfg1.N → sProp 𝕄
  | 0, _ => iprop(((∃ d, owns (c : Thread nD τ) scM1 fullShare d) ∗ srest1 (F := F) c) ∗ (∃ r, prngReg c r))
  | n + 1, hn => iprop((owns (c : Thread nD τ) scM1 fullShare ((outsAt1 V c n hn).2) ∗ srest1 (F := F) c) ∗ (∃ r, prngReg c r))

theorem PhiS1_succ (c : Dev nD) (n : ℕ) (hn : n < cfg1.N) :
    PhiS1 V c (n + 1) hn = iprop((owns (c : Thread nD τ) scM1 fullShare ((outsAt1 V c n hn).2) ∗ srest1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare ((outsAt1 V c (n - 1) (by omega)).2) ∗ srest1 (F := F) c) ∗ (∃ r, prngReg c r)) := by
  cases n with
  | zero => exact absurd rfl hz
  | succ n => rfl

/-- At any position the invariant yields the accumulator at SOME contents. -/
theorem PhiS1_weak (c : Dev nD) (n : ℕ) (h : n ≤ cfg1.N) :
    PhiS1 V c n h ⊢ iprop(((∃ d, owns (c : Thread nD τ) scM1 fullShare d) ∗ srest1 (F := F) c) ∗ (∃ r, prngReg c r)) := by
  cases n with
  | zero => exact Idealize.SL.BI.Entails.refl _
  | succ n =>
    rw [PhiS1_succ]
    iintro ⟨⟨HS, Hr⟩, Hg⟩
    isplitl [HS Hr]
    · isplitl [HS]; · iexists _; iexact HS
      iexact Hr
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in; the
    invariant hands the body the accumulator (at anything in case A, which stores it whole first; at what the point before
    left in cases B and C) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [PhiS1_castSucc V c t]
  by_cases h0 : t.val % 16 = 0
  · by_cases h1 : t.val % 16 = 15
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      ihave HΦ' := (PhiS1_weak V c _ _) $$ HΦ
      icases HΦ' with ⟨⟨HS, Hr⟩, Hg⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexact HO
      isplitl [HS]; · iexact HS
      iintro ⟨H0, H1, H2, H3, H4, H5, H6, H7, HO, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact HO
  · have hz : t.val ≠ 0 := fun h => h0 (by rw [h])
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      rw [PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexists _; iexact HO
      isplitl [HS]; · iexact HS
      iintro ⟨H0, H1, H2, H3, H4, H5, H6, H7, ⟨%eo, HO⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact HO
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      rw [PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HO]; · iexact HO
      isplitl [HS]; · iexact HS
      iintro ⟨H0, H1, H2, H3, H4, H5, H6, H7, HO, ⟨%es, HS⟩⟩
      isplitl [HS Hr Hg]
      · isplitl [HS Hr]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region makes the invariant before the first point, -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiS1 V c 0 (Nat.zero_le _) from rfl]
  unfold PhiS1
  iintro ⟨Hp, Hr⟩
  ihave H := (scopedRest1_split (F := F) c) $$ Hr
  isplitl [H]; · iexact H
  iexact Hp

/-- and the invariant after the last point gives it back. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl]
  iintro H
  ihave H' := (PhiS1_weak V c _ _) $$ H
  icases H' with ⟨Hs, Hg⟩
  isplitl [Hg]; · iexact Hg
  iapply (scopedRest1_join (F := F) c)
  iexact Hs

end Cert.KernelIdeal.Hand

end
-- ==== Proof.FrameI.Run.lean ====
/-
  The whole run of @main: a host stretch (one reshape), region 0, a host stretch (three reshapes), region 1.

  The contents of core `c`'s unscoped buffers at the five boundaries are a fold from the launch memory: a host stretch
  applies its operations; a region leaves each of its windows' arrays at what the pipeline's write-backs make of it
  (an input's array as entered, the output's at its flushed blocks) and every other buffer as entered. Every weakly fair
  execution terminates with every unscoped buffer at the last boundary's contents; the ten argument arrays read back
  through the fold are the launch contents.
-/
import proofs.«100211_j10565619548474_2_alg».proof.Proof.FrameI.Region0
import proofs.«100211_j10565619548474_2_alg».proof.Proof.FrameI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans ((((dat1 (V3 m ρ) c).arrAt_in 0 rfl _).trans (A_eq1 (V3 m ρ) c 0)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 2).trans ((((dat1 (V3 m ρ) c).arrAt_in 2 rfl _).trans (A_eq1 (V3 m ρ) c 2)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans ((((dat1 (V3 m ρ) c).arrAt_in 4 rfl _).trans (A_eq1 (V3 m ρ) c 4)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 6).trans ((((dat1 (V3 m ρ) c).arrAt_in 6 rfl _).trans (A_eq1 (V3 m ρ) c 6)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state "every unscoped buffer at the boundary's contents, the generator register at some
    state, nothing owed": its arrays split out of the unscoped buffers on entry and put back at their final contents on
    exit; the generator register and the scoped buffers into the region's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": its arrays split out of the unscoped buffers on entry and put back at their final contents on
    exit; the generator register and the scoped buffers into the region's invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_all m ρ)

end Cert.KernelIdeal.Hand

end
-- ==== Proof.Claims1.lean ====
/-
  Three of the certificate's claims: the kernel and its idealization run and leave their arguments unchanged, and
  each rewrite of the idealization — a value widened back from a narrower float format it was rounded to, replaced by
  the value itself — is the rule's statement at the site's shape and formats.
-/
import proofs.«100211_j10565619548474_2_alg».proof.Defs
import proofs.«100211_j10565619548474_2_alg».proof.Proof.FrameB.Run
import proofs.«100211_j10565619548474_2_alg».proof.Proof.FrameI.Run
import Idealize.ShloMosaic.PureOps.IdealRules

noncomputable section

namespace Cert.Proof.Parts

open Idealize.ShloMosaic Idealize.SL.Sem

/-- The kernel runs and its argument arrays end unchanged. -/
theorem frame_p [hKernel : Cert.Kernel.Facts] [hPre_finite_inputs : Cert.Pre_finite_inputs.Facts] : Cert.frame_Kernel :=
  fun m ρ _ => Cert.Kernel.Hand.frame (F := Bits) m ρ

/-- The idealized kernel runs and its argument arrays end unchanged. -/
theorem frame_pi [hKernelIdeal : Cert.KernelIdeal.Facts] [hPre_finite_inputs : Cert.Pre_finite_inputs.Facts] : Cert.frame_KernelIdeal :=
  fun m ρ _ => Cert.KernelIdeal.Hand.frame (F := Ideal) m ρ

/-- The twelve rewrites, in the order the claim lists them: each is the rule's statement at its shape. -/
theorem preserves : Cert.preserves_Kernel_KernelIdeal :=
  ⟨IdealRules.truncf_extf.statement Cert.KernelIdeal.S1024x32 .f32 .bf16,
   IdealRules.truncf_extf.statement Cert.KernelIdeal.S32x64 .f32 .bf16,
   IdealRules.truncf_extf.statement Cert.KernelIdeal.S2048x1024 .f32 .bf16,
   IdealRules.truncf_extf.statement Cert.KernelIdeal.S1024x64 .f32 .bf16,
   IdealRules.truncf_extf.statement Cert.KernelIdeal.S1024x64 .f32 .bf16,
   IdealRules.truncf_extf.statement Cert.KernelIdeal.S64x64 .f32 .bf16,
   IdealRules.truncf_extf.statement Cert.KernelIdeal.S2048x1024 .f32 .bf16,
   IdealRules.truncf_extf.statement Cert.KernelIdeal.S1024x64 .f32 .bf16,
   IdealRules.truncf_extf.statement Cert.KernelIdeal.S2048x64 .f32 .bf16,
   IdealRules.truncf_extf.statement Cert.KernelIdeal.S64x32 .f32 .bf16,
   IdealRules.truncf_extf.statement Cert.KernelIdeal.S2048x32 .f32 .bf16,
   IdealRules.truncf_extf.statement Cert.KernelIdeal.S32x1 .f32 .bf16⟩

end Cert.Proof.Parts

end
-- ==== Proof.ValueI.Fold.lean ====
/-
  The buffers' contents when each region is entered, in terms of the launch memory: an argument array is still what
  it was launched with (no host operation writes it and a region only reads it); each bias row is its argument vector
  reshaped to one row; and the array region 1 keeps resident as its second operand is what region 0 left in its
  output array.
-/
import proofs.«100211_j10565619548474_2_alg».proof.Proof.FrameI.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering region 0 -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first bias as one row. -/
theorem W1_call0 (c : Dev nD) :
    W1 m ρ c (Proc.devRef .tc main_call0_v0) = shapeCast S1x64 (m ((c : Thread nD τ).loc main_arg3)) shapeCasts_S64_S1x64 := by
  show StableHlo.after hostOps0 (W0 m ρ c) (Proc.devRef .tc main_call0_v0) = _
  after_results
  rfl

/-! ## Entering region 1 -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_main_arg4 m ρ c

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_main_arg5 m ρ c

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_main_arg6 m ρ c

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_main_arg7 m ρ c

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_main_arg8 m ρ c

theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_main_arg9 m ρ c

/-- Region 1's resident second operand is what region 0 left in its output array. -/
theorem W3_main_v0 (c : Dev nD) : W3 m ρ c (Proc.devRef .tc main_v0) = (dat0 (V1 m ρ) c).arrAt 4 cfg0.N :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4

/-- The later biases as one row each. -/
theorem W3_call1_v0 (c : Dev nD) :
    W3 m ρ c (Proc.devRef .tc main_call1_v0) = shapeCast S1x64 (W2 m ρ c (Proc.devRef .tc main_arg5)) shapeCasts_S64_S1x64 := by
  show StableHlo.after hostOps1 (W2 m ρ c) (Proc.devRef .tc main_call1_v0) = _
  after_results
  rfl
theorem W3_call1_v1 (c : Dev nD) :
    W3 m ρ c (Proc.devRef .tc main_call1_v1) = shapeCast S1x32 (W2 m ρ c (Proc.devRef .tc main_arg7)) shapeCasts_S32_S1x32 := by
  show StableHlo.after hostOps1 (W2 m ρ c) (Proc.devRef .tc main_call1_v1) = _
  after_results
  rfl
theorem W3_call1_v2 (c : Dev nD) :
    W3 m ρ c (Proc.devRef .tc main_call1_v2) = shapeCast S1x1 (W2 m ρ c (Proc.devRef .tc main_arg9)) shapeCasts_S1_S1x1 := by
  show StableHlo.after hostOps1 (W2 m ρ c) (Proc.devRef .tc main_call1_v2) = _
  after_results
  rfl

/-- The result array after the run is what region 1 left in its output array. -/
theorem W4_main_v1 (c : Dev nD) : W4 m ρ c (Proc.devRef .tc main_v1) = (dat1 (V3 m ρ) c).arrAt 8 cfg1.N := W4_arr m ρ c 8

end Cert.KernelIdeal.Hand

end
-- ==== Proof.ValueI.Pieces0.lean ====
/-
  Region 0: what each control case leaves, as the body's arithmetic applied to the buffers' contents.

  The body loads the whole adjacency block, the whole weight matrix, and rows [1024·k, 1024·k + 1024) of the resident
  feature matrix (k the contraction index), forms the tile's product and adds it to the accumulator: in case A to the
  zero block it has just stored, in cases B and C to what the point before left. In case C it then stores the output
  block computed from the new accumulator.
-/
import proofs.«100211_j10565619548474_2_alg».proof.Proof.FrameI.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
theorem hz2 : (![0, 0] : Fin 2 → Nat) = fun _ => 0 := funext fun a => by fin_cases a <;> rfl

/-- Case B: the accumulator `xs` plus the tile's product. -/
theorem sout0_B_eq (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S16384x32 .f32) (x2 : Vec F S32x64 .f32) (x3 : Vec F S1x64 .f32) (xs : Vec F S2048x64 .f32) :
    sout0_B c i arg2 harg2 arg3 harg3 arg4 harg4 arg5 harg5 arg6 harg6 arg7 harg7 hc0 hc1 x0 x1 x2 x3 xs = k0_pay1 (k0_pay4 (View.ld x1 (Rect.unit (s := S16384x32) (k0_off1 i) S1024x32.size (k0_off1_inb i))) x2 xs x0) := by
  unfold sout0_B
  rw [View.read_writes_eq_canon _ _ _ (scover0_B c i arg2 harg2 arg3 harg3 arg4 harg4 arg5 harg5 arg6 harg6 arg7 harg7 hc0 hc1 x0 x1 x2 x3 xs)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x1024) hz2, View.ld_unit_zero (S := S16384x32) hz2, View.ld_unit_zero (S := S32x64) hz2, View.ld_unit_zero (S := S1x64) hz2, View.ld_unit_zero (S := S2048x64) hz2]

/-- Case C leaves the same in the accumulator, -/
theorem sout0_C_eq (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) :
    sout0_C c i arg2 harg2 arg3 harg3 arg4 harg4 arg5 harg5 arg6 harg6 arg7 harg7 hc0 hc1 x0 x1 x2 x3 xs = k0_pay1 (k0_pay4 (View.ld x1 (Rect.unit (s := S16384x32) (k0_off1 i) S1024x32.size (k0_off1_inb i))) x2 xs x0) := by
  unfold sout0_C
  rw [View.read_writes_eq_canon _ _ _ (scover0_C c i arg2 harg2 arg3 harg3 arg4 harg4 arg5 harg5 arg6 harg6 arg7 harg7 hc0 hc1 x0 x1 x2 x3 xs)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x1024) hz2, View.ld_unit_zero (S := S16384x32) hz2, View.ld_unit_zero (S := S32x64) hz2, View.ld_unit_zero (S := S1x64) hz2, View.ld_unit_zero (S := S2048x64) hz2]

/-- and stores the output block computed from it. -/
theorem out0_C_eq (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S16384x32 .f32) (x2 : Vec F S32x64 .f32) (x3 : Vec F S1x64 .f32) (xs : Vec F S2048x64 .f32) :
    out0_C c i arg2 harg2 arg3 harg3 arg4 harg4 arg5 harg5 arg6 harg6 arg7 harg7 hc0 hc1 x0 x1 x2 x3 xs = k0_pay2 (k0_pay1 (k0_pay4 (View.ld x1 (Rect.unit (s := S16384x32) (k0_off1 i) S1024x32.size (k0_off1_inb i))) x2 xs x0)) x3 := by
  unfold out0_C
  rw [View.read_writes_eq_canon _ _ _ (cover0_C c i arg2 harg2 arg3 harg3 arg4 harg4 arg5 harg5 arg6 harg6 arg7 harg7 hc0 hc1 x0 x1 x2 x3 xs)]
  unfold kernelRun0_C
  dsimp only
  sl_unfold_words
  rw [View.canon_unit_zero hz2]
  simp only [View.readAt_eq_ld, View.readCov_unit_zero (S := S2048x64) _ hz2, harg2.read_unread, harg3.read_unread, harg4.read_unread, harg5.read_unread, harg6.read_unread, harg7.read_unread, View.ld_unit_zero (S := S2048x1024) hz2, View.ld_unit_zero (S := S16384x32) hz2, View.ld_unit_zero (S := S32x64) hz2, View.ld_unit_zero (S := S1x64) hz2, View.ld_unit_zero (S := S2048x64) hz2]

/-- Case A: the zero block plus the tile's product. -/
theorem sout0_A_eq (c : Dev nD) (i : grid0.Coords) (arg2 : Memref sig .tc .vmem S2048x1024 .f32) (harg2 : arg2.IsWhole) (arg3 : Memref sig .tc .vmem S16384x32 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S16384x32 .f32) (x2 : Vec F S32x64 .f32) (x3 : Vec F S1x64 .f32) :
    sout0_A c i arg2 harg2 arg3 harg3 arg4 harg4 arg5 harg5 arg6 harg6 arg7 harg7 hc0 hc1 x0 x1 x2 x3 = k0_pay1 (k0_pay4 (View.ld x1 (Rect.unit (s := S16384x32) (k0_off1 i) S1024x32.size (k0_off1_inb i))) x2 (k0_pay3 (F := F)) x0) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x64) hz2]
  simp only [View.readAt_eq_ld, View.readCov_unit_zero (S := S2048x64) _ hz2, harg2.read_unread, harg3.read_unread, harg4.read_unread, harg5.read_unread, harg6.read_unread, harg7.read_unread, View.ld_unit_zero (S := S2048x1024) hz2, View.ld_unit_zero (S := S16384x32) hz2, View.ld_unit_zero (S := S32x64) hz2, View.ld_unit_zero (S := S1x64) hz2, View.ld_unit_zero (S := S2048x64) hz2]

end Cert.KernelIdeal.Hand

end
-- ==== Proof.ValueI.Blocks0.lean ====
/-
  Region 0: the windows' blocks read at coordinates. Point `t` of the grid is row tile `t / 16`, contraction tile
  `t % 16`. The adjacency block at `t` is rows [2048·(t/16), +2048) by columns [1024·(t%16), +1024) of the adjacency;
  the feature matrix, the weights and the bias are resident whole (block index (0, 0)); the body reads rows
  [1024·(t%16), +1024) of the resident feature matrix; the output block is rows [2048·(t/16), +2048) of the result.
-/
import proofs.«100211_j10565619548474_2_alg».proof.Proof.FrameI.Region0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The index maps, decided over the grid -/

theorem idx0_0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val / 16 ∧ win0_4.index t 1 = 0 :=
  (by decide +kernel : ∀ t : Fin grid0.N, win0_4.index t 0 = t.val / 16 ∧ win0_4.index t 1 = 0)
/-- The first row the body reads of the resident feature matrix. -/
theorem off0 : ∀ t : Fin cfg0.N, k0_off1 (grid0.coords t) 0 = 1024 * (t.val % 16) ∧ k0_off1 (grid0.coords t) 1 = 0 :=
  (by decide +kernel : ∀ t : Fin grid0.N, k0_off1 (grid0.coords t) 0 = 1024 * (t.val % 16) ∧ k0_off1 (grid0.coords t) 1 = 0)

/-! ## The blocks at coordinates -/

/-- The adjacency block. -/
theorem iblk0_0_apply (c : Dev nD) (t : Fin cfg0.N) (r : Fin 2048) (n : Fin 1024)
    (hr : 2048 * (t.val / 16) + r.val < 16384) (hn : 1024 * (t.val % 16) + n.val < 16384) :
    (iblk0 V c 0 t : Vec F S2048x1024 .f32) (ix2 r n)
      = (V c main_arg1 : Vec F S16384x16384 .f32) (ix2 ⟨2048 * (t.val / 16) + r.val, hr⟩ ⟨1024 * (t.val % 16) + n.val, hn⟩) := by
  unfold iblk0
  rw [View.read_apply]
  show (V c main_arg1 : Vec F S16384x16384 .f32) _ = _
  refine congrArg _ ?_
  funext a
  apply Fin.ext
  match a with
  | ⟨0, _⟩ => show win0_0.index t 0 * 2048 + 1 * r.val = 2048 * (t.val / 16) + r.val; rw [(idx0_0 t).1]; omega
  | ⟨1, _⟩ => show win0_0.index t 1 * 1024 + 1 * n.val = 1024 * (t.val % 16) + n.val; rw [(idx0_0 t).2]; omega

/-- The resident feature matrix. -/
theorem iblk0_1_apply (c : Dev nD) (t : Fin cfg0.N) (r : Fin 16384) (f : Fin 32) :
    (iblk0 V c 1 t : Vec F S16384x32 .f32) (ix2 r f) = (V c main_arg0 : Vec F S16384x32 .f32) (ix2 r f) := by
  unfold iblk0
  rw [View.read_apply]
  show (V c main_arg0 : Vec F S16384x32 .f32) _ = _
  refine congrArg _ ?_
  funext a
  apply Fin.ext
  match a with
  | ⟨0, _⟩ => show win0_1.index t 0 * 16384 + 1 * r.val = r.val; rw [(idx0_1 t).1]; omega
  | ⟨1, _⟩ => show win0_1.index t 1 * 32 + 1 * f.val = f.val; rw [(idx0_1 t).2]; omega

/-- The resident weights. -/
theorem iblk0_2_apply (c : Dev nD) (t : Fin cfg0.N) (f : Fin 32) (j : Fin 64) :
    (iblk0 V c 2 t : Vec F S32x64 .f32) (ix2 f j) = (V c main_arg2 : Vec F S32x64 .f32) (ix2 f j) := by
  unfold iblk0
  rw [View.read_apply]
  show (V c main_arg2 : Vec F S32x64 .f32) _ = _
  refine congrArg _ ?_
  funext a
  apply Fin.ext
  match a with
  | ⟨0, _⟩ => show win0_2.index t 0 * 32 + 1 * f.val = f.val; rw [(idx0_2 t).1]; omega
  | ⟨1, _⟩ => show win0_2.index t 1 * 64 + 1 * j.val = j.val; rw [(idx0_2 t).2]; omega

/-- The resident bias row. -/
theorem iblk0_3_apply (c : Dev nD) (t : Fin cfg0.N) (z : Fin 1) (j : Fin 64) :
    (iblk0 V c 3 t : Vec F S1x64 .f32) (ix2 z j) = (V c main_call0_v0 : Vec F S1x64 .f32) (ix2 z j) := by
  unfold iblk0
  rw [View.read_apply]
  show (V c main_call0_v0 : Vec F S1x64 .f32) _ = _
  refine congrArg _ ?_
  funext a
  apply Fin.ext
  match a with
  | ⟨0, _⟩ => show win0_3.index t 0 * 1 + 1 * z.val = z.val; rw [(idx0_3 t).1]; omega
  | ⟨1, _⟩ => show win0_3.index t 1 * 64 + 1 * j.val = j.val; rw [(idx0_3 t).2]; omega

/-- The rows of the resident feature matrix the body loads at point `t`. -/
theorem ld0_apply (t : Fin cfg0.N) (x : Vec F S16384x32 .f32) (n : Fin 1024) (f : Fin 32)
    (hn : 1024 * (t.val % 16) + n.val < 16384) :
    View.ld x (Rect.unit (s := S16384x32) (k0_off1 (grid0.coords t)) S1024x32.size (k0_off1_inb (grid0.coords t))) (ix2 n f)
      = x (ix2 ⟨1024 * (t.val % 16) + n.val, hn⟩ f) := by
  show x _ = x _
  refine congrArg _ ?_
  funext a
  apply Fin.ext
  match a with
  | ⟨0, _⟩ => show k0_off1 (grid0.coords t) 0 + 1 * n.val = 1024 * (t.val % 16) + n.val; rw [(off0 t).1]; omega
  | ⟨1, _⟩ => show k0_off1 (grid0.coords t) 1 + 1 * f.val = f.val; rw [(off0 t).2]; omega

end Cert.KernelIdeal.Hand

end
-- ==== Proof.RealClosure.lean ====
/-
  Finiteness is carried from layer to layer. A sum of two real numbers, a product of two real numbers and the maximum
  of a real number with 0 are real numbers (none of them is an infinity), so a finite sum of products of real entries is
  real, and with it every matrix product, biased layer and positive part built from real arguments: each of the
  specification's intermediate arrays has real entries as soon as the ten argument arrays do.
-/
import proofs.«100211_j10565619548474_2_alg».proof.Proof.Spec

noncomputable section

namespace Cert.Spec

open Idealize.ShloMosaic Idealize.ShloMosaic.ValueIdx

/-- The sum of two real numbers is a real number. -/
theorem isReal_add {a b : EReal} (ha : ∃ x : ℝ, a = (x : EReal)) (hb : ∃ y : ℝ, b = (y : EReal)) :
    ∃ s : ℝ, a + b = (s : EReal) := by
  obtain ⟨x, rfl⟩ := ha
  obtain ⟨y, rfl⟩ := hb
  exact ⟨x + y, (EReal.coe_add x y).symm⟩

/-- The product of two real numbers is a real number. -/
theorem isReal_mul {a b : EReal} (ha : ∃ x : ℝ, a = (x : EReal)) (hb : ∃ y : ℝ, b = (y : EReal)) :
    ∃ s : ℝ, a * b = (s : EReal) := by
  obtain ⟨x, rfl⟩ := ha
  obtain ⟨y, rfl⟩ := hb
  exact ⟨x * y, (EReal.coe_mul x y).symm⟩

/-- The positive part of a real number is a real number. -/
theorem isReal_max_zero {a : EReal} (ha : ∃ x : ℝ, a = (x : EReal)) : ∃ s : ℝ, max a 0 = (s : EReal) := by
  obtain ⟨x, rfl⟩ := ha
  rcases le_total (x : EReal) 0 with h | h
  · exact ⟨0, by rw [max_eq_right h, EReal.coe_zero]⟩
  · exact ⟨x, max_eq_left h⟩

/-- A finite sum of real numbers is a real number. -/
theorem isReal_sum {ι : Type} (s : Finset ι) (f : ι → EReal) (hf : ∀ n, ∃ a : ℝ, f n = (a : EReal)) :
    ∃ t : ℝ, ∑ n ∈ s, f n = (t : EReal) := by
  classical
  induction s using Finset.induction_on with
  | empty => exact ⟨0, by rw [Finset.sum_empty, EReal.coe_zero]⟩
  | insert a s ha ih =>
    rw [Finset.sum_insert ha]
    exact isReal_add (hf a) ih

/-- A finite sum of products of real numbers is a real number. -/
theorem isReal_sum_mul {ι : Type} [Fintype ι] {f g : ι → EReal} (hf : ∀ n, ∃ a : ℝ, f n = (a : EReal))
    (hg : ∀ n, ∃ b : ℝ, g n = (b : EReal)) : ∃ s : ℝ, ∑ n, f n * g n = (s : EReal) :=
  isReal_sum Finset.univ (fun n => f n * g n) fun n => isReal_mul (hf n) (hg n)

/-- A matrix product of real matrices is real. -/
theorem isReal_mm {a k b : Nat} {l : Mat a k} {r : Mat k b} (hl : IsReal l) (hr : IsReal r) : IsReal (mm l r) :=
  fun j => isReal_sum_mul (fun n => hl (ix2 (j 0 : Fin a) n)) (fun n => hr (ix2 n (j 1 : Fin b)))

/-- A real matrix plus a real bias, cut off at 0, is real. -/
theorem isReal_biasRelu {a b : Nat} {v : Mat a b} {bias : Vec1 b} (hv : IsReal v) (hb : IsReal bias) :
    IsReal (biasRelu v bias) :=
  fun j => isReal_max_zero (isReal_add (hv j) (hb (ix1 (j 1 : Fin b))))

/-- A real matrix plus a real bias is real. -/
theorem isReal_addBias {a b : Nat} {v : Mat a b} {bias : Vec1 b} (hv : IsReal v) (hb : IsReal bias) :
    IsReal (addBias v bias) :=
  fun j => isReal_add (hv j) (hb (ix1 (j 1 : Fin b)))

variable {X : Mat 16384 32} {A : Mat 16384 16384} {W1 : Mat 32 64} {b1 : Vec1 64} {W2 : Mat 64 64} {b2 : Vec1 64}
  {Wd1 : Mat 64 32} {bd1 : Vec1 32} {Wd2 : Mat 32 1} {bd2 : Vec1 1}

/-- The first layer's projected features are real. -/
theorem isReal_H1 (hX : IsReal X) (hW1 : IsReal W1) : IsReal (H1 X W1) := isReal_mm hX hW1

/-- The first layer is real. -/
theorem isReal_G1 (hX : IsReal X) (hA : IsReal A) (hW1 : IsReal W1) (hb1 : IsReal b1) : IsReal (G1 X A W1 b1) :=
  isReal_biasRelu (isReal_mm hA (isReal_H1 hX hW1)) hb1

/-- The second layer's projected features are real. -/
theorem isReal_H2 (hX : IsReal X) (hA : IsReal A) (hW1 : IsReal W1) (hb1 : IsReal b1) (hW2 : IsReal W2) :
    IsReal (H2 X A W1 b1 W2) :=
  isReal_mm (isReal_G1 hX hA hW1 hb1) hW2

/-- The second layer is real. -/
theorem isReal_G2 (hX : IsReal X) (hA : IsReal A) (hW1 : IsReal W1) (hb1 : IsReal b1) (hW2 : IsReal W2)
    (hb2 : IsReal b2) : IsReal (G2 X A W1 b1 W2 b2) :=
  isReal_biasRelu (isReal_mm hA (isReal_H2 hX hA hW1 hb1 hW2)) hb2

/-- The head's hidden layer is real. -/
theorem isReal_D3 (hX : IsReal X) (hA : IsReal A) (hW1 : IsReal W1) (hb1 : IsReal b1) (hW2 : IsReal W2)
    (hb2 : IsReal b2) (hWd1 : IsReal Wd1) (hbd1 : IsReal bd1) : IsReal (D3 X A W1 b1 W2 b2 Wd1 bd1) :=
  isReal_biasRelu (isReal_mm (isReal_G2 hX hA hW1 hb1 hW2 hb2) hWd1) hbd1

/-- The result is real. -/
theorem isReal_OUT (hX : IsReal X) (hA : IsReal A) (hW1 : IsReal W1) (hb1 : IsReal b1) (hW2 : IsReal W2)
    (hb2 : IsReal b2) (hWd1 : IsReal Wd1) (hbd1 : IsReal bd1) (hWd2 : IsReal Wd2) (hbd2 : IsReal bd2) :
    IsReal (OUT X A W1 b1 W2 b2 Wd1 bd1 Wd2 bd2) :=
  isReal_addBias (isReal_mm (isReal_D3 hX hA hW1 hb1 hW2 hb2 hWd1 hbd1) hWd2) hbd2

end Cert.Spec

end
-- ==== Proof.Dot.lean ====
/-
  A matrix product computed in three passes. The kernel multiplies two matrices `l` and `r` as
      l · r  +  l · (r - r)  +  (l - l) · r,
  each pass a sum of products into a zero accumulator. On real (finite) entries `x - x = 0`, a product with `0` is `0`
  and a sum of zeros is `0`, so the three passes together are the one product `l · r`; only `x - x = 0` needs the
  entries to be real (`⊤ - ⊤` is not `0` on the extended reals). Then, for each of the five triples of extents the
  kernel multiplies at, the sum over the contraction index is re-indexed as the sum over the shared coordinate.
-/
import proofs.«100211_j10565619548474_2_alg».proof.Proof.Gen.KernelIdeal.Skeleton
import proofs.«100211_j10565619548474_2_alg».proof.Proof.Spec
import proofs.«100211_j10565619548474_2_alg».proof.Proof.RealClosure
import Idealize.ShloMosaic.Lib.ValueIdx
import Idealize.ShloMosaic.PureOps.Ideal.Laws

noncomputable section

namespace Cert.KernelIdeal.Pay

open Cert.KernelIdeal Cert.KernelIdeal.Gen Cert.Spec Idealize.ShloMosaic Idealize.ShloMosaic.ValueIdx

/-- The product in three passes: `l · r + l · (r - r) + (l - l) · r`, each pass into a zero accumulator, the factors
    passed through the narrower format (the identity on extended reals). -/
def dot3 {sl sr so : Shape} (D : DotDims sl sr so) (l : FVec Ideal sl .f32) (r : FVec Ideal sr .f32) : FVec Ideal so .f32 :=
  addf
    (addf
      (matmul (F := Ideal) D none (truncf .bf16 l bitsLt_bf16_f32) (truncf .bf16 r bitsLt_bf16_f32) (constant (F := Ideal) so .f32 0x00000000#32))
      (matmul (F := Ideal) D none (truncf .bf16 l bitsLt_bf16_f32) (truncf .bf16 (subf r r) bitsLt_bf16_f32) (constant (F := Ideal) so .f32 0x00000000#32)))
    (matmul (F := Ideal) D none (truncf .bf16 (subf l l) bitsLt_bf16_f32) (truncf .bf16 r bitsLt_bf16_f32) (constant (F := Ideal) so .f32 0x00000000#32))

/-- A real number minus itself is `0`. -/
theorem sub_self_of_real {x : EReal} (hx : ∃ a : ℝ, x = (a : EReal)) : x - x = 0 := by
  obtain ⟨a, rfl⟩ := hx
  rw [← EReal.coe_sub, sub_self, EReal.coe_zero]

/-- On real factors the three passes are the one product: at every index, the sum over the contraction index of the
    products of the factors' entries. -/
theorem dot3_apply {sl sr so : Shape} (D : DotDims sl sr so) (l : FVec Ideal sl .f32) (r : FVec Ideal sr .f32)
    (hl : IsReal l) (hr : IsReal r) (j : so.Idx) :
    dot3 D l r j = ∑ q : D.contr.Idx, l (D.lhsIdx j q) * r (D.rhsIdx j q) := by
  have e0 : matmul (F := Ideal) D none (truncf .bf16 l bitsLt_bf16_f32) (truncf .bf16 r bitsLt_bf16_f32)
      (constant (F := Ideal) so .f32 0x00000000#32) j = ∑ q : D.contr.Idx, l (D.lhsIdx j q) * r (D.rhsIdx j q) :=
    Ideal.matmul_constant_zero_apply D none _ _ j
  have e1 : matmul (F := Ideal) D none (truncf .bf16 l bitsLt_bf16_f32) (truncf .bf16 (subf r r) bitsLt_bf16_f32)
      (constant (F := Ideal) so .f32 0x00000000#32) j = 0 := by
    refine (Ideal.matmul_constant_zero_apply D none _ _ j).trans (Finset.sum_eq_zero fun q _ => ?_)
    show l (D.lhsIdx j q) * (r (D.rhsIdx j q) - r (D.rhsIdx j q)) = 0
    rw [sub_self_of_real (hr _), mul_zero]
  have e2 : matmul (F := Ideal) D none (truncf .bf16 (subf l l) bitsLt_bf16_f32) (truncf .bf16 r bitsLt_bf16_f32)
      (constant (F := Ideal) so .f32 0x00000000#32) j = 0 := by
    refine (Ideal.matmul_constant_zero_apply D none _ _ j).trans (Finset.sum_eq_zero fun q _ => ?_)
    show (l (D.lhsIdx j q) - l (D.lhsIdx j q)) * r (D.rhsIdx j q) = 0
    rw [sub_self_of_real (hl _), zero_mul]
  unfold dot3
  rw [addf_apply, addf_apply, e0, e1, e2, add_zero, add_zero]

/-! ### A 1024 × 32 by 32 × 64 product -/

theorem lhs0_1024x32x64 (i : S1024x64.Idx) (q : dot_S1024x32_S32x64_S1024x64_1_0_0_1_n_n.contr.Idx) :
    (dot_S1024x32_S32x64_S1024x64_1_0_0_1_n_n.lhsIdx i q 0).val = (i 0).val := by
  unfold DotDims.lhsIdx
  rw [dif_neg (show ¬(0 : Fin S1024x32.rank) ∈ dot_S1024x32_S32x64_S1024x64_1_0_0_1_n_n.lhsBatch by decide), dif_pos (show (0 : Fin S1024x32.rank) ∈ dot_S1024x32_S32x64_S1024x64_1_0_0_1_n_n.lhsNonContracting by decide)]
  rfl
theorem lhs1_1024x32x64 (i : S1024x64.Idx) (q : dot_S1024x32_S32x64_S1024x64_1_0_0_1_n_n.contr.Idx) :
    (dot_S1024x32_S32x64_S1024x64_1_0_0_1_n_n.lhsIdx i q 1).val = (q ⟨0, by decide⟩).val :=
  dot_S1024x32_S32x64_S1024x64_1_0_0_1_n_n.lhsIdx_val_of_single rfl i q
theorem rhs0_1024x32x64 (i : S1024x64.Idx) (q : dot_S1024x32_S32x64_S1024x64_1_0_0_1_n_n.contr.Idx) :
    (dot_S1024x32_S32x64_S1024x64_1_0_0_1_n_n.rhsIdx i q 0).val = (q ⟨0, by decide⟩).val :=
  dot_S1024x32_S32x64_S1024x64_1_0_0_1_n_n.rhsIdx_val_of_single rfl i q
theorem rhs1_1024x32x64 (i : S1024x64.Idx) (q : dot_S1024x32_S32x64_S1024x64_1_0_0_1_n_n.contr.Idx) :
    (dot_S1024x32_S32x64_S1024x64_1_0_0_1_n_n.rhsIdx i q 1).val = (i 1).val := by
  unfold DotDims.rhsIdx
  rw [dif_neg (show ¬(1 : Fin S32x64.rank) ∈ dot_S1024x32_S32x64_S1024x64_1_0_0_1_n_n.rhsBatch by decide), dif_pos (show (1 : Fin S32x64.rank) ∈ dot_S1024x32_S32x64_S1024x64_1_0_0_1_n_n.rhsNonContracting by decide)]
  rfl

/-- The sum over the contraction index is the sum over the shared coordinate of row `p` of the left factor times
    column `c` of the right one. -/
theorem sum_1024x32x64 (l : S1024x32.Idx → EReal) (r : S32x64.Idx → EReal) (p : Fin 1024) (c : Fin 64) :
    ∑ q : dot_S1024x32_S32x64_S1024x64_1_0_0_1_n_n.contr.Idx, l (dot_S1024x32_S32x64_S1024x64_1_0_0_1_n_n.lhsIdx (ix2 p c) q) * r (dot_S1024x32_S32x64_S1024x64_1_0_0_1_n_n.rhsIdx (ix2 p c) q)
      = ∑ n : Fin 32, l (ix2 p n) * r (ix2 n c) := by
  rw [← Equiv.sum_comp (contrEquiv1 dot_S1024x32_S32x64_S1024x64_1_0_0_1_n_n 32 rfl rfl).symm]
  refine Finset.sum_congr rfl fun n _ => ?_
  have hn := contrEquiv1_symm_val dot_S1024x32_S32x64_S1024x64_1_0_0_1_n_n 32 rfl rfl n
  have el : dot_S1024x32_S32x64_S1024x64_1_0_0_1_n_n.lhsIdx (ix2 p c) ((contrEquiv1 dot_S1024x32_S32x64_S1024x64_1_0_0_1_n_n 32 rfl rfl).symm n) = ix2 p n := funext fun a => Fin.ext (by
    match a with
    | ⟨0, _⟩ => exact lhs0_1024x32x64 _ _
    | ⟨1, _⟩ => exact (lhs1_1024x32x64 _ _).trans hn)
  have er : dot_S1024x32_S32x64_S1024x64_1_0_0_1_n_n.rhsIdx (ix2 p c) ((contrEquiv1 dot_S1024x32_S32x64_S1024x64_1_0_0_1_n_n 32 rfl rfl).symm n) = ix2 n c := funext fun a => Fin.ext (by
    match a with
    | ⟨0, _⟩ => exact (rhs0_1024x32x64 _ _).trans hn
    | ⟨1, _⟩ => exact rhs1_1024x32x64 _ _)
  rw [el, er]

/-- The product in three passes of two real matrices, read at `(p, c)`. -/
theorem dot3_1024x32x64 (l : FVec Ideal S1024x32 .f32) (r : FVec Ideal S32x64 .f32) (hl : IsReal l) (hr : IsReal r)
    (p : Fin 1024) (c : Fin 64) :
    dot3 dot_S1024x32_S32x64_S1024x64_1_0_0_1_n_n l r (ix2 p c) = ∑ n : Fin 32, l (ix2 p n) * r (ix2 n c) :=
  (dot3_apply dot_S1024x32_S32x64_S1024x64_1_0_0_1_n_n l r hl hr (ix2 p c)).trans (sum_1024x32x64 l r p c)

/-- … and that product is a real matrix. -/
theorem isReal_dot3_1024x32x64 (l : FVec Ideal S1024x32 .f32) (r : FVec Ideal S32x64 .f32) (hl : IsReal l) (hr : IsReal r) :
    IsReal (dot3 dot_S1024x32_S32x64_S1024x64_1_0_0_1_n_n l r) := fun j => by
  obtain ⟨p, c, rfl⟩ : ∃ (p : Fin 1024) (c : Fin 64), j = ix2 p c := ⟨j 0, j 1, eq_ix2 j⟩
  rw [dot3_1024x32x64 l r hl hr]
  exact isReal_sum_mul (fun n => hl _) (fun n => hr _)

/-! ### A 2048 × 1024 by 1024 × 64 product -/

theorem lhs0_2048x1024x64 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs1_2048x1024x64 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs0_2048x1024x64 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs1_2048x1024x64 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The sum over the contraction index is the sum over the shared coordinate of row `p` of the left factor times
    column `c` of the right one. -/
theorem sum_2048x1024x64 (l : S2048x1024.Idx → EReal) (r : S1024x64.Idx → EReal) (p : Fin 2048) (c : Fin 64) :
    ∑ q : dot_S2048x1024_S1024x64_S2048x64_1_0_0_1_n_n.contr.Idx, l (dot_S2048x1024_S1024x64_S2048x64_1_0_0_1_n_n.lhsIdx (ix2 p c) q) * r (dot_S2048x1024_S1024x64_S2048x64_1_0_0_1_n_n.rhsIdx (ix2 p c) q)
      = ∑ n : Fin 1024, l (ix2 p n) * r (ix2 n c) := by
  rw [← Equiv.sum_comp (contrEquiv1 dot_S2048x1024_S1024x64_S2048x64_1_0_0_1_n_n 1024 rfl rfl).symm]
  refine Finset.sum_congr rfl fun n _ => ?_
  have hn := contrEquiv1_symm_val dot_S2048x1024_S1024x64_S2048x64_1_0_0_1_n_n 1024 rfl rfl n
  have el : dot_S2048x1024_S1024x64_S2048x64_1_0_0_1_n_n.lhsIdx (ix2 p c) ((contrEquiv1 dot_S2048x1024_S1024x64_S2048x64_1_0_0_1_n_n 1024 rfl rfl).symm n) = ix2 p n := funext fun a => Fin.ext (by
    match a with
    | ⟨0, _⟩ => exact lhs0_2048x1024x64 _ _
    | ⟨1, _⟩ => exact (lhs1_2048x1024x64 _ _).trans hn)
  have er : dot_S2048x1024_S1024x64_S2048x64_1_0_0_1_n_n.rhsIdx (ix2 p c) ((contrEquiv1 dot_S2048x1024_S1024x64_S2048x64_1_0_0_1_n_n 1024 rfl rfl).symm n) = ix2 n c := funext fun a => Fin.ext (by
    match a with
    | ⟨0, _⟩ => exact (rhs0_2048x1024x64 _ _).trans hn
    | ⟨1, _⟩ => exact rhs1_2048x1024x64 _ _)
  rw [el, er]

/-- The product in three passes of two real matrices, read at `(p, c)`. -/
theorem dot3_2048x1024x64 (l : FVec Ideal S2048x1024 .f32) (r : FVec Ideal S1024x64 .f32) (hl : IsReal l) (hr : IsReal r)
    (p : Fin 2048) (c : Fin 64) :
    dot3 dot_S2048x1024_S1024x64_S2048x64_1_0_0_1_n_n l r (ix2 p c) = ∑ n : Fin 1024, l (ix2 p n) * r (ix2 n c) :=
  (dot3_apply dot_S2048x1024_S1024x64_S2048x64_1_0_0_1_n_n l r hl hr (ix2 p c)).trans (sum_2048x1024x64 l r p c)

/-- … and that product is a real matrix. -/
theorem isReal_dot3_2048x1024x64 (l : FVec Ideal S2048x1024 .f32) (r : FVec Ideal S1024x64 .f32) (hl : IsReal l) (hr : IsReal r) :
    IsReal (dot3 dot_S2048x1024_S1024x64_S2048x64_1_0_0_1_n_n l r) := fun j => by
  obtain ⟨p, c, rfl⟩ : ∃ (p : Fin 2048) (c : Fin 64), j = ix2 p c := ⟨j 0, j 1, eq_ix2 j⟩
  rw [dot3_2048x1024x64 l r hl hr]
  exact isReal_sum_mul (fun n => hl _) (fun n => hr _)

/-! ### A 1024 × 64 by 64 × 64 product -/

theorem lhs0_1024x64x64 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs1_1024x64x64 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs0_1024x64x64 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs1_1024x64x64 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The sum over the contraction index is the sum over the shared coordinate of row `p` of the left factor times
    column `c` of the right one. -/
theorem sum_1024x64x64 (l : S1024x64.Idx → EReal) (r : S64x64.Idx → EReal) (p : Fin 1024) (c : Fin 64) :
    ∑ q : dot_S1024x64_S64x64_S1024x64_1_0_0_1_n_n.contr.Idx, l (dot_S1024x64_S64x64_S1024x64_1_0_0_1_n_n.lhsIdx (ix2 p c) q) * r (dot_S1024x64_S64x64_S1024x64_1_0_0_1_n_n.rhsIdx (ix2 p c) q)
      = ∑ n : Fin 64, l (ix2 p n) * r (ix2 n c) := by
  rw [← Equiv.sum_comp (contrEquiv1 dot_S1024x64_S64x64_S1024x64_1_0_0_1_n_n 64 rfl rfl).symm]
  refine Finset.sum_congr rfl fun n _ => ?_
  have hn := contrEquiv1_symm_val dot_S1024x64_S64x64_S1024x64_1_0_0_1_n_n 64 rfl rfl n
  have el : dot_S1024x64_S64x64_S1024x64_1_0_0_1_n_n.lhsIdx (ix2 p c) ((contrEquiv1 dot_S1024x64_S64x64_S1024x64_1_0_0_1_n_n 64 rfl rfl).symm n) = ix2 p n := funext fun a => Fin.ext (by
    match a with
    | ⟨0, _⟩ => exact lhs0_1024x64x64 _ _
    | ⟨1, _⟩ => exact (lhs1_1024x64x64 _ _).trans hn)
  have er : dot_S1024x64_S64x64_S1024x64_1_0_0_1_n_n.rhsIdx (ix2 p c) ((contrEquiv1 dot_S1024x64_S64x64_S1024x64_1_0_0_1_n_n 64 rfl rfl).symm n) = ix2 n c := funext fun a => Fin.ext (by
    match a with
    | ⟨0, _⟩ => exact (rhs0_1024x64x64 _ _).trans hn
    | ⟨1, _⟩ => exact rhs1_1024x64x64 _ _)
  rw [el, er]

/-- The product in three passes of two real matrices, read at `(p, c)`. -/
theorem dot3_1024x64x64 (l : FVec Ideal S1024x64 .f32) (r : FVec Ideal S64x64 .f32) (hl : IsReal l) (hr : IsReal r)
    (p : Fin 1024) (c : Fin 64) :
    dot3 dot_S1024x64_S64x64_S1024x64_1_0_0_1_n_n l r (ix2 p c) = ∑ n : Fin 64, l (ix2 p n) * r (ix2 n c) :=
  (dot3_apply dot_S1024x64_S64x64_S1024x64_1_0_0_1_n_n l r hl hr (ix2 p c)).trans (sum_1024x64x64 l r p c)

/-- … and that product is a real matrix. -/
theorem isReal_dot3_1024x64x64 (l : FVec Ideal S1024x64 .f32) (r : FVec Ideal S64x64 .f32) (hl : IsReal l) (hr : IsReal r) :
    IsReal (dot3 dot_S1024x64_S64x64_S1024x64_1_0_0_1_n_n l r) := fun j => by
  obtain ⟨p, c, rfl⟩ : ∃ (p : Fin 1024) (c : Fin 64), j = ix2 p c := ⟨j 0, j 1, eq_ix2 j⟩
  rw [dot3_1024x64x64 l r hl hr]
  exact isReal_sum_mul (fun n => hl _) (fun n => hr _)

/-! ### A 2048 × 64 by 64 × 32 product -/

theorem lhs0_2048x64x32 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs1_2048x64x32 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs0_2048x64x32 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs1_2048x64x32 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- The sum over the contraction index is the sum over the shared coordinate of row `p` of the left factor times
    column `c` of the right one. -/
theorem sum_2048x64x32 (l : S2048x64.Idx → EReal) (r : S64x32.Idx → EReal) (p : Fin 2048) (c : Fin 32) :
    ∑ q : dot_S2048x64_S64x32_S2048x32_1_0_0_1_n_n.contr.Idx, l (dot_S2048x64_S64x32_S2048x32_1_0_0_1_n_n.lhsIdx (ix2 p c) q) * r (dot_S2048x64_S64x32_S2048x32_1_0_0_1_n_n.rhsIdx (ix2 p c) q)
      = ∑ n : Fin 64, l (ix2 p n) * r (ix2 n c) := by
  rw [← Equiv.sum_comp (contrEquiv1 dot_S2048x64_S64x32_S2048x32_1_0_0_1_n_n 64 rfl rfl).symm]
  refine Finset.sum_congr rfl fun n _ => ?_
  have hn := contrEquiv1_symm_val dot_S2048x64_S64x32_S2048x32_1_0_0_1_n_n 64 rfl rfl n
  have el : dot_S2048x64_S64x32_S2048x32_1_0_0_1_n_n.lhsIdx (ix2 p c) ((contrEquiv1 dot_S2048x64_S64x32_S2048x32_1_0_0_1_n_n 64 rfl rfl).symm n) = ix2 p n := funext fun a => Fin.ext (by
    match a with
    | ⟨0, _⟩ => exact lhs0_2048x64x32 _ _
    | ⟨1, _⟩ => exact (lhs1_2048x64x32 _ _).trans hn)
  have er : dot_S2048x64_S64x32_S2048x32_1_0_0_1_n_n.rhsIdx (ix2 p c) ((contrEquiv1 dot_S2048x64_S64x32_S2048x32_1_0_0_1_n_n 64 rfl rfl).symm n) = ix2 n c := funext fun a => Fin.ext (by
    match a with
    | ⟨0, _⟩ => exact (rhs0_2048x64x32 _ _).trans hn
    | ⟨1, _⟩ => exact rhs1_2048x64x32 _ _)
  rw [el, er]

/-- The product in three passes of two real matrices, read at `(p, c)`. -/
theorem dot3_2048x64x32 (l : FVec Ideal S2048x64 .f32) (r : FVec Ideal S64x32 .f32) (hl : IsReal l) (hr : IsReal r)
    (p : Fin 2048) (c : Fin 32) :
    dot3 dot_S2048x64_S64x32_S2048x32_1_0_0_1_n_n l r (ix2 p c) = ∑ n : Fin 64, l (ix2 p n) * r (ix2 n c) :=
  (dot3_apply dot_S2048x64_S64x32_S2048x32_1_0_0_1_n_n l r hl hr (ix2 p c)).trans (sum_2048x64x32 l r p c)

/-- … and that product is a real matrix. -/
theorem isReal_dot3_2048x64x32 (l : FVec Ideal S2048x64 .f32) (r : FVec Ideal S64x32 .f32) (hl : IsReal l) (hr : IsReal r) :
    IsReal (dot3 dot_S2048x64_S64x32_S2048x32_1_0_0_1_n_n l r) := fun j => by
  obtain ⟨p, c, rfl⟩ : ∃ (p : Fin 2048) (c : Fin 32), j = ix2 p c := ⟨j 0, j 1, eq_ix2 j⟩
  rw [dot3_2048x64x32 l r hl hr]
  exact isReal_sum_mul (fun n => hl _) (fun n => hr _)

/-! ### A 2048 × 32 by 32 × 1 product -/

theorem lhs0_2048x32x1 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhs1_2048x32x1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhs0_2048x32x1 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhs1_2048x32x1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The sum over the contraction index is the sum over the shared coordinate of row `p` of the left factor times
    column `c` of the right one. -/
theorem sum_2048x32x1 (l : S2048x32.Idx → EReal) (r : S32x1.Idx → EReal) (p : Fin 2048) (c : Fin 1) :
    ∑ q : dot_S2048x32_S32x1_S2048x1_1_0_0_1_n_n.contr.Idx, l (dot_S2048x32_S32x1_S2048x1_1_0_0_1_n_n.lhsIdx (ix2 p c) q) * r (dot_S2048x32_S32x1_S2048x1_1_0_0_1_n_n.rhsIdx (ix2 p c) q)
      = ∑ n : Fin 32, l (ix2 p n) * r (ix2 n c) := by
  rw [← Equiv.sum_comp (contrEquiv1 dot_S2048x32_S32x1_S2048x1_1_0_0_1_n_n 32 rfl rfl).symm]
  refine Finset.sum_congr rfl fun n _ => ?_
  have hn := contrEquiv1_symm_val dot_S2048x32_S32x1_S2048x1_1_0_0_1_n_n 32 rfl rfl n
  have el : dot_S2048x32_S32x1_S2048x1_1_0_0_1_n_n.lhsIdx (ix2 p c) ((contrEquiv1 dot_S2048x32_S32x1_S2048x1_1_0_0_1_n_n 32 rfl rfl).symm n) = ix2 p n := funext fun a => Fin.ext (by
    match a with
    | ⟨0, _⟩ => exact lhs0_2048x32x1 _ _
    | ⟨1, _⟩ => exact (lhs1_2048x32x1 _ _).trans hn)
  have er : dot_S2048x32_S32x1_S2048x1_1_0_0_1_n_n.rhsIdx (ix2 p c) ((contrEquiv1 dot_S2048x32_S32x1_S2048x1_1_0_0_1_n_n 32 rfl rfl).symm n) = ix2 n c := funext fun a => Fin.ext (by
    match a with
    | ⟨0, _⟩ => exact (rhs0_2048x32x1 _ _).trans hn
    | ⟨1, _⟩ => exact rhs1_2048x32x1 _ _)
  rw [el, er]

/-- The product in three passes of two real matrices, read at `(p, c)`. -/
theorem dot3_2048x32x1 (l : FVec Ideal S2048x32 .f32) (r : FVec Ideal S32x1 .f32) (hl : IsReal l) (hr : IsReal r)
    (p : Fin 2048) (c : Fin 1) :
    dot3 dot_S2048x32_S32x1_S2048x1_1_0_0_1_n_n l r (ix2 p c) = ∑ n : Fin 32, l (ix2 p n) * r (ix2 n c) :=
  (dot3_apply dot_S2048x32_S32x1_S2048x1_1_0_0_1_n_n l r hl hr (ix2 p c)).trans (sum_2048x32x1 l r p c)

/-- … and that product is a real matrix. -/
theorem isReal_dot3_2048x32x1 (l : FVec Ideal S2048x32 .f32) (r : FVec Ideal S32x1 .f32) (hl : IsReal l) (hr : IsReal r) :
    IsReal (dot3 dot_S2048x32_S32x1_S2048x1_1_0_0_1_n_n l r) := fun j => by
  obtain ⟨p, c, rfl⟩ : ∃ (p : Fin 2048) (c : Fin 1), j = ix2 p c := ⟨j 0, j 1, eq_ix2 j⟩
  rw [dot3_2048x32x1 l r hl hr]
  exact isReal_sum_mul (fun n => hl _) (fun n => hr _)

end Cert.KernelIdeal.Pay

end
-- ==== Proof.BiasRelu.lean ====
/-
  One row added to every row of a matrix, and the positive part of the sum, read at an index: the kernel adds a
  `[1, n]` bias to an `[a, n]` matrix by broadcasting the bias along the rows and takes the maximum with a zero splat.
  At `(p, c)` the result is `max (v (p, c) + b (0, c)) 0`, and it is real when the matrix and the bias are.
-/
import proofs.«100211_j10565619548474_2_alg».proof.Proof.Gen.KernelIdeal.Skeleton
import proofs.«100211_j10565619548474_2_alg».proof.Proof.Spec
import proofs.«100211_j10565619548474_2_alg».proof.Proof.RealClosure
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

/-- The row `b` added to every row of `v`. -/
def rowAdd {a n : Nat} (v : FVec Ideal ⟨2, ![a, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![a, n]⟩) :
    FVec Ideal ⟨2, ![a, n]⟩ .f32 :=
  addf v (broadcastTo ⟨2, ![a, n]⟩ (shapeCast ⟨2, ![1, n]⟩ b hc) hb)

/-- At `(p, c)`: the entry plus the row's entry in column `c`. -/
theorem rowAdd_apply {a n : Nat} (v : FVec Ideal ⟨2, ![a, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![a, n]⟩)
    (p : Fin a) (c : Fin n) : rowAdd v b hc hb (ix2 p c) = v (ix2 p c) + b (ix2 0 c) := by
  unfold rowAdd
  rw [addf_apply, shapeCast_self, broadcastTo_1b_ab_apply]

/-- The row `b` added to every row of `v`, then the positive part. -/
def rowRelu {a n : Nat} (v : FVec Ideal ⟨2, ![a, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![a, n]⟩) :
    FVec Ideal ⟨2, ![a, n]⟩ .f32 :=
  maximumf (rowAdd v b hc hb) (broadcast ⟨2, ![a, n]⟩ (Scalar.ofBits (F := Ideal) .f32 0x00000000#32))

/-- At `(p, c)`: the positive part of the entry plus the row's entry in column `c`. -/
theorem rowRelu_apply {a n : Nat} (v : FVec Ideal ⟨2, ![a, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![a, n]⟩)
    (p : Fin a) (c : Fin n) : rowRelu v b hc hb (ix2 p c) = max (v (ix2 p c) + b (ix2 0 c)) 0 := by
  unfold rowRelu
  rw [maximumf_apply, rowAdd_apply, broadcast_apply]
  exact congrArg (max _) Ideal.ofBits_zero_f32

/-- It is real when the matrix and the row are. -/
theorem isReal_rowRelu {a n : Nat} (v : FVec Ideal ⟨2, ![a, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![a, n]⟩)
    (hv : IsReal v) (hbias : IsReal b) : IsReal (rowRelu v b hc hb) := fun j => by
  obtain ⟨p, c, rfl⟩ : ∃ (p : Fin a) (c : Fin n), j = ix2 p c := ⟨j 0, j 1, eq_ix2 j⟩
  rw [rowRelu_apply]
  exact isReal_max_zero (isReal_add (hv _) (hbias _))

/-- A zero splat passed through a shape cast to its own shape reads `0` everywhere. -/
theorem zeroSplat_apply {s : Shape} (h : s.ShapeCasts s) (j : s.Idx) :
    shapeCast s (broadcast s (Scalar.ofBits (F := Ideal) .f32 0x00000000#32)) h j = 0 := by
  rw [shapeCast_self, broadcast_apply]
  exact Ideal.ofBits_zero_f32

end Cert.KernelIdeal.Pay

end
-- ==== Proof.Pay0.lean ====
/-
  The first kernel's stored values, read at an index, on the extended reals.
  The accumulator is started at the zero splat; each grid step adds to it the block product  A_blk · (X_blk · W1),
  both products taken in three passes, which on real entries are the plain products; the last step stores the
  accumulator plus the bias row, cut off at `0`.
-/
import proofs.«100211_j10565619548474_2_alg».proof.Proof.Dot
import proofs.«100211_j10565619548474_2_alg».proof.Proof.BiasRelu

noncomputable section

namespace Cert.KernelIdeal.Pay

open Cert.KernelIdeal Cert.KernelIdeal.Gen Cert.Spec Idealize.ShloMosaic Idealize.ShloMosaic.ValueIdx

/-- The value the accumulator is started at is `0` everywhere. -/
theorem pay3_0 (r : Fin 2048) (c : Fin 64) : k0_pay3 (F := Ideal) (ix2 r c) = 0 :=
  zeroSplat_apply shapeCasts_S2048x64_S2048x64 (ix2 r c)

/-- The accumulator is stored back as it is. -/
theorem pay1_0 (v : FVec Ideal S2048x64 .f32) : k0_pay1 (F := Ideal) v = v :=
  shapeCast_self v shapeCasts_S2048x64_S2048x64

/-- The step's new accumulator, as the old one plus a product in three passes of the adjacency block with a product in
    three passes of the feature block and the weights. -/
theorem k0_pay4_eq (v6 : Vec Ideal S1024x32 .f32) (v7 : Vec Ideal S32x64 .f32) (v21 : Vec Ideal S2048x64 .f32)
    (v22 : Vec Ideal S2048x1024 .f32) :
    k0_pay4 (F := Ideal) v6 v7 v21 v22
      = addf (F := Ideal) v21 (dot3 dot_S2048x1024_S1024x64_S2048x64_1_0_0_1_n_n v22
          (dot3 dot_S1024x32_S32x64_S1024x64_1_0_0_1_n_n v6 v7)) := rfl

/-- The step's new accumulator at `(r, c)`: the old one plus row `r` of the adjacency block times column `c` of the
    projected features. -/
theorem pay4_0 (v6 : Vec Ideal S1024x32 .f32) (v7 : Vec Ideal S32x64 .f32) (v21 : Vec Ideal S2048x64 .f32)
    (v22 : Vec Ideal S2048x1024 .f32) (h6 : IsReal v6) (h7 : IsReal v7) (h22 : IsReal v22) (r : Fin 2048) (c : Fin 64) :
    k0_pay4 (F := Ideal) v6 v7 v21 v22 (ix2 r c)
      = v21 (ix2 r c) + ∑ n : Fin 1024, v22 (ix2 r n) * ∑ f : Fin 32, v6 (ix2 n f) * v7 (ix2 f c) := by
  rw [k0_pay4_eq, addf_apply,
    dot3_2048x1024x64 v22 _ h22 (isReal_dot3_1024x32x64 v6 v7 h6 h7) r c]
  refine congrArg (v21 (ix2 r c) + ·) (Finset.sum_congr rfl fun n _ => ?_)
  rw [dot3_1024x32x64 v6 v7 h6 h7 n c]

/-- The last step's stored value, as the bias row added to the accumulator and cut off at `0`. -/
theorem k0_pay2_eq (v43 : Vec Ideal S2048x64 .f32) (v44 : Vec Ideal S1x64 .f32) :
    k0_pay2 (F := Ideal) v43 v44 = rowRelu (a := 2048) (n := 64) v43 v44 shapeCasts_S1x64_S1x64 broadcasts_S1x64_S2048x64 :=
  rfl

/-- The last step's stored value at `(r, c)`. -/
theorem pay2_0 (v43 : Vec Ideal S2048x64 .f32) (v44 : Vec Ideal S1x64 .f32) (r : Fin 2048) (c : Fin 64) :
    k0_pay2 (F := Ideal) v43 v44 (ix2 r c) = max (v43 (ix2 r c) + v44 (ix2 0 c)) 0 := by
  rw [k0_pay2_eq, rowRelu_apply]

end Cert.KernelIdeal.Pay

end
-- ==== Proof.Tiles.lean ====
/-
  Sixteen contraction tiles of 1024 make up the 16384 columns: a sum over all columns is the sum over the tiles of the
  sums within each tile. Addition of extended reals is commutative and associative, so no finiteness is needed here.
-/
import Mathlib.Algebra.BigOperators.Fin
import Mathlib.Data.EReal.Basic
import Mathlib.Logic.Equiv.Fin.Basic

namespace Cert.Spec

theorem sum_tiles {M : Type} [AddCommMonoid M] (g : ℕ → M) :
    ∑ k ∈ Finset.range 16, ∑ n : Fin 1024, g (1024 * k + n.val) = ∑ N : Fin 16384, g N.val := by
  rw [Finset.sum_range (fun k => ∑ n : Fin 1024, g (1024 * k + n.val))]
  refine (Fintype.sum_prod_type' (fun (k : Fin 16) (n : Fin 1024) => g (1024 * k.val + n.val))).symm.trans ?_
  exact Fintype.sum_equiv (finProdFinEquiv (m := 16) (n := 1024)) _ (fun N : Fin (16 * 1024) => g N.val) (fun x => by
    rcases x with ⟨k, n⟩
    show g (1024 * k.val + n.val) = g (n.val + 1024 * k.val)
    rw [Nat.add_comm])

end Cert.Spec
-- ==== Proof.ValueI.Acc0.lean ====
/-
  Region 0 at the extended reals: the accumulator after every grid point, in closed form, and the first layer's result.

  Point `t` is row tile `t / 16`, contraction tile `t % 16`. After point `t` entry (r, j) of the accumulator is the sum,
  over the contraction tiles k ≤ t % 16, of  ∑ n < 1024,  A (2048·(t/16) + r, 1024·k + n) · H1 (1024·k + n, j)  with
  H1 = X · W1: by induction on the point — the tile's product is added to zero at contraction tile 0 and to the previous
  point's accumulator afterwards; the three-term split product of the body is the plain product because every entry is a
  real number. At contraction tile 15 the sixteen tiles make up all 16384 columns, so the accumulator is row
  2048·(t/16) + r of A · H1, and the block the point stores is those rows of relu (A · H1 + b1).
-/
import proofs.«100211_j10565619548474_2_alg».proof.Proof.ValueI.Pieces0
import proofs.«100211_j10565619548474_2_alg».proof.Proof.ValueI.Blocks0
import proofs.«100211_j10565619548474_2_alg».proof.Proof.Pay0
import proofs.«100211_j10565619548474_2_alg».proof.Proof.RealClosure
import proofs.«100211_j10565619548474_2_alg».proof.Proof.Tiles
import proofs.«100211_j10565619548474_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Pay

variable (V : (c : Dev nD) → (b : Ref sig .tc) → Buf (Elt Ideal) ((c : Thread nD τ).loc b))

/-! ## The region's arrays as matrices -/

abbrev Aof (c : Dev nD) : Mat 16384 16384 := (V c main_arg1 : Vec Ideal S16384x16384 .f32)
abbrev Xof (c : Dev nD) : Mat 16384 32 := (V c main_arg0 : Vec Ideal S16384x32 .f32)
abbrev W1of (c : Dev nD) : Mat 32 64 := (V c main_arg2 : Vec Ideal S32x64 .f32)
abbrev B1of (c : Dev nD) : Mat 1 64 := (V c main_call0_v0 : Vec Ideal S1x64 .f32)
/-- The one row of a [1, b] matrix as a vector. -/
def rowVec {b : Nat} (v : Mat 1 b) : Vec1 b := fun i => v (ix2 (0 : Fin 1) (i 0 : Fin b))

/-- Entry (R, N) of the adjacency, 0 outside the array. -/
def atA (c : Dev nD) (R N : ℕ) : EReal := if h : R < 16384 ∧ N < 16384 then Aof V c (ix2 ⟨R, h.1⟩ ⟨N, h.2⟩) else 0
/-- Entry (N, j) of the projected features X · W1, 0 outside the array. -/
def atH (c : Dev nD) (N : ℕ) (j : Fin 64) : EReal := if h : N < 16384 then H1 (Xof V c) (W1of V c) (ix2 ⟨N, h⟩ j) else 0
/-- Contraction tile `k`'s share of entry (R, j) of A · H1. -/
def tileSum (c : Dev nD) (R k : ℕ) (j : Fin 64) : EReal := ∑ n : Fin 1024, atA V c R (1024 * k + n.val) * atH V c (1024 * k + n.val) j

theorem N0 : cfg0.N = 128 := N_0

/-! ## Every block entry is a real number when every array entry is -/

theorem real_blk0_0 (c : Dev nD) (t : Fin cfg0.N) (hA : IsReal (Aof V c)) : IsReal (iblk0 V c 0 t : Vec Ideal S2048x1024 .f32) := fun j' => by
  have ht : t.val < 128 := lt_of_lt_of_eq t.isLt N0
  obtain ⟨r, n, rfl⟩ : ∃ (r : Fin 2048) (n : Fin 1024), j' = ix2 r n := ⟨j' 0, j' 1, eq_ix2 j'⟩
  rw [iblk0_0_apply V c t r n (by have := r.isLt; omega) (by have := n.isLt; omega)]
  exact hA _
theorem real_ld0 (c : Dev nD) (t : Fin cfg0.N) (hX : IsReal (Xof V c)) :
    IsReal (View.ld (iblk0 V c 1 t : Vec Ideal S16384x32 .f32) (Rect.unit (s := S16384x32) (k0_off1 (grid0.coords t)) S1024x32.size (k0_off1_inb (grid0.coords t)))) := fun j' => by
  obtain ⟨n, f, rfl⟩ : ∃ (n : Fin 1024) (f : Fin 32), j' = ix2 n f := ⟨j' 0, j' 1, eq_ix2 j'⟩
  rw [ld0_apply t _ n f (by have := n.isLt; omega), iblk0_1_apply]
  exact hX _
theorem real_blk0_2 (c : Dev nD) (t : Fin cfg0.N) (hW : IsReal (W1of V c)) : IsReal (iblk0 V c 2 t : Vec Ideal S32x64 .f32) := fun j' => by
  obtain ⟨f, j, rfl⟩ : ∃ (f : Fin 32) (j : Fin 64), j' = ix2 f j := ⟨j' 0, j' 1, eq_ix2 j'⟩
  rw [iblk0_2_apply]
  exact hW _

/-! ## One point's step -/

/-- The accumulator `prev` plus the tile's product, at (r, j). -/
theorem step0 (c : Dev nD) (t : Fin cfg0.N) (hA : IsReal (Aof V c)) (hX : IsReal (Xof V c)) (hW : IsReal (W1of V c))
    (prev : Vec Ideal S2048x64 .f32) (r : Fin 2048) (j : Fin 64) :
    k0_pay1 (F := Ideal) (k0_pay4 (View.ld (iblk0 V c 1 t : Vec Ideal S16384x32 .f32) (Rect.unit (s := S16384x32) (k0_off1 (grid0.coords t)) S1024x32.size (k0_off1_inb (grid0.coords t)))) (iblk0 V c 2 t) prev (iblk0 V c 0 t)) (ix2 r j)
      = prev (ix2 r j) + tileSum V c (2048 * (t.val / 16) + r.val) (t.val % 16) j := by
  have ht : t.val < 128 := lt_of_lt_of_eq t.isLt N0
  have hr := r.isLt
  rw [pay1_0, pay4_0 _ _ _ _ (real_ld0 V c t hX) (real_blk0_2 V c t hW) (real_blk0_0 V c t hA) r j]
  refine congrArg _ ?_
  unfold tileSum
  refine Finset.sum_congr rfl fun n _ => ?_
  have hn := n.isLt
  have hR : 2048 * (t.val / 16) + r.val < 16384 := by omega
  have hN : 1024 * (t.val % 16) + n.val < 16384 := by omega
  rw [iblk0_0_apply V c t r n hR hN]
  unfold atA atH
  rw [dif_pos ⟨hR, hN⟩, dif_pos hN]
  refine congrArg _ ?_
  unfold H1 mm
  refine Finset.sum_congr rfl fun f _ => ?_
  rw [ld0_apply t _ n f hN, iblk0_1_apply, iblk0_2_apply]

/-! ## The accumulator after every point -/

theorem acc0_eq (c : Dev nD) (hA : IsReal (Aof V c)) (hX : IsReal (Xof V c)) (hW : IsReal (W1of V c)) :
    ∀ (n : ℕ) (h : n < cfg0.N) (r : Fin 2048) (j : Fin 64),
      (outsAt0 V c n h).2 (ix2 r j) = ∑ k ∈ Finset.range (n % 16 + 1), tileSum V c (2048 * (n / 16) + r.val) k j
  | 0, h, r, j => by
    rw [outsAt0_A V c ⟨0, h⟩ rfl (by dsimp only; omega)]
    dsimp only
    rw [sout0_A_eq]
    refine (step0 V c ⟨0, h⟩ hA hX hW _ r j).trans ?_
    show k0_pay3 (F := Ideal) (ix2 r j) + tileSum V c (2048 * (0 / 16) + r.val) (0 % 16) j = _
    rw [pay3_0]
    simp only [Nat.zero_mod, Nat.zero_div, zero_add, Finset.sum_range_one]
  | n + 1, h, r, j => by
    have hN : n + 1 < 128 := lt_of_lt_of_eq h N0
    by_cases h0 : (n + 1) % 16 = 0
    · rw [outsAt0_A V c ⟨n + 1, h⟩ h0 (by dsimp only; omega)]
      dsimp only
      rw [sout0_A_eq]
      refine (step0 V c ⟨n + 1, h⟩ hA hX hW _ r j).trans ?_
      show k0_pay3 (F := Ideal) (ix2 r j) + tileSum V c (2048 * ((n + 1) / 16) + r.val) ((n + 1) % 16) j = _
      rw [pay3_0, h0]
      simp only [zero_add, Finset.sum_range_one]
    · have ih := acc0_eq c hA hX hW n (Nat.lt_of_succ_lt h) r j
      have hq : (n + 1) / 16 = n / 16 := by omega
      have hm : (n + 1) % 16 = n % 16 + 1 := by omega
      by_cases h1 : (n + 1) % 16 = 15
      · rw [outsAt0_C V c ⟨n + 1, h⟩ h0 h1]
        dsimp only
        rw [sout0_C_eq]
        refine (step0 V c ⟨n + 1, h⟩ hA hX hW _ r j).trans ?_
        show (outsAt0 V c n (Nat.lt_of_succ_lt h)).2 (ix2 r j) + tileSum V c (2048 * ((n + 1) / 16) + r.val) ((n + 1) % 16) j = _
        rw [ih, hq, hm, Finset.sum_range_succ _ (n % 16 + 1)]
      · rw [outsAt0_B V c ⟨n + 1, h⟩ h0 h1]
        dsimp only
        rw [sout0_B_eq]
        refine (step0 V c ⟨n + 1, h⟩ hA hX hW _ r j).trans ?_
        show (outsAt0 V c n (Nat.lt_of_succ_lt h)).2 (ix2 r j) + tileSum V c (2048 * ((n + 1) / 16) + r.val) ((n + 1) % 16) j = _
        rw [ih, hq, hm, Finset.sum_range_succ _ (n % 16 + 1)]

/-- Sixteen tiles are the whole row of the product. -/
theorem tiles_eq_mm (c : Dev nD) (R : Fin 16384) (j : Fin 64) :
    ∑ k ∈ Finset.range 16, tileSum V c R.val k j = mm (Aof V c) (H1 (Xof V c) (W1of V c)) (ix2 R j) := by
  unfold tileSum
  rw [sum_tiles (fun N => atA V c R.val N * atH V c N j)]
  unfold mm
  refine Finset.sum_congr rfl fun N _ => ?_
  unfold atA atH
  rw [dif_pos ⟨R.isLt, N.isLt⟩, dif_pos N.isLt]

end Cert.KernelIdeal.Hand

end
-- ==== Proof.ValueI.Final0.lean ====
/-
  Region 0's result: the array `main_v0` after the region is the first layer, relu (A · (X · W1) + b1), of the arrays the
  region was entered with. A point of contraction tile 15 stores rows [2048·(t/16), +2048) of it (the accumulator there
  is those rows of A · (X · W1)); the eight such points cover all 16384 rows.
-/
import proofs.«100211_j10565619548474_2_alg».proof.Proof.ValueI.Acc0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Pay

variable (V : (c : Dev nD) → (b : Ref sig .tc) → Buf (Elt Ideal) ((c : Thread nD τ).loc b))

/-- The first layer of the region's entry arrays. -/
abbrev layer1 (c : Dev nD) : Vec Ideal S16384x64 .f32 := G1 (Xof V c) (Aof V c) (W1of V c) (rowVec (B1of V c))

/-- Element (r, j) of the output block at `t` sits at row 2048·(t/16) + r of the result. -/
theorem emb0_4 (t : Fin cfg0.N) (r : Fin 2048) (j : Fin 64) (hR : 2048 * (t.val / 16) + r.val < 16384) :
    (((cfg0.win 4).blk t).view.emb (ix2 r j) : S16384x64.Idx) = ix2 ⟨2048 * (t.val / 16) + r.val, hR⟩ j := by
  funext a
  apply Fin.ext
  match a with
  | ⟨0, _⟩ => show win0_4.index t 0 * 2048 + 1 * r.val = 2048 * (t.val / 16) + r.val; rw [(idx0_4 t).1]; omega
  | ⟨1, _⟩ => show win0_4.index t 1 * 64 + 1 * j.val = j.val; rw [(idx0_4 t).2]; omega

/-- What a point of contraction tile 15 writes back is its block of the first layer. -/
theorem flushed0_eq (c : Dev nD) (hA : IsReal (Aof V c)) (hX : IsReal (Xof V c)) (hW : IsReal (W1of V c))
    (t : Fin cfg0.N) (hf : (cfg0.win 4).flush t = true) :
    (dat0 V c).flushed 4 t = ((cfg0.win 4).blk t).view.read (Elt Ideal) (layer1 V c) := by
  have h15 : t.val % 16 = 15 := (flush0_4 t).mp hf
  have h0 : ¬ t.val % 16 = 0 := by omega
  have ht : t.val < 128 := lt_of_lt_of_eq t.isLt N0
  show (cfg0.win 4).cut (grid0.coords t) ((dat0 V c).after 4 t) = _
  rw [after0_4]
  funext j'
  obtain ⟨r, j, rfl⟩ : ∃ (r : Fin 2048) (j : Fin 64), j' = ix2 r j := ⟨j' 0, j' 1, eq_ix2 j'⟩
  have hR : 2048 * (t.val / 16) + r.val < 16384 := by have := r.isLt; omega
  have hacc := acc0_eq V c hA hX hW t.val t.isLt r j
  rw [outsAt0_C V c t h0 h15] at hacc ⊢
  dsimp only at hacc ⊢
  rw [sout0_C_eq] at hacc
  rw [out0_C_eq]
  show k0_pay2 (F := Ideal) _ _ (ix2 r j) = layer1 V c (((cfg0.win 4).blk t).view.emb (ix2 r j))
  rw [pay2_0, hacc, h15, emb0_4 t r j hR, iblk0_3_apply]
  have hm := tiles_eq_mm V c ⟨2048 * (t.val / 16) + r.val, hR⟩ j
  dsimp only at hm
  rw [hm]
  rfl

/-- An index of the result is in point `t`'s block iff each coordinate is in the block's range on its axis. -/
theorem memBlk0_4 (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v0).slice (win0_4.rect t)).set ↔ _
  rw [View.set_slice_whole, Rect.mem_set_unit]
  exact Iff.rfl

/-- Every row of the result is in the block of the last contraction tile of its row tile. -/
theorem covered0_4 (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have hN : 16 * ((i 0).val / 2048) + 15 < cfg0.N := by rw [N0]; omega
  refine ⟨⟨16 * ((i 0).val / 2048) + 15, hN⟩, (flush0_4 _).mpr (by dsimp only; omega), ?_⟩
  rw [memBlk0_4]
  intro a
  match a with
  | ⟨0, _⟩ =>
    show win0_4.index ⟨16 * ((i 0).val / 2048) + 15, hN⟩ 0 * 2048 ≤ (i 0).val ∧ (i 0).val < win0_4.index ⟨16 * ((i 0).val / 2048) + 15, hN⟩ 0 * 2048 + 2048
    rw [(idx0_4 ⟨16 * ((i 0).val / 2048) + 15, hN⟩).1]; dsimp only; omega
  | ⟨1, _⟩ =>
    show win0_4.index ⟨16 * ((i 0).val / 2048) + 15, hN⟩ 1 * 64 ≤ (i 1).val ∧ (i 1).val < win0_4.index ⟨16 * ((i 0).val / 2048) + 15, hN⟩ 1 * 64 + 64
    rw [(idx0_4 ⟨16 * ((i 0).val / 2048) + 15, hN⟩).2]; omega

/-- The result array after region 0. -/
theorem final0 (c : Dev nD) (hA : IsReal (Aof V c)) (hX : IsReal (Xof V c)) (hW : IsReal (W1of V c)) :
    (dat0 V c).arrAt 4 cfg0.N = layer1 V c :=
  (dat0 V c).arrAt_eq_of_cover 4 (layer1 V c) (fun t hf => flushed0_eq V c hA hX hW t hf) (covered0_4)

end Cert.KernelIdeal.Hand

end
-- ==== Proof.ValueI.Entry.lean ====
/-
  The arrays each region is entered with, as the specification's matrices of the launch memory: region 0 finds the
  arguments themselves and the first bias as one row; so what it leaves in its output array — which region 1 keeps
  resident — is the first layer G1 of the arguments.
-/
import proofs.«100211_j10565619548474_2_alg».proof.Proof.ValueI.Fold
import proofs.«100211_j10565619548474_2_alg».proof.Proof.ValueI.Final0
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

/-- The one row of a vector reshaped to one row is the vector. -/
theorem rowVec_cast {a : ℕ} (b : Vec1 a) (h : (⟨1, ![a]⟩ : Shape).ShapeCasts ⟨2, ![1, a]⟩) :
    rowVec (shapeCast ⟨2, ![1, a]⟩ b h : Mat 1 a) = b := by
  funext i
  obtain ⟨j, rfl⟩ : ∃ j : Fin a, i = ix1 j := ⟨i 0, eq_ix1 i⟩
  exact shapeCast_a_1a_apply b h 0 j

/-- A vector of real numbers reshaped to one row is a row of real numbers. -/
theorem isReal_cast {a : ℕ} (b : Vec1 a) (h : (⟨1, ![a]⟩ : Shape).ShapeCasts ⟨2, ![1, a]⟩) (hb : IsReal b) :
    IsReal (shapeCast ⟨2, ![1, a]⟩ b h : Mat 1 a) := fun j' => by
  obtain ⟨u, j, rfl⟩ : ∃ (u : Fin 1) (j : Fin a), j' = ix2 u j := ⟨j' 0, j' 1, eq_ix2 j'⟩
  rw [shapeCast_a_1a_apply]
  exact hb _

variable (m : (ℓ : Loc nD τ sig) → Buf (Elt Ideal) ℓ) (ρ : Dev nD → PrngReg)

/-- What region 0 leaves in its output array: the first layer of the arguments. -/
theorem first_layer (c : Dev nD) (h0 : IsReal ((m ((c : Thread nD τ).loc main_arg0)) : Mat 16384 32)) (h1 : IsReal ((m ((c : Thread nD τ).loc main_arg1)) : Mat 16384 16384))
    (h2 : IsReal ((m ((c : Thread nD τ).loc main_arg2)) : Mat 32 64)) :
    ((dat0 (V1 m ρ) c).arrAt 4 cfg0.N : Vec Ideal S16384x64 .f32)
      = G1 (m ((c : Thread nD τ).loc main_arg0)) (m ((c : Thread nD τ).loc main_arg1)) (m ((c : Thread nD τ).loc main_arg2)) (m ((c : Thread nD τ).loc main_arg3)) := by
  have eX : (W1 m ρ c (Proc.devRef .tc main_arg0) : Vec Ideal S16384x32 .f32) = (m ((c : Thread nD τ).loc main_arg0)) := W1_main_arg0 m ρ c
  have eA : (W1 m ρ c (Proc.devRef .tc main_arg1) : Vec Ideal S16384x16384 .f32) = (m ((c : Thread nD τ).loc main_arg1)) := W1_main_arg1 m ρ c
  have eW : (W1 m ρ c (Proc.devRef .tc main_arg2) : Vec Ideal S32x64 .f32) = (m ((c : Thread nD τ).loc main_arg2)) := W1_main_arg2 m ρ c
  have eB : (W1 m ρ c (Proc.devRef .tc main_call0_v0) : Vec Ideal S1x64 .f32) = shapeCast S1x64 (m ((c : Thread nD τ).loc main_arg3)) shapeCasts_S64_S1x64 := W1_call0 m ρ c
  have hA : IsReal (Aof (V1 m ρ) c) := by
    show IsReal (W1 m ρ c (Proc.devRef .tc main_arg1) : Mat 16384 16384); rw [eA]; exact h1
  have hX : IsReal (Xof (V1 m ρ) c) := by
    show IsReal (W1 m ρ c (Proc.devRef .tc main_arg0) : Mat 16384 32); rw [eX]; exact h0
  have hW : IsReal (W1of (V1 m ρ) c) := by
    show IsReal (W1 m ρ c (Proc.devRef .tc main_arg2) : Mat 32 64); rw [eW]; exact h2
  rw [final0 (V1 m ρ) c hA hX hW]
  show G1 (W1 m ρ c (Proc.devRef .tc main_arg0) : Mat 16384 32) (W1 m ρ c (Proc.devRef .tc main_arg1) : Mat 16384 16384)
      (W1 m ρ c (Proc.devRef .tc main_arg2) : Mat 32 64) (rowVec (W1 m ρ c (Proc.devRef .tc main_call0_v0) : Mat 1 64)) = _
  rw [eX, eA, eW, eB]
  exact congrArg _ (rowVec_cast (a := 64) _ _)

end Cert.KernelIdeal.Hand

end
-- ==== Proof.ValueI.Pieces1.lean ====
/-
  Region 1: what each control case leaves, as the body's arithmetic applied to the buffers' contents.

  The body loads the whole adjacency block, the whole weight matrix, and rows [1024·k, 1024·k + 1024) of the resident
  feature matrix (k the contraction index), forms the tile's product and adds it to the accumulator: in case A to the
  zero block it has just stored, in cases B and C to what the point before left. In case C it then stores the output
  block computed from the new accumulator.
-/
import proofs.«100211_j10565619548474_2_alg».proof.Proof.FrameI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
theorem hz2 : (![0, 0] : Fin 2 → Nat) = fun _ => 0 := funext fun a => by fin_cases a <;> rfl

/-- Case B: the accumulator `xs` plus the tile's product. -/
theorem sout1_B_eq (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    sout1_B c i arg2 harg2 arg3 harg3 arg4 harg4 arg5 harg5 arg6 harg6 arg7 harg7 arg8 harg8 arg9 harg9 arg10 harg10 arg11 harg11 hc0 hc1 x0 x1 x2 x3 x4 x5 x6 x7 xs = k1_pay1 (k1_pay5 (View.ld x1 (Rect.unit (s := S16384x64) (k1_off1 i) S1024x64.size (k1_off1_inb i))) x2 xs x0) := by
  unfold sout1_B
  rw [View.read_writes_eq_canon _ _ _ (scover1_B c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S16384x64) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2, View.ld_unit_zero (S := S2048x1) hz2, View.ld_unit_zero (S := S2048x64) hz2]

/-- Case C leaves the same in the accumulator, -/
theorem sout1_C_eq (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    sout1_C c i arg2 harg2 arg3 harg3 arg4 harg4 arg5 harg5 arg6 harg6 arg7 harg7 arg8 harg8 arg9 harg9 arg10 harg10 arg11 harg11 hc0 hc1 x0 x1 x2 x3 x4 x5 x6 x7 xs = k1_pay1 (k1_pay5 (View.ld x1 (Rect.unit (s := S16384x64) (k1_off1 i) S1024x64.size (k1_off1_inb i))) x2 xs x0) := by
  unfold sout1_C
  rw [View.read_writes_eq_canon _ _ _ (scover1_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S16384x64) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2, View.ld_unit_zero (S := S2048x1) hz2, View.ld_unit_zero (S := S2048x64) hz2]

/-- and stores the output block computed from it. -/
theorem out1_C_eq (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) (xs : Vec F S2048x64 .f32) :
    out1_C c i arg2 harg2 arg3 harg3 arg4 harg4 arg5 harg5 arg6 harg6 arg7 harg7 arg8 harg8 arg9 harg9 arg10 harg10 arg11 harg11 hc0 hc1 x0 x1 x2 x3 x4 x5 x6 x7 xs = k1_pay2 (k1_pay3 (k1_pay1 (k1_pay5 (View.ld x1 (Rect.unit (s := S16384x64) (k1_off1 i) S1024x64.size (k1_off1_inb i))) x2 xs x0)) x3 x4 x5 x6) x7 := by
  unfold out1_C
  rw [View.read_writes_eq_canon _ _ _ (cover1_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_C
  dsimp only
  sl_unfold_words
  rw [View.canon_unit_zero hz2]
  simp only [View.readAt_eq_ld, View.readCov_unit_zero (S := S2048x64) _ hz2, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S16384x64) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2, View.ld_unit_zero (S := S2048x1) hz2, View.ld_unit_zero (S := S2048x64) hz2]

/-- Case A: the zero block plus the tile's product. -/
theorem sout1_A_eq (c : Dev nD) (i : grid1.Coords) (arg2 : Memref sig .tc .vmem S2048x1024 .f32) (harg2 : arg2.IsWhole) (arg3 : Memref sig .tc .vmem S16384x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S2048x1024 .f32) (x1 : Vec F S16384x64 .f32) (x2 : Vec F S64x64 .f32) (x3 : Vec F S1x64 .f32) (x4 : Vec F S64x32 .f32) (x5 : Vec F S1x32 .f32) (x6 : Vec F S32x1 .f32) (x7 : Vec F S1x1 .f32) :
    sout1_A c i arg2 harg2 arg3 harg3 arg4 harg4 arg5 harg5 arg6 harg6 arg7 harg7 arg8 harg8 arg9 harg9 arg10 harg10 arg11 harg11 hc0 hc1 x0 x1 x2 x3 x4 x5 x6 x7 = k1_pay1 (k1_pay5 (View.ld x1 (Rect.unit (s := S16384x64) (k1_off1 i) S1024x64.size (k1_off1_inb i))) x2 (k1_pay4 (F := F)) x0) := by
  unfold sout1_A
  rw [View.read_writes_eq_canon _ _ _ (scover1_A c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S2048x64) hz2]
  simp only [View.readAt_eq_ld, View.readCov_unit_zero (S := S2048x64) _ hz2, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S16384x64) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2, View.ld_unit_zero (S := S2048x1) hz2, View.ld_unit_zero (S := S2048x64) hz2]

end Cert.KernelIdeal.Hand

end
-- ==== Proof.ValueI.Blocks1.lean ====
/-
  Region 1: the windows' blocks read at coordinates. Point `t` of the grid is row tile `t / 16`, contraction tile
  `t % 16`. The adjacency block at `t` is rows [2048·(t/16), +2048) by columns [1024·(t%16), +1024) of the adjacency;
  the first layer's result, the three weight matrices and the three bias rows are resident whole (block index (0, 0));
  the body reads rows [1024·(t%16), +1024) of the resident first-layer result; the output block is rows
  [2048·(t/16), +2048) of the result column.
-/
import proofs.«100211_j10565619548474_2_alg».proof.Proof.FrameI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The index maps, decided over the grid -/

theorem idx1_0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = 0 ∧ win1_7.index t 1 = 0 :=
  (by decide +kernel : ∀ t : Fin grid1.N, win1_7.index t 0 = 0 ∧ win1_7.index t 1 = 0)
theorem idx1_8 : ∀ t : Fin cfg1.N, win1_8.index t 0 = t.val / 16 ∧ win1_8.index t 1 = 0 :=
  (by decide +kernel : ∀ t : Fin grid1.N, win1_8.index t 0 = t.val / 16 ∧ win1_8.index t 1 = 0)
/-- The first row the body reads of the resident first-layer result. -/
theorem off1 : ∀ t : Fin cfg1.N, k1_off1 (grid1.coords t) 0 = 1024 * (t.val % 16) ∧ k1_off1 (grid1.coords t) 1 = 0 :=
  (by decide +kernel : ∀ t : Fin grid1.N, k1_off1 (grid1.coords t) 0 = 1024 * (t.val % 16) ∧ k1_off1 (grid1.coords t) 1 = 0)

/-! ## The blocks at coordinates -/

/-- The adjacency block. -/
theorem iblk1_0_apply (c : Dev nD) (t : Fin cfg1.N) (r : Fin 2048) (n : Fin 1024)
    (hr : 2048 * (t.val / 16) + r.val < 16384) (hn : 1024 * (t.val % 16) + n.val < 16384) :
    (iblk1 V c 0 t : Vec F S2048x1024 .f32) (ix2 r n)
      = (V c main_arg1 : Vec F S16384x16384 .f32) (ix2 ⟨2048 * (t.val / 16) + r.val, hr⟩ ⟨1024 * (t.val % 16) + n.val, hn⟩) := by
  unfold iblk1
  rw [View.read_apply]
  show (V c main_arg1 : Vec F S16384x16384 .f32) _ = _
  refine congrArg _ ?_
  funext a
  apply Fin.ext
  match a with
  | ⟨0, _⟩ => show win1_0.index t 0 * 2048 + 1 * r.val = 2048 * (t.val / 16) + r.val; rw [(idx1_0 t).1]; omega
  | ⟨1, _⟩ => show win1_0.index t 1 * 1024 + 1 * n.val = 1024 * (t.val % 16) + n.val; rw [(idx1_0 t).2]; omega

/-- The first layer's result, resident whole. -/
theorem iblk1_1_apply (c : Dev nD) (t : Fin cfg1.N) (r : Fin 16384) (f : Fin 64) :
    (iblk1 V c 1 t : Vec F S16384x64 .f32) (ix2 r f) = (V c main_v0 : Vec F S16384x64 .f32) (ix2 r f) := by
  unfold iblk1
  rw [View.read_apply]
  show (V c main_v0 : Vec F S16384x64 .f32) _ = _
  refine congrArg _ ?_
  funext a
  apply Fin.ext
  match a with
  | ⟨0, _⟩ => show win1_1.index t 0 * 16384 + 1 * r.val = r.val; rw [(idx1_1 t).1]; omega
  | ⟨1, _⟩ => show win1_1.index t 1 * 64 + 1 * f.val = f.val; rw [(idx1_1 t).2]; omega

/-- The resident second-layer weights. -/
theorem iblk1_2_apply (c : Dev nD) (t : Fin cfg1.N) (f : Fin 64) (j : Fin 64) :
    (iblk1 V c 2 t : Vec F S64x64 .f32) (ix2 f j) = (V c main_arg4 : Vec F S64x64 .f32) (ix2 f j) := by
  unfold iblk1
  rw [View.read_apply]
  show (V c main_arg4 : Vec F S64x64 .f32) _ = _
  refine congrArg _ ?_
  funext a
  apply Fin.ext
  match a with
  | ⟨0, _⟩ => show win1_2.index t 0 * 64 + 1 * f.val = f.val; rw [(idx1_2 t).1]; omega
  | ⟨1, _⟩ => show win1_2.index t 1 * 64 + 1 * j.val = j.val; rw [(idx1_2 t).2]; omega

/-- The resident second-layer bias row. -/
theorem iblk1_3_apply (c : Dev nD) (t : Fin cfg1.N) (z : Fin 1) (j : Fin 64) :
    (iblk1 V c 3 t : Vec F S1x64 .f32) (ix2 z j) = (V c main_call1_v0 : Vec F S1x64 .f32) (ix2 z j) := by
  unfold iblk1
  rw [View.read_apply]
  show (V c main_call1_v0 : Vec F S1x64 .f32) _ = _
  refine congrArg _ ?_
  funext a
  apply Fin.ext
  match a with
  | ⟨0, _⟩ => show win1_3.index t 0 * 1 + 1 * z.val = z.val; rw [(idx1_3 t).1]; omega
  | ⟨1, _⟩ => show win1_3.index t 1 * 64 + 1 * j.val = j.val; rw [(idx1_3 t).2]; omega

/-- The resident weights of the head's hidden layer. -/
theorem iblk1_4_apply (c : Dev nD) (t : Fin cfg1.N) (f : Fin 64) (j : Fin 32) :
    (iblk1 V c 4 t : Vec F S64x32 .f32) (ix2 f j) = (V c main_arg6 : Vec F S64x32 .f32) (ix2 f j) := by
  unfold iblk1
  rw [View.read_apply]
  show (V c main_arg6 : Vec F S64x32 .f32) _ = _
  refine congrArg _ ?_
  funext a
  apply Fin.ext
  match a with
  | ⟨0, _⟩ => show win1_4.index t 0 * 64 + 1 * f.val = f.val; rw [(idx1_4 t).1]; omega
  | ⟨1, _⟩ => show win1_4.index t 1 * 32 + 1 * j.val = j.val; rw [(idx1_4 t).2]; omega

/-- The resident bias row of the head's hidden layer. -/
theorem iblk1_5_apply (c : Dev nD) (t : Fin cfg1.N) (z : Fin 1) (j : Fin 32) :
    (iblk1 V c 5 t : Vec F S1x32 .f32) (ix2 z j) = (V c main_call1_v1 : Vec F S1x32 .f32) (ix2 z j) := by
  unfold iblk1
  rw [View.read_apply]
  show (V c main_call1_v1 : Vec F S1x32 .f32) _ = _
  refine congrArg _ ?_
  funext a
  apply Fin.ext
  match a with
  | ⟨0, _⟩ => show win1_5.index t 0 * 1 + 1 * z.val = z.val; rw [(idx1_5 t).1]; omega
  | ⟨1, _⟩ => show win1_5.index t 1 * 32 + 1 * j.val = j.val; rw [(idx1_5 t).2]; omega

/-- The resident weights of the head's last layer. -/
theorem iblk1_6_apply (c : Dev nD) (t : Fin cfg1.N) (f : Fin 32) (z : Fin 1) :
    (iblk1 V c 6 t : Vec F S32x1 .f32) (ix2 f z) = (V c main_arg8 : Vec F S32x1 .f32) (ix2 f z) := by
  unfold iblk1
  rw [View.read_apply]
  show (V c main_arg8 : Vec F S32x1 .f32) _ = _
  refine congrArg _ ?_
  funext a
  apply Fin.ext
  match a with
  | ⟨0, _⟩ => show win1_6.index t 0 * 32 + 1 * f.val = f.val; rw [(idx1_6 t).1]; omega
  | ⟨1, _⟩ => show win1_6.index t 1 * 1 + 1 * z.val = z.val; rw [(idx1_6 t).2]; omega

/-- The resident bias of the head's last layer. -/
theorem iblk1_7_apply (c : Dev nD) (t : Fin cfg1.N) (z : Fin 1) (y : Fin 1) :
    (iblk1 V c 7 t : Vec F S1x1 .f32) (ix2 z y) = (V c main_call1_v2 : Vec F S1x1 .f32) (ix2 z y) := by
  unfold iblk1
  rw [View.read_apply]
  show (V c main_call1_v2 : Vec F S1x1 .f32) _ = _
  refine congrArg _ ?_
  funext a
  apply Fin.ext
  match a with
  | ⟨0, _⟩ => show win1_7.index t 0 * 1 + 1 * z.val = z.val; rw [(idx1_7 t).1]; omega
  | ⟨1, _⟩ => show win1_7.index t 1 * 1 + 1 * y.val = y.val; rw [(idx1_7 t).2]; omega

/-- The rows of the resident first-layer result the body loads at point `t`. -/
theorem ld1_apply (t : Fin cfg1.N) (x : Vec F S16384x64 .f32) (n : Fin 1024) (f : Fin 64)
    (hn : 1024 * (t.val % 16) + n.val < 16384) :
    View.ld x (Rect.unit (s := S16384x64) (k1_off1 (grid1.coords t)) S1024x64.size (k1_off1_inb (grid1.coords t))) (ix2 n f)
      = x (ix2 ⟨1024 * (t.val % 16) + n.val, hn⟩ f) := by
  show x _ = x _
  refine congrArg _ ?_
  funext a
  apply Fin.ext
  match a with
  | ⟨0, _⟩ => show k1_off1 (grid1.coords t) 0 + 1 * n.val = 1024 * (t.val % 16) + n.val; rw [(off1 t).1]; omega
  | ⟨1, _⟩ => show k1_off1 (grid1.coords t) 1 + 1 * f.val = f.val; rw [(off1 t).2]; omega

end Cert.KernelIdeal.Hand

end
-- ==== Proof.Pay1.lean ====
/-
  The second kernel's stored values, read at an index, on the extended reals.
  The accumulator is started at the zero splat; each grid step adds to it the block product  A_blk · (G1_blk · W2),
  both products in three passes; the last step takes the accumulator plus the bias row cut off at `0` (the second
  layer), multiplies it by the head's first weights, adds the head's bias row and cuts off at `0` (the hidden layer),
  multiplies by the head's second weights — again products in three passes — and adds the last bias.
-/
import proofs.«100211_j10565619548474_2_alg».proof.Proof.Dot
import proofs.«100211_j10565619548474_2_alg».proof.Proof.BiasRelu

noncomputable section

namespace Cert.KernelIdeal.Pay

open Cert.KernelIdeal Cert.KernelIdeal.Gen Cert.Spec Idealize.ShloMosaic Idealize.ShloMosaic.ValueIdx

/-- The value the accumulator is started at is `0` everywhere. -/
theorem pay4_1 (r : Fin 2048) (c : Fin 64) : k1_pay4 (F := Ideal) (ix2 r c) = 0 :=
  zeroSplat_apply shapeCasts_S2048x64_S2048x64 (ix2 r c)

/-- The accumulator is stored back as it is. -/
theorem pay1_1 (v : FVec Ideal S2048x64 .f32) : k1_pay1 (F := Ideal) v = v :=
  shapeCast_self v shapeCasts_S2048x64_S2048x64

/-- The step's new accumulator, as the old one plus a product in three passes of the adjacency block with a product in
    three passes of the first layer's block and the weights. -/
theorem k1_pay5_eq (v6 : Vec Ideal S1024x64 .f32) (v8 : Vec Ideal S64x64 .f32) (v22 : Vec Ideal S2048x64 .f32)
    (v23 : Vec Ideal S2048x1024 .f32) :
    k1_pay5 (F := Ideal) v6 v8 v22 v23
      = addf (F := Ideal) v22 (dot3 dot_S2048x1024_S1024x64_S2048x64_1_0_0_1_n_n v23
          (dot3 dot_S1024x64_S64x64_S1024x64_1_0_0_1_n_n (shapeCast S1024x64 v6 shapeCasts_S1024x64_S1024x64) v8)) := rfl

/-- The step's new accumulator at `(r, c)`: the old one plus row `r` of the adjacency block times column `c` of the
    projected first layer. -/
theorem pay5_1 (v6 : Vec Ideal S1024x64 .f32) (v8 : Vec Ideal S64x64 .f32) (v22 : Vec Ideal S2048x64 .f32)
    (v23 : Vec Ideal S2048x1024 .f32) (h6 : IsReal v6) (h8 : IsReal v8) (h23 : IsReal v23) (r : Fin 2048) (c : Fin 64) :
    k1_pay5 (F := Ideal) v6 v8 v22 v23 (ix2 r c)
      = v22 (ix2 r c) + ∑ n : Fin 1024, v23 (ix2 r n) * ∑ f : Fin 64, v6 (ix2 n f) * v8 (ix2 f c) := by
  rw [k1_pay5_eq, shapeCast_self, addf_apply,
    dot3_2048x1024x64 v23 _ h23 (isReal_dot3_1024x64x64 v6 v8 h6 h8) r c]
  refine congrArg (v22 (ix2 r c) + ·) (Finset.sum_congr rfl fun n _ => ?_)
  rw [dot3_1024x64x64 v6 v8 h6 h8 n c]

/-- The head's value before the last bias, as two products in three passes around the two cut-off bias additions. -/
theorem k1_pay3_eq (v44 : Vec Ideal S2048x64 .f32) (v45 : Vec Ideal S1x64 .f32) (v51 : Vec Ideal S64x32 .f32)
    (v65 : Vec Ideal S1x32 .f32) (v71 : Vec Ideal S32x1 .f32) :
    k1_pay3 (F := Ideal) v44 v45 v51 v65 v71
      = dot3 dot_S2048x32_S32x1_S2048x1_1_0_0_1_n_n
          (rowRelu (a := 2048) (n := 32)
            (dot3 dot_S2048x64_S64x32_S2048x32_1_0_0_1_n_n
              (rowRelu (a := 2048) (n := 64) v44 v45 shapeCasts_S1x64_S1x64 broadcasts_S1x64_S2048x64) v51)
            v65 shapeCasts_S1x32_S1x32 broadcasts_S1x32_S2048x32)
          v71 := rfl

/-- The head's value before the last bias at row `r`: the hidden layer's row times the last weights, the hidden layer
    being the cut-off of the second layer's row times the first weights plus its bias, the second layer the cut-off of
    the accumulator's row plus its bias. -/
theorem pay3_1 (v44 : Vec Ideal S2048x64 .f32) (v45 : Vec Ideal S1x64 .f32) (v51 : Vec Ideal S64x32 .f32)
    (v65 : Vec Ideal S1x32 .f32) (v71 : Vec Ideal S32x1 .f32)
    (h44 : IsReal v44) (h45 : IsReal v45) (h51 : IsReal v51) (h65 : IsReal v65) (h71 : IsReal v71) (r : Fin 2048) :
    k1_pay3 (F := Ideal) v44 v45 v51 v65 v71 (ix2 r 0)
      = ∑ e : Fin 32, max ((∑ h : Fin 64, max (v44 (ix2 r h) + v45 (ix2 0 h)) 0 * v51 (ix2 h e)) + v65 (ix2 0 e)) 0
          * v71 (ix2 e 0) := by
  have hG : IsReal (rowRelu (a := 2048) (n := 64) v44 v45 shapeCasts_S1x64_S1x64 broadcasts_S1x64_S2048x64) :=
    isReal_rowRelu v44 v45 _ _ h44 h45
  have hD : IsReal (rowRelu (a := 2048) (n := 32)
      (dot3 dot_S2048x64_S64x32_S2048x32_1_0_0_1_n_n
        (rowRelu (a := 2048) (n := 64) v44 v45 shapeCasts_S1x64_S1x64 broadcasts_S1x64_S2048x64) v51)
      v65 shapeCasts_S1x32_S1x32 broadcasts_S1x32_S2048x32) :=
    isReal_rowRelu _ v65 _ _ (isReal_dot3_2048x64x32 _ v51 hG h51) h65
  rw [k1_pay3_eq, dot3_2048x32x1 _ v71 hD h71 r 0]
  refine Finset.sum_congr rfl fun e _ => ?_
  rw [rowRelu_apply, dot3_2048x64x32 _ v51 hG h51 r e]
  refine congrArg (fun t => max (t + v65 (ix2 0 e)) 0 * v71 (ix2 e 0)) (Finset.sum_congr rfl fun h _ => ?_)
  rw [rowRelu_apply]

/-- The stored result, as the last bias added to every row. -/
theorem k1_pay2_eq (v84 : FVec Ideal S2048x1 .f32) (v85 : Vec Ideal S1x1 .f32) :
    k1_pay2 (F := Ideal) v84 v85 = rowAdd (a := 2048) (n := 1) v84 v85 shapeCasts_S1x1_S1x1 broadcasts_S1x1_S2048x1 := rfl

/-- The stored result at row `r`. -/
theorem pay2_1 (v84 : FVec Ideal S2048x1 .f32) (v85 : Vec Ideal S1x1 .f32) (r : Fin 2048) :
    k1_pay2 (F := Ideal) v84 v85 (ix2 r 0) = v84 (ix2 r 0) + v85 (ix2 0 0) := by
  rw [k1_pay2_eq, rowAdd_apply]

end Cert.KernelIdeal.Pay

end
-- ==== Proof.ValueI.Acc1.lean ====
/-
  Region 1 at the extended reals: the accumulator after every grid point, in closed form.

  Point `t` is row tile `t / 16`, contraction tile `t % 16`. After point `t` entry (r, j) of the accumulator is the sum,
  over the contraction tiles k ≤ t % 16, of  ∑ n < 1024,  A (2048·(t/16) + r, 1024·k + n) · H2 (1024·k + n, j)  with
  H2 = G1 · W2, G1 the first layer's result the region was entered with: by induction on the point — the tile's product
  is added to zero at contraction tile 0 and to the previous point's accumulator afterwards; the three-term split product
  of the body is the plain product because every entry is a real number. At contraction tile 15 the sixteen tiles make up
  all 16384 columns, so the accumulator is row 2048·(t/16) + r of A · H2.
-/
import proofs.«100211_j10565619548474_2_alg».proof.Proof.ValueI.Pieces1
import proofs.«100211_j10565619548474_2_alg».proof.Proof.ValueI.Blocks1
import proofs.«100211_j10565619548474_2_alg».proof.Proof.ValueI.Acc0
import proofs.«100211_j10565619548474_2_alg».proof.Proof.Pay1
import proofs.«100211_j10565619548474_2_alg».proof.Proof.RealClosure
import proofs.«100211_j10565619548474_2_alg».proof.Proof.Tiles
import proofs.«100211_j10565619548474_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Pay

variable (V : (c : Dev nD) → (b : Ref sig .tc) → Buf (Elt Ideal) ((c : Thread nD τ).loc b))

/-! ## The region's arrays as matrices -/

abbrev A1of (c : Dev nD) : Mat 16384 16384 := (V c main_arg1 : Vec Ideal S16384x16384 .f32)
/-- The first layer's result, as the region was entered with it. -/
abbrev G1of (c : Dev nD) : Mat 16384 64 := (V c main_v0 : Vec Ideal S16384x64 .f32)
abbrev W2of (c : Dev nD) : Mat 64 64 := (V c main_arg4 : Vec Ideal S64x64 .f32)
abbrev B2of (c : Dev nD) : Mat 1 64 := (V c main_call1_v0 : Vec Ideal S1x64 .f32)
abbrev Wd1of (c : Dev nD) : Mat 64 32 := (V c main_arg6 : Vec Ideal S64x32 .f32)
abbrev Bd1of (c : Dev nD) : Mat 1 32 := (V c main_call1_v1 : Vec Ideal S1x32 .f32)
abbrev Wd2of (c : Dev nD) : Mat 32 1 := (V c main_arg8 : Vec Ideal S32x1 .f32)
abbrev Bd2of (c : Dev nD) : Mat 1 1 := (V c main_call1_v2 : Vec Ideal S1x1 .f32)

/-- Entry (R, N) of the adjacency, 0 outside the array. -/
def atA1 (c : Dev nD) (R N : ℕ) : EReal := if h : R < 16384 ∧ N < 16384 then A1of V c (ix2 ⟨R, h.1⟩ ⟨N, h.2⟩) else 0
/-- Entry (N, j) of the projected first layer G1 · W2, 0 outside the array. -/
def atH1 (c : Dev nD) (N : ℕ) (j : Fin 64) : EReal := if h : N < 16384 then mm (G1of V c) (W2of V c) (ix2 ⟨N, h⟩ j) else 0
/-- Contraction tile `k`'s share of entry (R, j) of A · (G1 · W2). -/
def tileSum1 (c : Dev nD) (R k : ℕ) (j : Fin 64) : EReal := ∑ n : Fin 1024, atA1 V c R (1024 * k + n.val) * atH1 V c (1024 * k + n.val) j

theorem N1 : cfg1.N = 128 := N_1

/-! ## Every block entry is a real number when every array entry is -/

theorem real_blk1_0 (c : Dev nD) (t : Fin cfg1.N) (hA : IsReal (A1of V c)) : IsReal (iblk1 V c 0 t : Vec Ideal S2048x1024 .f32) := fun j' => by
  have ht : t.val < 128 := lt_of_lt_of_eq t.isLt N1
  obtain ⟨r, n, rfl⟩ : ∃ (r : Fin 2048) (n : Fin 1024), j' = ix2 r n := ⟨j' 0, j' 1, eq_ix2 j'⟩
  rw [iblk1_0_apply V c t r n (by have := r.isLt; omega) (by have := n.isLt; omega)]
  exact hA _
theorem real_ld1 (c : Dev nD) (t : Fin cfg1.N) (hG : IsReal (G1of V c)) :
    IsReal (View.ld (iblk1 V c 1 t : Vec Ideal S16384x64 .f32) (Rect.unit (s := S16384x64) (k1_off1 (grid1.coords t)) S1024x64.size (k1_off1_inb (grid1.coords t)))) := fun j' => by
  obtain ⟨n, f, rfl⟩ : ∃ (n : Fin 1024) (f : Fin 64), j' = ix2 n f := ⟨j' 0, j' 1, eq_ix2 j'⟩
  rw [ld1_apply t _ n f (by have := n.isLt; omega), iblk1_1_apply]
  exact hG _
theorem real_blk1_2 (c : Dev nD) (t : Fin cfg1.N) (hW : IsReal (W2of V c)) : IsReal (iblk1 V c 2 t : Vec Ideal S64x64 .f32) := fun j' => by
  obtain ⟨f, j, rfl⟩ : ∃ (f : Fin 64) (j : Fin 64), j' = ix2 f j := ⟨j' 0, j' 1, eq_ix2 j'⟩
  rw [iblk1_2_apply]
  exact hW _

/-! ## One point's step -/

/-- The accumulator `prev` plus the tile's product, at (r, j). -/
theorem step1 (c : Dev nD) (t : Fin cfg1.N) (hA : IsReal (A1of V c)) (hG : IsReal (G1of V c)) (hW : IsReal (W2of V c))
    (prev : Vec Ideal S2048x64 .f32) (r : Fin 2048) (j : Fin 64) :
    k1_pay1 (F := Ideal) (k1_pay5 (View.ld (iblk1 V c 1 t : Vec Ideal S16384x64 .f32) (Rect.unit (s := S16384x64) (k1_off1 (grid1.coords t)) S1024x64.size (k1_off1_inb (grid1.coords t)))) (iblk1 V c 2 t) prev (iblk1 V c 0 t)) (ix2 r j)
      = prev (ix2 r j) + tileSum1 V c (2048 * (t.val / 16) + r.val) (t.val % 16) j := by
  have ht : t.val < 128 := lt_of_lt_of_eq t.isLt N1
  have hr := r.isLt
  rw [pay1_1, pay5_1 _ _ _ _ (real_ld1 V c t hG) (real_blk1_2 V c t hW) (real_blk1_0 V c t hA) r j]
  refine congrArg _ ?_
  unfold tileSum1
  refine Finset.sum_congr rfl fun n _ => ?_
  have hn := n.isLt
  have hR : 2048 * (t.val / 16) + r.val < 16384 := by omega
  have hN : 1024 * (t.val % 16) + n.val < 16384 := by omega
  rw [iblk1_0_apply V c t r n hR hN]
  unfold atA1 atH1
  rw [dif_pos ⟨hR, hN⟩, dif_pos hN]
  refine congrArg _ ?_
  unfold mm
  refine Finset.sum_congr rfl fun f _ => ?_
  rw [ld1_apply t _ n f hN, iblk1_1_apply, iblk1_2_apply]

/-! ## The accumulator after every point -/

theorem acc1_eq (c : Dev nD) (hA : IsReal (A1of V c)) (hG : IsReal (G1of V c)) (hW : IsReal (W2of V c)) :
    ∀ (n : ℕ) (h : n < cfg1.N) (r : Fin 2048) (j : Fin 64),
      (outsAt1 V c n h).2 (ix2 r j) = ∑ k ∈ Finset.range (n % 16 + 1), tileSum1 V c (2048 * (n / 16) + r.val) k j
  | 0, h, r, j => by
    rw [outsAt1_A V c ⟨0, h⟩ rfl (by dsimp only; omega)]
    dsimp only
    rw [sout1_A_eq]
    refine (step1 V c ⟨0, h⟩ hA hG hW _ r j).trans ?_
    show k1_pay4 (F := Ideal) (ix2 r j) + tileSum1 V c (2048 * (0 / 16) + r.val) (0 % 16) j = _
    rw [pay4_1]
    simp only [Nat.zero_mod, Nat.zero_div, zero_add, Finset.sum_range_one]
  | n + 1, h, r, j => by
    have hN : n + 1 < 128 := lt_of_lt_of_eq h N1
    by_cases h0 : (n + 1) % 16 = 0
    · rw [outsAt1_A V c ⟨n + 1, h⟩ h0 (by dsimp only; omega)]
      dsimp only
      rw [sout1_A_eq]
      refine (step1 V c ⟨n + 1, h⟩ hA hG hW _ r j).trans ?_
      show k1_pay4 (F := Ideal) (ix2 r j) + tileSum1 V c (2048 * ((n + 1) / 16) + r.val) ((n + 1) % 16) j = _
      rw [pay4_1, h0]
      simp only [zero_add, Finset.sum_range_one]
    · have ih := acc1_eq c hA hG hW n (Nat.lt_of_succ_lt h) r j
      have hq : (n + 1) / 16 = n / 16 := by omega
      have hm : (n + 1) % 16 = n % 16 + 1 := by omega
      by_cases h1 : (n + 1) % 16 = 15
      · rw [outsAt1_C V c ⟨n + 1, h⟩ h0 h1]
        dsimp only
        rw [sout1_C_eq]
        refine (step1 V c ⟨n + 1, h⟩ hA hG hW _ r j).trans ?_
        show (outsAt1 V c n (Nat.lt_of_succ_lt h)).2 (ix2 r j) + tileSum1 V c (2048 * ((n + 1) / 16) + r.val) ((n + 1) % 16) j = _
        rw [ih, hq, hm, Finset.sum_range_succ _ (n % 16 + 1)]
      · rw [outsAt1_B V c ⟨n + 1, h⟩ h0 h1]
        dsimp only
        rw [sout1_B_eq]
        refine (step1 V c ⟨n + 1, h⟩ hA hG hW _ r j).trans ?_
        show (outsAt1 V c n (Nat.lt_of_succ_lt h)).2 (ix2 r j) + tileSum1 V c (2048 * ((n + 1) / 16) + r.val) ((n + 1) % 16) j = _
        rw [ih, hq, hm, Finset.sum_range_succ _ (n % 16 + 1)]

/-- Sixteen tiles are the whole row of the product. -/
theorem tiles1_eq_mm (c : Dev nD) (R : Fin 16384) (j : Fin 64) :
    ∑ k ∈ Finset.range 16, tileSum1 V c R.val k j = mm (A1of V c) (mm (G1of V c) (W2of V c)) (ix2 R j) := by
  unfold tileSum1
  rw [sum_tiles (fun N => atA1 V c R.val N * atH1 V c N j)]
  show _ = ∑ N : Fin 16384, A1of V c (ix2 R N) * mm (G1of V c) (W2of V c) (ix2 N j)
  refine Finset.sum_congr rfl fun N _ => ?_
  unfold atA1 atH1
  rw [dif_pos ⟨R.isLt, N.isLt⟩, dif_pos N.isLt]

end Cert.KernelIdeal.Hand

end
-- ==== Proof.ValueI.Cover1.lean ====
/-
  Region 1's output window: point `t`'s block is rows [2048·(t/16), +2048) of the result column, and the points that
  write back, those with contraction tile 15, cover every row: row `r` lies in the block of point 16·(r/2048) + 15.
-/
import proofs.«100211_j10565619548474_2_alg».proof.Proof.ValueI.Blocks1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- An index of the result column is in point `t`'s block iff each coordinate is in the block's range on its axis. -/
theorem memBlk1_8 (t : Fin cfg1.N) (i : S16384x1.Idx) :
    i ∈ ((cfg1.win 8).blk t).view.set ↔ ∀ a : Fin 2, win1_8.index t a * S2048x1.size a ≤ (i a).val ∧ (i a).val < win1_8.index t a * S2048x1.size a + S2048x1.size a := by
  show i ∈ ((View.whole main_v1).slice (win1_8.rect t)).set ↔ _
  rw [View.set_slice_whole, Rect.mem_set_unit]
  exact Iff.rfl

/-- Every index of the result column is in the block of a point that writes back. -/
theorem covered1_8 (i : S16384x1.Idx) :
    ∃ t : Fin cfg1.N, (cfg1.win 8).flush t = true ∧ i ∈ ((cfg1.win 8).blk t).view.set := by
  have hi0 : (i 0).val < 16384 := (i 0).isLt
  have hi1 : (i 1).val < 1 := (i 1).isLt
  have hN : cfg1.N = 128 := N_1
  have ht : 16 * ((i 0).val / 2048) + 15 < cfg1.N := by rw [hN]; omega
  refine ⟨⟨16 * ((i 0).val / 2048) + 15, ht⟩, (flush1_8 _).mpr (by show (16 * ((i 0).val / 2048) + 15) % 16 = 15; omega), ?_⟩
  rw [memBlk1_8]
  obtain ⟨e0, e1⟩ := idx1_8 ⟨16 * ((i 0).val / 2048) + 15, ht⟩
  have e0' : win1_8.index ⟨16 * ((i 0).val / 2048) + 15, ht⟩ 0 = (16 * ((i 0).val / 2048) + 15) / 16 := e0
  intro a
  match a with
  | ⟨0, _⟩ =>
    show win1_8.index ⟨16 * ((i 0).val / 2048) + 15, ht⟩ 0 * 2048 ≤ (i 0).val
      ∧ (i 0).val < win1_8.index ⟨16 * ((i 0).val / 2048) + 15, ht⟩ 0 * 2048 + 2048
    rw [e0']; omega
  | ⟨1, _⟩ =>
    show win1_8.index ⟨16 * ((i 0).val / 2048) + 15, ht⟩ 1 * 1 ≤ (i 1).val
      ∧ (i 1).val < win1_8.index ⟨16 * ((i 0).val / 2048) + 15, ht⟩ 1 * 1 + 1
    rw [e1]; omega

end Cert.KernelIdeal.Hand

end
-- ==== Proof.ValueI.Final1.lean ====
/-
  Region 1's result: the array `main_v1` after the region is the head applied to the second layer,
      relu (relu (A · (G1 · W2) + b2) · Wd1 + bd1) · Wd2 + bd2,
  of the arrays the region was entered with (G1 the first layer's result). A point of contraction tile 15 stores rows
  [2048·(t/16), +2048) of it: the accumulator there is those rows of A · (G1 · W2), and the body computes the head from
  it, its products in three passes being the plain products because every entry is a real number; the eight such points
  cover all 16384 rows.
-/
import proofs.«100211_j10565619548474_2_alg».proof.Proof.ValueI.Acc1
import proofs.«100211_j10565619548474_2_alg».proof.Proof.ValueI.Cover1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Pay

variable (V : (c : Dev nD) → (b : Ref sig .tc) → Buf (Elt Ideal) ((c : Thread nD τ).loc b))

/-- The second layer of the region's entry arrays. -/
abbrev layer2 (c : Dev nD) : Mat 16384 64 :=
  biasRelu (mm (A1of V c) (mm (G1of V c) (W2of V c))) (rowVec (B2of V c))

/-- The head applied to the second layer. -/
abbrev head (c : Dev nD) : Vec Ideal S16384x1 .f32 :=
  addBias (mm (biasRelu (mm (layer2 V c) (Wd1of V c)) (rowVec (Bd1of V c))) (Wd2of V c)) (rowVec (Bd2of V c))

/-- Element (r, 0) of the output block at `t` sits at row 2048·(t/16) + r of the result. -/
theorem emb1_8 (t : Fin cfg1.N) (r : Fin 2048) (z : Fin 1) (hR : 2048 * (t.val / 16) + r.val < 16384) :
    (((cfg1.win 8).blk t).view.emb (ix2 r z) : S16384x1.Idx) = ix2 ⟨2048 * (t.val / 16) + r.val, hR⟩ z := by
  funext a
  apply Fin.ext
  match a with
  | ⟨0, _⟩ => show win1_8.index t 0 * 2048 + 1 * r.val = 2048 * (t.val / 16) + r.val; rw [(idx1_8 t).1]; omega
  | ⟨1, _⟩ => show win1_8.index t 1 * 1 + 1 * z.val = z.val; rw [(idx1_8 t).2]; omega

/-! ## The resident blocks are real when the arrays are -/

theorem real_blk1_3 (c : Dev nD) (t : Fin cfg1.N) (hB : IsReal (B2of V c)) : IsReal (iblk1 V c 3 t : Vec Ideal S1x64 .f32) := fun j' => by
  obtain ⟨z, j, rfl⟩ : ∃ (z : Fin 1) (j : Fin 64), j' = ix2 z j := ⟨j' 0, j' 1, eq_ix2 j'⟩
  rw [iblk1_3_apply]
  exact hB _
theorem real_blk1_4 (c : Dev nD) (t : Fin cfg1.N) (hW : IsReal (Wd1of V c)) : IsReal (iblk1 V c 4 t : Vec Ideal S64x32 .f32) := fun j' => by
  obtain ⟨f, j, rfl⟩ : ∃ (f : Fin 64) (j : Fin 32), j' = ix2 f j := ⟨j' 0, j' 1, eq_ix2 j'⟩
  rw [iblk1_4_apply]
  exact hW _
theorem real_blk1_5 (c : Dev nD) (t : Fin cfg1.N) (hB : IsReal (Bd1of V c)) : IsReal (iblk1 V c 5 t : Vec Ideal S1x32 .f32) := fun j' => by
  obtain ⟨z, j, rfl⟩ : ∃ (z : Fin 1) (j : Fin 32), j' = ix2 z j := ⟨j' 0, j' 1, eq_ix2 j'⟩
  rw [iblk1_5_apply]
  exact hB _
theorem real_blk1_6 (c : Dev nD) (t : Fin cfg1.N) (hW : IsReal (Wd2of V c)) : IsReal (iblk1 V c 6 t : Vec Ideal S32x1 .f32) := fun j' => by
  obtain ⟨f, z, rfl⟩ : ∃ (f : Fin 32) (z : Fin 1), j' = ix2 f z := ⟨j' 0, j' 1, eq_ix2 j'⟩
  rw [iblk1_6_apply]
  exact hW _

/-! ## The accumulator at a point of contraction tile 15 -/

/-- At a point of contraction tile 15 the accumulator is the point's rows of A · (G1 · W2). -/
theorem acc1_last (c : Dev nD) (hA : IsReal (A1of V c)) (hG : IsReal (G1of V c)) (hW2 : IsReal (W2of V c))
    (t : Fin cfg1.N) (h15 : t.val % 16 = 15) (r : Fin 2048) (j : Fin 64) (hR : 2048 * (t.val / 16) + r.val < 16384) :
    (outsAt1 V c t.val t.isLt).2 (ix2 r j)
      = mm (A1of V c) (mm (G1of V c) (W2of V c)) (ix2 ⟨2048 * (t.val / 16) + r.val, hR⟩ j) := by
  rw [acc1_eq V c hA hG hW2 t.val t.isLt r j, h15]
  exact tiles1_eq_mm V c ⟨2048 * (t.val / 16) + r.val, hR⟩ j

/-- What a point of contraction tile 15 writes back is its block of the head of the second layer. -/
theorem flushed1_eq (c : Dev nD) (hA : IsReal (A1of V c)) (hG : IsReal (G1of V c)) (hW2 : IsReal (W2of V c))
    (hB2 : IsReal (B2of V c)) (hWd1 : IsReal (Wd1of V c)) (hBd1 : IsReal (Bd1of V c)) (hWd2 : IsReal (Wd2of V c))
    (t : Fin cfg1.N) (hf : (cfg1.win 8).flush t = true) :
    (dat1 V c).flushed 8 t = ((cfg1.win 8).blk t).view.read (Elt Ideal) (head V c) := by
  have h15 : t.val % 16 = 15 := (flush1_8 t).mp hf
  have h0 : ¬ t.val % 16 = 0 := by omega
  have ht : t.val < 128 := lt_of_lt_of_eq t.isLt N1
  have hRow : ∀ r : Fin 2048, 2048 * (t.val / 16) + r.val < 16384 := fun r => by have := r.isLt; omega
  -- the accumulator after the point, entry by entry, and the output block computed from it
  have hC := outsAt1_C V c t h0 h15
  have hsnd := congrArg Prod.snd hC
  have hfst := congrArg Prod.fst hC
  dsimp only at hsnd hfst
  rw [sout1_C_eq] at hsnd
  rw [out1_C_eq, ← hsnd] at hfst
  have hentry : ∀ (r : Fin 2048) (j : Fin 64), (outsAt1 V c t.val t.isLt).2 (ix2 r j)
      = mm (A1of V c) (mm (G1of V c) (W2of V c)) (ix2 ⟨2048 * (t.val / 16) + r.val, hRow r⟩ j) :=
    fun r j => acc1_last V c hA hG hW2 t h15 r j (hRow r)
  have hRacc : IsReal (outsAt1 V c t.val t.isLt).2 := fun j' => by
    obtain ⟨r, j, rfl⟩ : ∃ (r : Fin 2048) (j : Fin 64), j' = ix2 r j := ⟨j' 0, j' 1, eq_ix2 j'⟩
    rw [hentry r j]
    exact isReal_mm hA (isReal_mm hG hW2) _
  show (cfg1.win 8).cut (grid1.coords t) ((dat1 V c).after 8 t) = _
  rw [after1_8, hfst]
  funext j'
  obtain ⟨r, z, rfl⟩ : ∃ (r : Fin 2048) (z : Fin 1), j' = ix2 r z := ⟨j' 0, j' 1, eq_ix2 j'⟩
  obtain rfl : z = 0 := Subsingleton.elim _ _
  show k1_pay2 (F := Ideal) _ _ (ix2 r 0) = head V c (((cfg1.win 8).blk t).view.emb (ix2 r 0))
  rw [pay2_1, pay3_1 _ _ _ _ _ hRacc (real_blk1_3 V c t hB2) (real_blk1_4 V c t hWd1) (real_blk1_5 V c t hBd1)
    (real_blk1_6 V c t hWd2) r, emb1_8 t r 0 (hRow r), iblk1_7_apply]
  show _ = (∑ e : Fin 32, biasRelu (mm (layer2 V c) (Wd1of V c)) (rowVec (Bd1of V c)) (ix2 ⟨2048 * (t.val / 16) + r.val, hRow r⟩ e)
      * Wd2of V c (ix2 e 0)) + Bd2of V c (ix2 0 0)
  refine congrArg (· + Bd2of V c (ix2 0 0)) (Finset.sum_congr rfl fun e _ => ?_)
  rw [iblk1_6_apply, iblk1_5_apply]
  refine congrArg (· * Wd2of V c (ix2 e 0)) ?_
  show _ = max ((∑ h : Fin 64, layer2 V c (ix2 ⟨2048 * (t.val / 16) + r.val, hRow r⟩ h) * Wd1of V c (ix2 h e))
      + Bd1of V c (ix2 0 e)) 0
  refine congrArg (fun x => max (x + Bd1of V c (ix2 0 e)) 0) (Finset.sum_congr rfl fun h _ => ?_)
  rw [iblk1_4_apply, iblk1_3_apply, hentry r h]
  rfl

/-- The result array after region 1. -/
theorem final1 (c : Dev nD) (hA : IsReal (A1of V c)) (hG : IsReal (G1of V c)) (hW2 : IsReal (W2of V c))
    (hB2 : IsReal (B2of V c)) (hWd1 : IsReal (Wd1of V c)) (hBd1 : IsReal (Bd1of V c)) (hWd2 : IsReal (Wd2of V c)) :
    (dat1 V c).arrAt 8 cfg1.N = head V c :=
  (dat1 V c).arrAt_eq_of_cover 8 (head V c) (fun t hf => flushed1_eq V c hA hG hW2 hB2 hWd1 hBd1 hWd2 t hf)
    (fun i => covered1_8 i)

end Cert.KernelIdeal.Hand

end
-- ==== Proof.ValueI.Whole.lean ====
/-
  The kernel's run, read: at the extended reals, under "every argument entry is a real number", every weakly fair
  execution of the idealized kernel ends with the result array at OUT of the arguments — the specification's
  relu (A · (relu (A · (X · W1) + b1) · W2) + b2) pushed through the two-layer head — and the arguments unchanged.

  Region 1 is entered with the adjacency, the first layer G1 (what region 0 left), the weights, and the biases as rows;
  what it leaves in the result array is the head of the second layer of those, which is OUT by unfolding the
  specification's definitions.
-/
import proofs.«100211_j10565619548474_2_alg».proof.Proof.ValueI.Entry
import proofs.«100211_j10565619548474_2_alg».proof.Proof.ValueI.Final1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- The result array after the run is OUT of the arguments. -/
theorem result_eq (c : Dev nD) (h0 : IsReal ((m ((c : Thread nD τ).loc main_arg0)) : Mat 16384 32)) (h1 : IsReal ((m ((c : Thread nD τ).loc main_arg1)) : Mat 16384 16384))
    (h2 : IsReal ((m ((c : Thread nD τ).loc main_arg2)) : Mat 32 64)) (h3 : IsReal ((m ((c : Thread nD τ).loc main_arg3)) : Vec1 64)) (h4 : IsReal ((m ((c : Thread nD τ).loc main_arg4)) : Mat 64 64))
    (h5 : IsReal ((m ((c : Thread nD τ).loc main_arg5)) : Vec1 64)) (h6 : IsReal ((m ((c : Thread nD τ).loc main_arg6)) : Mat 64 32)) (h7 : IsReal ((m ((c : Thread nD τ).loc main_arg7)) : Vec1 32))
    (h8 : IsReal ((m ((c : Thread nD τ).loc main_arg8)) : Mat 32 1)) :
    (W4 m ρ c (Proc.devRef .tc main_v1) : Vec Ideal S16384x1 .f32)
      = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e1 : (W3 m ρ c (Proc.devRef .tc main_arg1) : Vec Ideal S16384x16384 .f32) = (m ((c : Thread nD τ).loc main_arg1)) := W3_main_arg1 m ρ c
  have e4 : (W3 m ρ c (Proc.devRef .tc main_arg4) : Vec Ideal S64x64 .f32) = (m ((c : Thread nD τ).loc main_arg4)) := W3_main_arg4 m ρ c
  have e6 : (W3 m ρ c (Proc.devRef .tc main_arg6) : Vec Ideal S64x32 .f32) = (m ((c : Thread nD τ).loc main_arg6)) := W3_main_arg6 m ρ c
  have e8 : (W3 m ρ c (Proc.devRef .tc main_arg8) : Vec Ideal S32x1 .f32) = (m ((c : Thread nD τ).loc main_arg8)) := W3_main_arg8 m ρ c
  have eG : (W3 m ρ c (Proc.devRef .tc main_v0) : Vec Ideal S16384x64 .f32) = G1 (m ((c : Thread nD τ).loc main_arg0)) (m ((c : Thread nD τ).loc main_arg1)) (m ((c : Thread nD τ).loc main_arg2)) (m ((c : Thread nD τ).loc main_arg3)) :=
    (W3_main_v0 m ρ c).trans (first_layer m ρ c h0 h1 h2)
  have eB2 : (W3 m ρ c (Proc.devRef .tc main_call1_v0) : Vec Ideal S1x64 .f32) = shapeCast S1x64 (m ((c : Thread nD τ).loc main_arg5)) shapeCasts_S64_S1x64 :=
    (W3_call1_v0 m ρ c).trans (by rw [W2_main_arg5])
  have eBd1 : (W3 m ρ c (Proc.devRef .tc main_call1_v1) : Vec Ideal S1x32 .f32) = shapeCast S1x32 (m ((c : Thread nD τ).loc main_arg7)) shapeCasts_S32_S1x32 :=
    (W3_call1_v1 m ρ c).trans (by rw [W2_main_arg7])
  have eBd2 : (W3 m ρ c (Proc.devRef .tc main_call1_v2) : Vec Ideal S1x1 .f32) = shapeCast S1x1 (m ((c : Thread nD τ).loc main_arg9)) shapeCasts_S1_S1x1 :=
    (W3_call1_v2 m ρ c).trans (by rw [W2_main_arg9])
  have hA : IsReal (A1of (V3 m ρ) c) := by
    show IsReal (W3 m ρ c (Proc.devRef .tc main_arg1) : Mat 16384 16384); rw [e1]; exact h1
  have hG : IsReal (G1of (V3 m ρ) c) := by
    show IsReal (W3 m ρ c (Proc.devRef .tc main_v0) : Mat 16384 64); rw [eG]; exact isReal_G1 h0 h1 h2 h3
  have hW2 : IsReal (W2of (V3 m ρ) c) := by
    show IsReal (W3 m ρ c (Proc.devRef .tc main_arg4) : Mat 64 64); rw [e4]; exact h4
  have hB2 : IsReal (B2of (V3 m ρ) c) := by
    show IsReal (W3 m ρ c (Proc.devRef .tc main_call1_v0) : Mat 1 64); rw [eB2]; exact isReal_cast (a := 64) _ _ h5
  have hWd1 : IsReal (Wd1of (V3 m ρ) c) := by
    show IsReal (W3 m ρ c (Proc.devRef .tc main_arg6) : Mat 64 32); rw [e6]; exact h6
  have hBd1 : IsReal (Bd1of (V3 m ρ) c) := by
    show IsReal (W3 m ρ c (Proc.devRef .tc main_call1_v1) : Mat 1 32); rw [eBd1]; exact isReal_cast (a := 32) _ _ h7
  have hWd2 : IsReal (Wd2of (V3 m ρ) c) := by
    show IsReal (W3 m ρ c (Proc.devRef .tc main_arg8) : Mat 32 1); rw [e8]; exact h8
  rw [W4_main_v1, final1 (V3 m ρ) c hA hG hW2 hB2 hWd1 hBd1 hWd2]
  show addBias (mm (biasRelu (mm (biasRelu (mm (W3 m ρ c (Proc.devRef .tc main_arg1) : Mat 16384 16384) (mm (W3 m ρ c (Proc.devRef .tc main_v0) : Mat 16384 64) (W3 m ρ c (Proc.devRef .tc main_arg4) : Mat 64 64)))
        (rowVec (W3 m ρ c (Proc.devRef .tc main_call1_v0) : Mat 1 64))) (W3 m ρ c (Proc.devRef .tc main_arg6) : Mat 64 32)) (rowVec (W3 m ρ c (Proc.devRef .tc main_call1_v1) : Mat 1 32))) (W3 m ρ c (Proc.devRef .tc main_arg8) : Mat 32 1))
      (rowVec (W3 m ρ c (Proc.devRef .tc main_call1_v2) : Mat 1 1)) = _
  rw [e1, eG, e4, eB2, e6, eBd1, e8, eBd2, rowVec_cast (a := 64), rowVec_cast (a := 32), rowVec_cast (a := 1)]
  rfl

theorem kernel_run (m : (ℓ : Loc nD τ sig) → Buf (Elt Ideal) ℓ) (ρ : Dev nD → PrngReg)
    (hreal : ∀ c : Dev nD, IsReal ((m ((c : Thread nD τ).loc main_arg0)) : Mat 16384 32) ∧ IsReal ((m ((c : Thread nD τ).loc main_arg1)) : Mat 16384 16384) ∧ IsReal ((m ((c : Thread nD τ).loc main_arg2)) : Mat 32 64) ∧ IsReal ((m ((c : Thread nD τ).loc main_arg3)) : Vec1 64) ∧ IsReal ((m ((c : Thread nD τ).loc main_arg4)) : Mat 64 64) ∧ IsReal ((m ((c : Thread nD τ).loc main_arg5)) : Vec1 64) ∧ IsReal ((m ((c : Thread nD τ).loc main_arg6)) : Mat 64 32) ∧ IsReal ((m ((c : Thread nD τ).loc main_arg7)) : Vec1 32) ∧ IsReal ((m ((c : Thread nD τ).loc main_arg8)) : Mat 32 1) ∧ IsReal ((m ((c : Thread nD τ).loc main_arg9)) : Vec1 1)) :
    θ_run defs (onTc (τ := τ) (main (F := Ideal))) ⟨m, fun _ => 0, ρ⟩ (fun r => ∀ c : Dev nD,
      r.2.mem ((c.tc : Thread nD τ).loc main_v1) = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨h0, h1, h2, h3, h4, h5, h6, h7, h8, h9⟩ := hreal c
    exact ⟨(h c _ (mem_uc main_v1 (by decide))).trans (result_eq m ρ c h0 h1 h2 h3 h4 h5 h6 h7 h8),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩)
    (run_all (F := Ideal) m ρ)

end Cert.KernelIdeal.Hand

end
-- ==== Proof.PreReal.lean ====
/-
  Under the precondition every entry of every argument array is a real number: the precondition says of each argument
  that the absolute value of every entry is below +∞, and an extended real whose absolute value is below +∞ is
  neither infinity.
-/
import proofs.«100211_j10565619548474_2_alg».proof.Defs
import proofs.«100211_j10565619548474_2_alg».proof.Proof.Spec
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx Idealize.SL.Sem Cert.Spec

/-- The scalar shape has one index. -/
instance subsingleton_idx0 : Subsingleton (⟨0, ![]⟩ : Shape).Idx := ⟨fun a b => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The single-precision pattern of +∞ is +∞. -/
theorem f32_inf : Ideal.ofBits .f32 0x7F800000#32 = (⊤ : EReal) := by simp [Ideal.ofBits, Ideal.ieee]

/-- If the conjunction over all entries of |v| < +∞ is true, every entry of v is a real number. -/
theorem isReal_of_all {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf v) (broadcastInDim s ![] hb (constant (F := Ideal) ⟨0, ![]⟩ .f32 0x7F800000#32)))
          (constantI ⟨0, ![]⟩ 1 1#1) hr hu ix0 = 1#1) : IsReal v := by
  intro i
  have h1 := Host.reduce_andi_all _ _ hr hu ix0 e i
  change Ideal.cmp .olt (max (v i) (-(v i))) (Ideal.ofBits .f32 0x7F800000#32) = 1#1 at h1
  rw [f32_inf] at h1
  refine real_of_abs_lt_top (v i) ?_
  simp only [Ideal.cmp] at h1
  by_contra hn
  rw [decide_eq_false hn] at h1
  exact absurd h1 (by decide)

/-- Under the precondition all ten arguments have only real entries. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg0))
      ∧ Cert.Spec.IsReal (m ((c.tc : Thread Cert.KernelIdeal.nD Cert.KernelIdeal.τ).loc Cert.KernelIdeal.main_arg1))
      ∧ Cert.Spec.IsReal (m ((c.tc : Thread Cert.KernelIdeal.nD Cert.KernelIdeal.τ).loc Cert.KernelIdeal.main_arg2))
      ∧ Cert.Spec.IsReal (m ((c.tc : Thread Cert.KernelIdeal.nD Cert.KernelIdeal.τ).loc Cert.KernelIdeal.main_arg3))
      ∧ Cert.Spec.IsReal (m ((c.tc : Thread Cert.KernelIdeal.nD Cert.KernelIdeal.τ).loc Cert.KernelIdeal.main_arg4))
      ∧ Cert.Spec.IsReal (m ((c.tc : Thread Cert.KernelIdeal.nD Cert.KernelIdeal.τ).loc Cert.KernelIdeal.main_arg5))
      ∧ Cert.Spec.IsReal (m ((c.tc : Thread Cert.KernelIdeal.nD Cert.KernelIdeal.τ).loc Cert.KernelIdeal.main_arg6))
      ∧ Cert.Spec.IsReal (m ((c.tc : Thread Cert.KernelIdeal.nD Cert.KernelIdeal.τ).loc Cert.KernelIdeal.main_arg7))
      ∧ Cert.Spec.IsReal (m ((c.tc : Thread Cert.KernelIdeal.nD Cert.KernelIdeal.τ).loc Cert.KernelIdeal.main_arg8))
      ∧ Cert.Spec.IsReal (m ((c.tc : Thread Cert.KernelIdeal.nD Cert.KernelIdeal.τ).loc Cert.KernelIdeal.main_arg9)) := by
  have h0 := congrFun (h c) ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ _ e0,
    isReal_of_all _ _ _ _ e1,
    isReal_of_all _ _ _ _ e2,
    isReal_of_all _ _ _ _ e3,
    isReal_of_all _ _ _ _ e4,
    isReal_of_all _ _ _ _ e5,
    isReal_of_all _ _ _ _ e6,
    isReal_of_all _ _ _ _ e7,
    isReal_of_all _ _ _ _ e8,
    isReal_of_all _ _ _ _ e9⟩

end Cert.RefSide

end
-- ==== Proof.Claims2.lean ====
/-
  The idealized kernel and the idealized reference end with equal results. Under the precondition every entry of every
  argument is a real number, so the kernel's result array ends at the specification's OUT of its arguments; the
  reference's result array ends at OUT of its own arguments; and the two memories agree on the arguments.
-/
import proofs.«100211_j10565619548474_2_alg».proof.Defs
import proofs.«100211_j10565619548474_2_alg».proof.Proof.ValueI.Whole
import proofs.«100211_j10565619548474_2_alg».proof.Proof.RefSide
import proofs.«100211_j10565619548474_2_alg».proof.Proof.PreReal

noncomputable section

namespace Cert.Proof.Parts

open Idealize.ShloMosaic Idealize.SL.Sem

/-- Both programs run, end with the same result array — OUT of the arguments — and leave the arguments unchanged. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.Spec.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.kernel_run m ρ (fun c => Cert.RefSide.real_of_pre m hpre c), ?_⟩
  refine (θ_run Cert.ReferenceIdeal.defs _ _).mono (fun _ h c => ⟨(h c).1.trans ?_, (h c).2⟩) (Cert.RefSide.ref_run m' ρ')
  obtain ⟨a0, a1, a2, a3, a4, a5, a6, a7, a8, a9⟩ := hagree c
  rw [a0, a1, a2, a3, a4, a5, a6, a7, a8, a9]

end Cert.Proof.Parts

end
-- ==== Proof.lean ====
/-
  Both programs compute a two-layer graph convolution followed by a two-layer head on ten argument arrays:
      G1 = relu (A · (X · W1) + b1),  G2 = relu (A · (G1 · W2) + b2),  D3 = relu (G2 · Wd1 + bd1),  OUT = D3 · Wd2 + bd2.
  The reference computes each matrix product as one sum of products. The kernel computes each layer in one pass over
  the adjacency A, cut into row tiles of 2048 rows and contraction tiles of 1024 columns: for each row tile it adds the
  sixteen contraction tiles' partial products into an accumulator, and after the last one adds the bias, takes the
  positive part and, in the second pass, applies the head. Every product in the kernel is taken through a three-term
  split of its operands: with hi the operand rounded to a narrower format and lo = v − hi, the product is
  hi · hi' + hi · lo' + lo · hi'. Over the extended reals, where a change of format is the identity, hi = v and
  lo = v − v, which is 0 exactly when v is a real number; then the split is the plain product, the sixteen partial sums
  regroup into the one sum over the contraction index, and each layer's entries are again real numbers, so the argument
  repeats from layer to layer. The precondition says every entry of every argument is finite, that is, a real number.

  Proof.Claims1: the kernel and its idealization run and leave their arguments unchanged (Proof.FrameB, Proof.FrameI), and
  the idealization's rewrites are the rule's statements. Proof.RefSide: the reference runs, leaves its arguments unchanged,
  and its result is OUT. Proof.PreReal: the precondition gives real entries. Proof.ValueI: the idealized kernel's result
  is OUT on real arguments. Proof.Claims2: the two results are equal. Proof.Spec: the definitions of G1, G2, D3, OUT.
-/
import proofs.«100211_j10565619548474_2_alg».proof.Defs
import proofs.«100211_j10565619548474_2_alg».proof.Proof.Gen.Kernel
import proofs.«100211_j10565619548474_2_alg».proof.Proof.Gen.KernelIdeal
import proofs.«100211_j10565619548474_2_alg».proof.Proof.Gen.ReferenceIdeal
import proofs.«100211_j10565619548474_2_alg».proof.Proof.Gen.Pre_finite_inputs
import proofs.«100211_j10565619548474_2_alg».proof.Proof.RefSide
import proofs.«100211_j10565619548474_2_alg».proof.Proof.Claims1
import proofs.«100211_j10565619548474_2_alg».proof.Proof.Claims2

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_p, Cert.Proof.Parts.frame_pi, Cert.RefSide.frame_ri, Cert.Proof.Parts.preserves,
    Cert.Proof.Parts.algebraic⟩

end Cert.Proof

end
